-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x40 : Shape := ⟨3, ![3, 128, 40]⟩
abbrev S40 : Shape := ⟨1, ![40]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128 : S_.BroadcastsInDim S128 (![] : Fin 0 → Fin S128.rank)
  reducesTo_S128_S_d0 : S128.ReducesTo [0] S_
  bcast_S_S3x128x40 : S_.BroadcastsInDim S3x128x40 (![] : Fin 0 → Fin S3x128x40.rank)
  reducesTo_S3x128x40_S_d0_1_2 : S3x128x40.ReducesTo [0, 1, 2] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S3x128x40 .f32) (main_arg5 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x40 .f32 := Host.absf main_arg4
  let main_cst_6 : FVec F S_ .f32 := constant S_ .f32 0x7F800000#32
  let main_v20 : FVec F S3x128x40 .f32 := broadcastInDim S3x128x40 ![] bcast_S_S3x128x40 main_cst_6
  let main_v21 : IVec S3x128x40 1 := cmpf .olt main_v19 main_v20
  let main_c_7 : IVec S_ 1 := constantI S_ 1 1#1
  let main_v22 : IVec S_ 1 := (fun x v => Host.reduce IntOp.andi x v reducesTo_S3x128x40_S_d0_1_2 h_S_) main_v21 main_c_7
  let main_v23 : IVec S_ 1 := andi main_v18 main_v22
  let main_v24 : FVec F S40 .f32 := Host.absf main_arg5
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S3x128x128 .f32) (main_arg3 : FVec F S128 .f32) (main_arg4 : FVec F S3x128x40 .f32) (main_arg5 : FVec F S40 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x40 : Shape := ⟨3, ![3, 128, 40]⟩
abbrev S40 : Shape := ⟨1, ![40]⟩
abbrev S_ : Shape := ⟨0, ![]⟩
abbrev S1 : Shape := ⟨1, ![1]⟩
abbrev S1x128 : Shape := ⟨2, ![1, 128]⟩
abbrev S2 : Shape := ⟨1, ![2]⟩
abbrev S400x10000 : Shape := ⟨2, ![400, 10000]⟩
abbrev S400x128 : Shape := ⟨2, ![400, 128]⟩
abbrev S1x128x128 : Shape := ⟨3, ![1, 128, 128]⟩
abbrev S128x128 : Shape := ⟨2, ![128, 128]⟩
abbrev S10000x40 : Shape := ⟨2, ![10000, 40]⟩
abbrev S400x40 : Shape := ⟨2, ![400, 40]⟩
abbrev S400 : Shape := ⟨1, ![400]⟩
abbrev S400x1 : Shape := ⟨2, ![400, 1]⟩

abbrev nBuf : Space → Nat
  | .hbm => 31
  | .vmem => 41
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S3x128x40, .f32⟩
  | .hbm, ⟨5, _⟩ => ⟨S40, .f32⟩
  | .hbm, ⟨6, _⟩ => ⟨S10000x128, .bf16⟩
  | .hbm, ⟨7, _⟩ => ⟨S3x128x128, .bf16⟩
  | .hbm, ⟨8, _⟩ => ⟨S_, .bf16⟩
  | .hbm, ⟨9, _⟩ => ⟨S3x128x128, .bf16⟩
  | .hbm, ⟨10, _⟩ => ⟨S3x128x40, .bf16⟩
  | .hbm, ⟨11, _⟩ => ⟨S_, .i32⟩
  | .hbm, ⟨12, _⟩ => ⟨S1, .i32⟩
  | .hbm, ⟨13, _⟩ => ⟨S3x128x128, .bf16⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S1x128, .f32⟩
  | .hbm, ⟨23, _⟩ => ⟨S10000x10000, .bf16⟩
  | .hbm, ⟨24, _⟩ => ⟨S10000x128, .bf16⟩
  | .hbm, ⟨25, _⟩ => ⟨S10000x128, .f32⟩
  | .hbm, ⟨26, _⟩ => ⟨S10000x128, .bf16⟩
  | .hbm, ⟨27, _⟩ => ⟨S10000x128, .f32⟩
  | .hbm, ⟨28, _⟩ => ⟨S10000x128, .bf16⟩
  | .hbm, ⟨29, _⟩ => ⟨S10000x128, .f32⟩
  | .hbm, ⟨30, _⟩ => ⟨S10000x40, .f32⟩
  | .local _ .vmem, ⟨0, _⟩ => ⟨S400x10000, .f32⟩
  | .local _ .vmem, ⟨1, _⟩ => ⟨S400x10000, .f32⟩
  | .local _ .vmem, ⟨2, _⟩ => ⟨S10000x128, .bf16⟩
  | .local _ .vmem, ⟨3, _⟩ => ⟨S400x128, .bf16⟩
  | .local _ .vmem, ⟨4, _⟩ => ⟨S400x128, .bf16⟩
  | .local _ .vmem, ⟨5, _⟩ => ⟨S3x128x128, .bf16⟩
  | .local _ .vmem, ⟨6, _⟩ => ⟨S1x128, .f32⟩
  | .local _ .vmem, ⟨7, _⟩ => ⟨S400x10000, .bf16⟩
  | .local _ .vmem, ⟨8, _⟩ => ⟨S400x10000, .bf16⟩
  | .local _ .vmem, ⟨9, _⟩ => ⟨S400x128, .bf16⟩
  | .local _ .vmem, ⟨10, _⟩ => ⟨S400x128, .bf16⟩
  | .local _ .vmem, ⟨11, _⟩ => ⟨S400x128, .f32⟩
  | .local _ .vmem, ⟨12, _⟩ => ⟨S400x128, .f32⟩
  | .local _ .vmem, ⟨13, _⟩ => ⟨S400x10000, .bf16⟩
  | .local _ .vmem, ⟨14, _⟩ => ⟨S400x10000, .bf16⟩
  | .local _ .vmem, ⟨15, _⟩ => ⟨S10000x128, .bf16⟩
  | .local _ .vmem, ⟨16, _⟩ => ⟨S400x128, .f32⟩
  | .local _ .vmem, ⟨17, _⟩ => ⟨S400x128, .f32⟩
  | .local _ .vmem, ⟨18, _⟩ => ⟨S3x128x128, .bf16⟩
  | .local _ .vmem, ⟨19, _⟩ => ⟨S1x128, .f32⟩
  | .local _ .vmem, ⟨20, _⟩ => ⟨S400x128, .bf16⟩
  | .local _ .vmem, ⟨21, _⟩ => ⟨S400x128, .bf16⟩
  | .local _ .vmem, ⟨22, _⟩ => ⟨S400x128, .f32⟩
  | .local _ .vmem, ⟨23, _⟩ => ⟨S400x128, .f32⟩
  | .local _ .vmem, ⟨24, _⟩ => ⟨S400x10000, .bf16⟩
  | .local _ .vmem, ⟨25, _⟩ => ⟨S400x10000, .bf16⟩
  | .local _ .vmem, ⟨26, _⟩ => ⟨S10000x128, .bf16⟩
  | .local _ .vmem, ⟨27, _⟩ => ⟨S400x128, .f32⟩
  | .local _ .vmem, ⟨28, _⟩ => ⟨S400x128, .f32⟩
  | .local _ .vmem, ⟨29, _⟩ => ⟨S3x128x128, .bf16⟩
  | .local _ .vmem, ⟨30, _⟩ => ⟨S400x128, .bf16⟩
  | .local _ .vmem, ⟨31, _⟩ => ⟨S400x128, .bf16⟩
  | .local _ .vmem, ⟨32, _⟩ => ⟨S400x128, .f32⟩
  | .local _ .vmem, ⟨33, _⟩ => ⟨S400x128, .f32⟩
  | .local _ .vmem, ⟨34, _⟩ => ⟨S400x10000, .bf16⟩
  | .local _ .vmem, ⟨35, _⟩ => ⟨S400x10000, .bf16⟩
  | .local _ .vmem, ⟨36, _⟩ => ⟨S10000x128, .bf16⟩
  | .local _ .vmem, ⟨37, _⟩ => ⟨S400x128, .f32⟩
  | .local _ .vmem, ⟨38, _⟩ => ⟨S400x128, .f32⟩
  | .local _ .vmem, ⟨39, _⟩ => ⟨S400x40, .f32⟩
  | .local _ .vmem, ⟨40, _⟩ => ⟨S400x40, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v13_0 : Ref sig .tc := ⟨.hbm, 26, rfl⟩
abbrev main_v13_1 : Ref sig .tc := ⟨.hbm, 27, rfl⟩
abbrev main_v14_0 : Ref sig .tc := ⟨.hbm, 28, rfl⟩
abbrev main_v14_1 : Ref sig .tc := ⟨.hbm, 29, rfl⟩
abbrev main_v15 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31
abbrev cc2_sem5_0 : DmaSem sig := 32
abbrev cc2_sem5_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem2_1 : DmaSem sig := 38
abbrev cc3_sem3_0 : DmaSem sig := 39
abbrev cc3_sem3_1 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x10000 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S400x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S400x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x128x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x128 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S400x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S400x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  bcast_S_S3x128x128 : S_.BroadcastsInDim S3x128x128 (![] : Fin 0 → Fin S3x128x128.rank)
  bcast_S_S1 : S_.BroadcastsInDim S1 (![] : Fin 0 → Fin S1.rank)
  shapeCasts_S128_S1x128 : S128.ShapeCasts S1x128
  bcast_S_S1x128 : S_.BroadcastsInDim S1x128 (![] : Fin 0 → Fin S1x128.rank)
  concatenates_S1_S1_S2_d0 : Shape.Concatenates [S1, S1] S2 0
  inb_S400x10000_S400x10000_0_0 : ∀ a, (![0, 0] : Fin 2 → Nat) a + S400x10000.size a ≤ S400x10000.size a
  h_S400x10000 : 0 < S400x10000.numel
  packedbf16_S400x10000_S400x10000_0_0 : (Rect.unit (s := S400x10000) ![0, 0] S400x10000.size inb_S400x10000_S400x10000_0_0).PackedRows (EltTy.packing .bf16)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S3x128x128_S3x128x128_0_0_0 : ∀ a, (![0, 0, 0] : Fin 3 → Nat) a + S3x128x128.size a ≤ S3x128x128.size a
  h_S3x128x128 : 0 < S3x128x128.numel
  shapeCasts_S3x128x128_S3x128x128 : S3x128x128.ShapeCasts S3x128x128
  slices_S3x128x128_o2_0_0_S1x128x128 : S3x128x128.Slices ![2, 0, 0] S1x128x128
  shapeCasts_S1x128x128_S128x128 : S1x128x128.ShapeCasts S128x128
  inb_S400x128_S400x128_0_0 : ∀ a, (![0, 0] : Fin 2 → Nat) a + S400x128.size a ≤ S400x128.size a
  h_S400x128 : 0 < S400x128.numel
  packedbf16_S400x128_S400x128_0_0 : (Rect.unit (s := S400x128) ![0, 0] S400x128.size inb_S400x128_S400x128_0_0).PackedRows (EltTy.packing .bf16)
  shapeCasts_S400x128_S400x128 : S400x128.ShapeCasts S400x128
  slices_S3x128x128_o0_0_0_S1x128x128 : S3x128x128.Slices ![0, 0, 0] S1x128x128
  slices_S3x128x128_o1_0_0_S1x128x128 : S3x128x128.Slices ![1, 0, 0] S1x128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S400x10000_S400x10000 : S400x10000.ShapeCasts S400x10000
  iota_S400x128_d1_w32 : S400x128.Iotas .tc 32 [1]
  reduces_S400x128_S400 : S400x128.Reduces [1] S400
  shapeCasts_S400_S400x1 : S400.ShapeCasts S400x1
  broadcasts_S400x1_S400x128 : S400x1.Broadcasts S400x128
  slices_S400x128_o0_0_S400x40 : S400x128.Slices ![0, 0] S400x40
  inb_S400x40_S400x40_0_0 : ∀ a, (![0, 0] : Fin 2 → Nat) a + S400x40.size a ≤ S400x40.size a
  h_S400x40 : 0 < S400x40.numel
  scatter_S3x128x128_S1_S3x128x40_012_n_2_0_wf : ScatterDims.WF S3x128x128 S1 S3x128x40 [0, 1, 2] [] [2] 0
  scatter_S1x128_S2_S40_0_0_01_0_wf : ScatterDims.WF S1x128 S2 S40 [0] [0] [0, 1] 0
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .bf16 = 32 ∨ (Rect.block (s := S10000x128) S400x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x128.size a ≤ S3x128x128.size a
  hwx0_3 : ∀ i : grid0.Coords, EltTy.bits .bf16 = 32 ∨ (Rect.block (s := S3x128x128) S3x128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x10000.size a ≤ S10000x10000.size a
  hwx0_5 : ∀ i : grid0.Coords, EltTy.bits .bf16 = 32 ∨ (Rect.block (s := S10000x10000) S400x10000.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .bf16 = 32 ∨ (Rect.block (s := S10000x128) S400x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x128x128.size a ≤ S3x128x128.size a
  hwx1_3 : ∀ i : grid1.Coords, EltTy.bits .bf16 = 32 ∨ (Rect.block (s := S3x128x128) S3x128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x128.size a ≤ S10000x128.size a
  hwx1_5 : ∀ i : grid1.Coords, EltTy.bits .bf16 = 32 ∨ (Rect.block (s := S10000x128) S400x128.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x128.size a ≤ S10000x128.size a
  hwx1_6 : ∀ i : grid1.Coords, EltTy.bits .f32 = 32 ∨ (Rect.block (s := S10000x128) S400x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x128x128.size a ≤ S3x128x128.size a
  hwx2_3 : ∀ i : grid2.Coords, EltTy.bits .bf16 = 32 ∨ (Rect.block (s := S3x128x128) S3x128x128.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x128.size a ≤ S10000x128.size a
  hwx2_4 : ∀ i : grid2.Coords, EltTy.bits .bf16 = 32 ∨ (Rect.block (s := S10000x128) S400x128.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x128.size a ≤ S10000x128.size a
  hwx2_5 : ∀ i : grid2.Coords, EltTy.bits .f32 = 32 ∨ (Rect.block (s := S10000x128) S400x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .bf16 = 32 ∨ (Rect.block (s := S10000x10000) S400x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S10000x128.size a
  hwx3_1 : ∀ i : grid3.Coords, EltTy.bits .bf16 = 32 ∨ (Rect.block (s := S10000x128) S10000x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S400x128.size a ≤ S10000x128.size a
  hwx3_2 : ∀ i : grid3.Coords, EltTy.bits .f32 = 32 ∨ (Rect.block (s := S10000x128) S400x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x40.size a ≤ S10000x40.size a
  hwx3_3 : ∀ i : grid3.Coords, EltTy.bits .f32 = 32 ∨ (Rect.block (s := S10000x40) S400x40.size (cc3_transform_3 i) (hinb3_3 i)).WholeWords (EltTy.packing .f32)

variable [Facts₀]

def scatter_S3x128x128_S1_S3x128x40_012_n_2_0 : ScatterDims S3x128x128 S1 S3x128x40 where
  updateWindowDims := [0, 1, 2]
  insertedWindowDims := []
  scatterDimsToOperandDims := [2]
  indexVectorDim := 0
  wf := scatter_S3x128x128_S1_S3x128x40_012_n_2_0_wf
def scatter_S1x128_S2_S40_0_0_01_0 : ScatterDims S1x128 S2 S40 where
  updateWindowDims := [0]
  insertedWindowDims := [0]
  scatterDimsToOperandDims := [0, 1]
  indexVectorDim := 0
  wf := scatter_S1x128_S2_S40_0_0_01_0_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S3x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12_0) S400x10000.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_1) S400x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_2) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v12_0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12_2) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S3x128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13_0) S400x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v13_1) S400x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v12_0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13_0) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13_1) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v5) S3x128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v14_0) S400x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v14_1) S400x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v12_0) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14_0) S10000x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14_1) S400x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v15) S400x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S3x128x128 : Shape := ⟨3, ![3, 128, 128]⟩
abbrev S128 : Shape := ⟨1, ![128]⟩
abbrev S3x128x40 : Shape := ⟨3, ![3, 128, 40]⟩
abbrev S40 : Shape := ⟨1, ![40]⟩
abbrev S1x128x128 : Shape := ⟨3, ![1, 128, 128]⟩
abbrev S128x128 : Shape := ⟨2, ![128, 128]⟩
abbrev S_ : Shape := ⟨0, ![]⟩
abbrev S1x128 : Shape := ⟨2, ![1, 128]⟩
abbrev S1x128x40 : Shape := ⟨3, ![1, 128, 40]⟩
abbrev S128x40 : Shape := ⟨2, ![128, 40]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 64
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S3x128x128, .f32⟩
  | .hbm, ⟨3, _⟩ => ⟨S128, .f32⟩
  | .hbm, ⟨4, _⟩ => ⟨S3x128x40, .f32⟩
  | .hbm, ⟨5, _⟩ => ⟨S40, .f32⟩
  | .hbm, ⟨6, _⟩ => ⟨S1x128x128, .f32⟩
  | .hbm, ⟨7, _⟩ => ⟨S128x128, .f32⟩
  | .hbm, ⟨8, _⟩ => ⟨S10000x128, .f32⟩
  | .hbm, ⟨9, _⟩ => ⟨S10000x128, .f32⟩
  | .hbm, ⟨10, _⟩ => ⟨S1x128x128, .f32⟩
  | .hbm, ⟨11, _⟩ => ⟨S128x128, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S1x128x128, .f32⟩
  | .hbm, ⟨20, _⟩ => ⟨S128x128, .f32⟩
  | .hbm, ⟨21, _⟩ => ⟨S10000x128, .f32⟩
  | .hbm, ⟨22, _⟩ => ⟨S10000x128, .f32⟩
  | .hbm, ⟨23, _⟩ => ⟨S1x128, .f32⟩
  | .hbm, ⟨24, _⟩ => ⟨S10000x128, .f32⟩
  | .hbm, ⟨25, _⟩ => ⟨S10000x128, .f32⟩
  | .hbm, ⟨26, _⟩ => ⟨S_, .f32⟩
  | .hbm, ⟨27, _⟩ => ⟨S10000x128, .f32⟩
  | .hbm, ⟨28, _⟩ => ⟨S10000x128, .f32⟩
  | .hbm, ⟨29, _⟩ => ⟨S1x128x40, .f32⟩
  | .hbm, ⟨30, _⟩ => ⟨S128x40, .f32⟩
  | .hbm, ⟨31, _⟩ => ⟨S10000x40, .f32⟩
  | .hbm, ⟨32, _⟩ => ⟨S10000x128, .f32⟩
  | .hbm, ⟨33, _⟩ => ⟨S1x128x40, .f32⟩
  | .hbm, ⟨34, _⟩ => ⟨S128x40, .f32⟩
  | .hbm, ⟨35, _⟩ => ⟨S10000x40, .f32⟩
  | .hbm, ⟨36, _⟩ => ⟨S10000x40, .f32⟩
  | .hbm, ⟨37, _⟩ => ⟨S10000x128, .f32⟩
  | .hbm, ⟨38, _⟩ => ⟨S_, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S1x128x40, .f32⟩
  | .hbm, ⟨43, _⟩ => ⟨S128x40, .f32⟩
  | .hbm, ⟨44, _⟩ => ⟨S10000x40, .f32⟩
  | .hbm, ⟨45, _⟩ => ⟨S10000x40, .f32⟩
  | .hbm, ⟨46, _⟩ => ⟨S1x40, .f32⟩
  | .hbm, ⟨47, _⟩ => ⟨S10000x40, .f32⟩
  | .hbm, ⟨48, _⟩ => ⟨S10000x40, .f32⟩
  | .hbm, ⟨49, _⟩ => ⟨S_, .f32⟩
  | .hbm, ⟨50, _⟩ => ⟨S10000, .f32⟩
  | .hbm, ⟨51, _⟩ => ⟨S_, .f32⟩
  | .hbm, ⟨52, _⟩ => ⟨S10000, .f32⟩
  | .hbm, ⟨53, _⟩ => ⟨S10000, .f32⟩
  | .hbm, ⟨54, _⟩ => ⟨S10000x1, .f32⟩
  | .hbm, ⟨55, _⟩ => ⟨S10000x40, .f32⟩
  | .hbm, ⟨56, _⟩ => ⟨S10000x40, .f32⟩
  | .hbm, ⟨57, _⟩ => ⟨S10000x40, .f32⟩
  | .hbm, ⟨58, _⟩ => ⟨S_, .f32⟩
  | .hbm, ⟨59, _⟩ => ⟨S10000, .f32⟩
  | .hbm, ⟨60, _⟩ => ⟨S10000x1, .f32⟩
  | .hbm, ⟨61, _⟩ => ⟨S10000x1, .f32⟩
  | .hbm, ⟨62, _⟩ => ⟨S10000x40, .f32⟩
  | .hbm, ⟨63, _⟩ => ⟨S10000x40, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_call0_cst : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_call1_cst : Ref sig .tc := ⟨.hbm, 49, rfl⟩
abbrev main_call1_v0 : Ref sig .tc := ⟨.hbm, 50, rfl⟩
abbrev main_call1_cst_0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_cst_1 : Ref sig .tc := ⟨.hbm, 58, rfl⟩
abbrev main_call1_v7 : Ref sig .tc := ⟨.hbm, 59, rfl⟩
abbrev main_call1_v8 : Ref sig .tc := ⟨.hbm, 60, rfl⟩
abbrev main_call1_v9 : Ref sig .tc := ⟨.hbm, 61, rfl⟩
abbrev main_call1_v10 : Ref sig .tc := ⟨.hbm, 62, rfl⟩
abbrev main_v39 : Ref sig .tc := ⟨.hbm, 63, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  bcast_S_S10000x128 : S_.BroadcastsInDim S10000x128 (![] : Fin 0 → Fin S10000x128.rank)
  slices_S3x128x128_S1x128x128_2_0_0 : S3x128x128.Slices ![2, 0, 0] S1x128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  slices_S3x128x40_S1x128x40_0_0_0 : S3x128x40.Slices ![0, 0, 0] S1x128x40
  shapeCasts_S1x128x40_S128x40 : S1x128x40.ShapeCasts S128x40
  slices_S3x128x40_S1x128x40_1_0_0 : S3x128x40.Slices ![1, 0, 0] S1x128x40
  slices_S3x128x40_S1x128x40_2_0_0 : S3x128x40.Slices ![2, 0, 0] S1x128x40
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  reducesTo_S10000x40_S10000_d1 : S10000x40.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x40_0_1 : S10000x1.BroadcastsInDim S10000x40 (![0, 1] : Fin 2 → Fin S10000x40.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x40_S10000x40_1_0_0_1_n_n_wf : DotDims.WF S10000x128 S128x40 S10000x40 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf

class Facts : Prop extends Facts₀ where

variable [Facts]
-- ==== Proof.Region0.lean ====
/-
  The first pass over the operator, one grid point at a time, at any entry contents `V` of the core's buffers.
  At point `t` the body is handed rows 400·t … 400·t+399 of the row-blocked operands and the whole of the others, and
  leaves in each output window's buffer one function of those blocks (a single store covers each buffer): the operator's rows themselves (the narrowed copy), the rows' image times the third weight slab, and the one-pass part of the first layer. The features array is handed to this pass twice, whole and by row blocks, so the two windows hold it at complementary half shares.
  Stated here: those functions, the body's triple, the proof data of the pipeline and the body obligation at a generic point.
-/
import proofs.«134233_g4183298146899_cont_8to1_b_1680_5_alg».proof.Proof.Gen.KernelIdeal.Launch
import proofs.«134233_g4183298146899_cont_8to1_b_1680_5_alg».proof.Proof.Gen.KernelIdeal.Skeleton
import proofs.«134233_g4183298146899_cont_8to1_b_1680_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

section Region0
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0
abbrev r0_3 : Rect S3x128x128 := Rect.unit (s := S3x128x128) ![0, 0, 0] S3x128x128.size inb_S3x128x128_S3x128x128_0_0_0
abbrev r0_4 : Rect S1x128 := Rect.unit (s := S1x128) ![0, 0] S1x128.size inb_S1x128_S1x128_0_0
abbrev r0_5 : Rect S400x10000 := Rect.unit (s := S400x10000) ![0, 0] S400x10000.size inb_S400x10000_S400x10000_0_0
abbrev r0_6 : Rect S400x128 := Rect.unit (s := S400x128) ![0, 0] S400x128.size inb_S400x128_S400x128_0_0
abbrev r0_7 : Rect S400x128 := Rect.unit (s := S400x128) ![0, 0] S400x128.size inb_S400x128_S400x128_0_0

/-- What the body leaves in output window 5's buffer, from the input blocks: its one store. -/
def out0_5 (x0 : Vec F S400x10000 .f32) (x1 : Vec F S10000x128 .bf16) (x2 : Vec F S400x128 .bf16) (x3 : Vec F S3x128x128 .bf16) (x4 : Vec F S1x128 .f32) : Vec F S400x10000 .bf16 :=
  View.canon [⟨r0_5, k0_pay1 (View.ld x0 r0_0)⟩]

theorem cover0_5 (p0 : Vec F S400x10000 .bf16) (y : S400x10000.Idx) :
    ∃ pc ∈ ([⟨r0_5, p0⟩] : List (View.Piece (Elt F) S400x10000 .bf16)), y ∈ pc.1.set :=
  View.cover_of_tiled [⟨r0_5, p0⟩] S400x10000.size (by rfl) y

/-- What the body leaves in output window 6's buffer, from the input blocks: its one store. -/
def out0_6 (x0 : Vec F S400x10000 .f32) (x1 : Vec F S10000x128 .bf16) (x2 : Vec F S400x128 .bf16) (x3 : Vec F S3x128x128 .bf16) (x4 : Vec F S1x128 .f32) : Vec F S400x128 .bf16 :=
  View.canon [⟨r0_6, k0_pay4 (View.ld x0 r0_0) (View.ld x1 r0_1) (View.ld x3 r0_3)⟩]

theorem cover0_6 (p0 : Vec F S400x128 .bf16) (y : S400x128.Idx) :
    ∃ pc ∈ ([⟨r0_6, p0⟩] : List (View.Piece (Elt F) S400x128 .bf16)), y ∈ pc.1.set :=
  View.cover_of_tiled [⟨r0_6, p0⟩] S400x128.size (by rfl) y

/-- What the body leaves in output window 7's buffer, from the input blocks: its one store. -/
def out0_7 (x0 : Vec F S400x10000 .f32) (x1 : Vec F S10000x128 .bf16) (x2 : Vec F S400x128 .bf16) (x3 : Vec F S3x128x128 .bf16) (x4 : Vec F S1x128 .f32) : Vec F S400x128 .f32 :=
  View.canon [⟨r0_7, k0_pay5 (View.ld x0 r0_0) (View.ld x1 r0_1) (View.ld x3 r0_3) (View.ld x2 r0_2) (View.ld x4 r0_4)⟩]

theorem cover0_7 (p0 : Vec F S400x128 .f32) (y : S400x128.Idx) :
    ∃ pc ∈ ([⟨r0_7, p0⟩] : List (View.Piece (Elt F) S400x128 .f32)), y ∈ pc.1.set :=
  View.cover_of_tiled [⟨r0_7, p0⟩] S400x128.size (by rfl) y

set_option maxHeartbeats 1000000 in
/-- The body on whole staging memrefs, the inputs' at read contents and the outputs' at anything, runs to the
    continuation holding the inputs' as they were and each output's at its function of the inputs'. -/
theorem sound_kernel0 (c : Dev nD) (E : Set ℕ) (i : grid0.Coords)
    (arg1 : Memref sig .tc .vmem S400x10000 .f32) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S3x128x128 .bf16) (harg4 : arg4.IsWhole) (arg5 : Memref sig .tc .vmem S1x128 .f32) (harg5 : arg5.IsWhole) (arg6 : Memref sig .tc .vmem S400x10000 .bf16) (harg6 : arg6.IsWhole) (arg7 : Memref sig .tc .vmem S400x128 .bf16) (harg7 : arg7.IsWhole) (arg8 : Memref sig .tc .vmem S400x128 .f32) (harg8 : arg8.IsWhole)
    (x0 : Vec F S400x10000 .f32) (x1 : Vec F S10000x128 .bf16) (x2 : Vec F S400x128 .bf16) (x3 : Vec F S3x128x128 .bf16) (x4 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)
            ∗ owns (c : Thread nD τ) arg8 fullShare (out0_7 x0 x1 x2 x3 x4)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- The proof data of this pass on core `c`: the arrays as the pass finds them; after the body at point `t` each
    input's buffer at its block and each output's at the body's function of the input blocks; the invariant the scoped
    rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.Region1.lean ====
/-
  The second pass over the operator, one grid point at a time, at any entry contents `V` of the core's buffers.
  At point `t` the body is handed rows 400·t … 400·t+399 of the row-blocked operands and the whole of the others, and
  leaves in each output window's buffer one function of those blocks (a single store covers each buffer): the hidden features (the first layer's sum clamped below at zero) and their one-pass part of the second layer.
  Stated here: those functions, the body's triple, the proof data of the pipeline and the body obligation at a generic point.
-/
import proofs.«134233_g4183298146899_cont_8to1_b_1680_5_alg».proof.Proof.Gen.KernelIdeal.Launch
import proofs.«134233_g4183298146899_cont_8to1_b_1680_5_alg».proof.Proof.Gen.KernelIdeal.Skeleton
import proofs.«134233_g4183298146899_cont_8to1_b_1680_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

section Region1
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S400x128 := Rect.unit (s := S400x128) ![0, 0] S400x128.size inb_S400x128_S400x128_0_0
abbrev r1_3 : Rect S3x128x128 := Rect.unit (s := S3x128x128) ![0, 0, 0] S3x128x128.size inb_S3x128x128_S3x128x128_0_0_0
abbrev r1_4 : Rect S1x128 := Rect.unit (s := S1x128) ![0, 0] S1x128.size inb_S1x128_S1x128_0_0
abbrev r1_5 : Rect S400x128 := Rect.unit (s := S400x128) ![0, 0] S400x128.size inb_S400x128_S400x128_0_0
abbrev r1_6 : Rect S400x128 := Rect.unit (s := S400x128) ![0, 0] S400x128.size inb_S400x128_S400x128_0_0

/-- What the body leaves in output window 5's buffer, from the input blocks: its one store. -/
def out1_5 (x0 : Vec F S400x10000 .bf16) (x1 : Vec F S10000x128 .bf16) (x2 : Vec F S400x128 .f32) (x3 : Vec F S3x128x128 .bf16) (x4 : Vec F S1x128 .f32) : Vec F S400x128 .bf16 :=
  View.canon [⟨r1_5, k1_pay1 (View.ld x0 r1_0) (View.ld x1 r1_1) (View.ld x2 r1_2)⟩]

theorem cover1_5 (p0 : Vec F S400x128 .bf16) (y : S400x128.Idx) :
    ∃ pc ∈ ([⟨r1_5, p0⟩] : List (View.Piece (Elt F) S400x128 .bf16)), y ∈ pc.1.set :=
  View.cover_of_tiled [⟨r1_5, p0⟩] S400x128.size (by rfl) y

/-- What the body leaves in output window 6's buffer, from the input blocks: its one store. -/
def out1_6 (x0 : Vec F S400x10000 .bf16) (x1 : Vec F S10000x128 .bf16) (x2 : Vec F S400x128 .f32) (x3 : Vec F S3x128x128 .bf16) (x4 : Vec F S1x128 .f32) : Vec F S400x128 .f32 :=
  View.canon [⟨r1_6, k1_pay2 (View.ld x0 r1_0) (View.ld x1 r1_1) (View.ld x2 r1_2) (View.ld x3 r1_3) (View.ld x4 r1_4)⟩]

theorem cover1_6 (p0 : Vec F S400x128 .f32) (y : S400x128.Idx) :
    ∃ pc ∈ ([⟨r1_6, p0⟩] : List (View.Piece (Elt F) S400x128 .f32)), y ∈ pc.1.set :=
  View.cover_of_tiled [⟨r1_6, p0⟩] S400x128.size (by rfl) y

set_option maxHeartbeats 1000000 in
/-- The body on whole staging memrefs, the inputs' at read contents and the outputs' at anything, runs to the
    continuation holding the inputs' as they were and each output's at its function of the inputs'. -/
theorem sound_kernel1 (c : Dev nD) (E : Set ℕ) (i : grid1.Coords)
    (arg1 : Memref sig .tc .vmem S400x10000 .bf16) (harg1 : arg1.IsWhole) (arg2 : Memref sig .tc .vmem S10000x128 .bf16) (harg2 : arg2.IsWhole) (arg3 : Memref sig .tc .vmem S400x128 .f32) (harg3 : arg3.IsWhole) (arg4 : Memref sig .tc .vmem S3x128x128 .bf16) (harg4 : arg4.IsWhole) (arg5 : Memref sig .tc .vmem S1x128 .f32) (harg5 : arg5.IsWhole) (arg6 : Memref sig .tc .vmem S400x128 .bf16) (harg6 : arg6.IsWhole) (arg7 : Memref sig .tc .vmem S400x128 .f32) (harg7 : arg7.IsWhole)
    (x0 : Vec F S400x10000 .bf16) (x1 : Vec F S10000x128 .bf16) (x2 : Vec F S400x128 .f32) (x3 : Vec F S3x128x128 .bf16) (x4 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (out1_6 x0 x1 x2 x3 x4)) -∗ K ⟨⟩))
      ⊢ wp frame (wpE (defs₀ (F := F)) Variants.none c none) E (cc1__pass2_body i arg1 harg1 arg2 harg2 arg3 harg3 arg4 harg4 arg5 harg5 arg6 harg6 arg7 harg7) K := by
  simp only [cc1__pass2_body_eq_skeleton]; unfold cc1__pass2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-- The proof data of this pass on core `c`: the arrays as the pass finds them; after the body at point `t` each
    input's buffer at its block and each output's at the body's function of the input blocks; the invariant the scoped
    rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.Region2.lean ====
/-
  The third pass over the operator, one grid point at a time, at any entry contents `V` of the core's buffers.
  At point `t` the body is handed rows 400·t … 400·t+399 of the row-blocked operands and the whole of the others, and
  leaves in each output window's buffer one function of those blocks (a single store covers each buffer): the product of the rows' image under the operator with the third weight slab, and the running sum plus its product with the second slab.
  Stated here: those functions, the body's triple, the proof data of the pipeline and the body obligation at a generic point.
-/
import proofs.«134233_g4183298146899_cont_8to1_b_1680_5_alg».proof.Proof.Gen.KernelIdeal.Launch
import proofs.«134233_g4183298146899_cont_8to1_b_1680_5_alg».proof.Proof.Gen.KernelIdeal.Skeleton
import proofs.«134233_g4183298146899_cont_8to1_b_1680_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

section Region2
variable (V : (c : Dev nD) → (b : Ref sig .tc) → Buf (Elt F) ((c : Thread nD τ).loc b))

/-- Window `w`'s block at point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x10000 := Rect.unit (s := S400x10000) ![0, 0] S400x10000.size inb_S400x10000_S400x10000_0_0
abbrev r2_1 : Rect S10000x128 := Rect.unit (s := S10000x128) ![0, 0] S10000x128.size inb_S10000x128_S10000x128_0_0
abbrev r2_2 : Rect S400x128 := Rect.unit (s := S400x128) ![0, 0] S400x128.size inb_S400x128_S400x128_0_0
abbrev r2_3 : Rect S3x128x128 := Rect.unit (s := S3x128x128) ![0, 0, 0] S3x128x128.size inb_S3x128x128_S3x128x128_0_0_0
abbrev r2_4 : Rect S400x128 := Rect.unit (s := S400x128) ![0, 0] S400x128.size inb_S400x128_S400x128_0_0
abbrev r2_5 : Rect S400x128 := Rect.unit (s := S400x128) ![0, 0] S400x128.size inb_S400x128_S400x128_0_0

/-- What the body leaves in output window 4's buffer, from the input blocks: its one store. -/
def out2_4 (x0 : Vec F S400x10000 .bf16) (x1 : Vec F S10000x128 .bf16) (x2 : Vec F S400x128 .f32) (x3 : Vec F S3x128x128 .bf16) : Vec F S400x128 .bf16 :=
  View.canon [⟨r2_4, k2_pay3 (View.ld x0 r2_0) (View.ld x1 r2_1) (View.ld x3 r2_3)⟩]

theorem cover2_4 (p0 : Vec F S400x128 .bf16) (y : S400x128.Idx) :
    ∃ pc ∈ ([⟨r2_4, p0⟩] : List (View.Piece (Elt F) S400x128 .bf16)), y ∈ pc.1.set :=
  View.cover_of_tiled [⟨r2_4, p0⟩] S400x128.size (by rfl) y

/-- What the body leaves in output window 5's buffer, from the input blocks: its one store. -/
def out2_5 (x0 : Vec F S400x10000 .bf16) (x1 : Vec F S10000x128 .bf16) (x2 : Vec F S400x128 .f32) (x3 : Vec F S3x128x128 .bf16) : Vec F S400x128 .f32 :=
  View.canon [⟨r2_5, k2_pay4 (View.ld x0 r2_0) (View.ld x1 r2_1) (View.ld x3 r2_3) (View.ld x2 r2_2)⟩]

theorem cover2_5 (p0 : Vec F S400x128 .f32) (y : S400x128.Idx) :
    ∃ pc ∈ ([⟨r2_5, p0⟩] : List (View.Piece (Elt F) S400x128 .f32)), y ∈ pc.1.set :=
  View.cover_of_tiled [⟨r2_5, p0⟩] S400x128.size (by rfl) y

set_option maxHeartbeats 1000000 in
/-- The body on whole staging memrefs, the inputs' at read contents and the outputs' at anything, runs to the
    continuation holding the inputs' as they were and each output's at its function of the inputs'. -/
theorem sound_kernel2 (c : Dev nD) (E : Set ℕ) (i : grid2.Coords)
    (arg1 : Memref sig .tc .vmem S400x10000 .bf16) (harg1 : arg1.IsWhole) (arg2 : Memref sig .tc .vmem S10000x128 .bf16) (harg2 : arg2.IsWhole) (arg3 : Memref sig .tc .vmem S400x128 .f32) (harg3 : arg3.IsWhole) (arg4 : Memref sig .tc .vmem S3x128x128 .bf16) (harg4 : arg4.IsWhole) (arg5 : Memref sig .tc .vmem S400x128 .bf16) (harg5 : arg5.IsWhole) (arg6 : Memref sig .tc .vmem S400x128 .f32) (harg6 : arg6.IsWhole)
    (x0 : Vec F S400x10000 .bf16) (x1 : Vec F S10000x128 .bf16) (x2 : Vec F S400x128 .f32) (x3 : Vec F S3x128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E (cc2__pass3_body i arg1 harg1 arg2 harg2 arg3 harg3 arg4 harg4 arg5 harg5 arg6 harg6) K := by
  simp only [cc2__pass3_body_eq_skeleton]; unfold cc2__pass3_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The proof data of this pass on core `c`: the arrays as the pass finds them; after the body at point `t` each
    input's buffer at its block and each output's at the body's function of the input blocks; the invariant the scoped
    rest and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.Region3.lean ====
/-
  The fourth pass over the operator, one grid point at a time, at any entry contents `V` of the core's buffers.
  At point `t` the body is handed rows 400·t … 400·t+399 of the row-blocked operands and the whole of the others, and
  leaves in each output window's buffer one function of those blocks (a single store covers each buffer): the masked row-wise log-softmax of the logits, cut to the forty real lanes.
  Stated here: those functions, the body's triple, the proof data of the pipeline and the body obligation at a generic point.
-/
import proofs.«134233_g4183298146899_cont_8to1_b_1680_5_alg».proof.Proof.Gen.KernelIdeal.Launch
import proofs.«134233_g4183298146899_cont_8to1_b_1680_5_alg».proof.Proof.Gen.KernelIdeal.Skeleton
import proofs.«134233_g4183298146899_cont_8to1_b_1680_5_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen

section Region3
variable (V : (c : Dev nD) → (b : Ref sig .tc) → Buf (Elt F) ((c : Thread nD τ).loc b))

/-- Window `w`'s block at point `t`, read off its array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S400x10000 := Rect.unit (s := S400x10000) ![0, 0] S400x10000.size inb_S400x10000_S400x10000_0_0
abbrev r3_1 : Rect S10000x128 := Rect.unit (s := S10000x128) ![0, 0] S10000x128.size inb_S10000x128_S10000x128_0_0
abbrev r3_2 : Rect S400x128 := Rect.unit (s := S400x128) ![0, 0] S400x128.size inb_S400x128_S400x128_0_0
abbrev r3_3 : Rect S400x40 := Rect.unit (s := S400x40) ![0, 0] S400x40.size inb_S400x40_S400x40_0_0

/-- What the body leaves in output window 3's buffer, from the input blocks: its one store. -/
def out3_3 (x0 : Vec F S400x10000 .bf16) (x1 : Vec F S10000x128 .bf16) (x2 : Vec F S400x128 .f32) : Vec F S400x40 .f32 :=
  View.canon [⟨r3_3, k3_pay1 (View.ld x0 r3_0) (View.ld x1 r3_1) (View.ld x2 r3_2)⟩]

theorem cover3_3 (p0 : Vec F S400x40 .f32) (y : S400x40.Idx) :
    ∃ pc ∈ ([⟨r3_3, p0⟩] : List (View.Piece (Elt F) S400x40 .f32)), y ∈ pc.1.set :=
  View.cover_of_tiled [⟨r3_3, p0⟩] S400x40.size (by rfl) y

set_option maxHeartbeats 1000000 in
/-- The body on whole staging memrefs, the inputs' at read contents and the outputs' at anything, runs to the
    continuation holding the inputs' as they were and each output's at its function of the inputs'. -/
theorem sound_kernel3 (c : Dev nD) (E : Set ℕ) (i : grid3.Coords)
    (arg1 : Memref sig .tc .vmem S400x10000 .bf16) (harg1 : arg1.IsWhole) (arg2 : Memref sig .tc .vmem S10000x128 .bf16) (harg2 : arg2.IsWhole) (arg3 : Memref sig .tc .vmem S400x128 .f32) (harg3 : arg3.IsWhole) (arg4 : Memref sig .tc .vmem S400x40 .f32) (harg4 : arg4.IsWhole)
    (x0 : Vec F S400x10000 .bf16) (x1 : Vec F S10000x128 .bf16) (x2 : Vec F S400x128 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out3_3 x0 x1 x2)) -∗ K ⟨⟩))
      ⊢ wp frame (wpE (defs₀ (F := F)) Variants.none c none) E (cc3__lambda_ i arg1 harg1 arg2 harg2 arg3 harg3 arg4 harg4) K := by
  simp only [cc3__lambda__eq_skeleton]; unfold cc3__lambda__skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pass on core `c`: the arrays as the pass finds them; after the body at point `t` each
    input's buffer at its block and each output's at the body's function of the input blocks; the invariant the scoped
    rest and the generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.Bounds.lean ====
/-
  The contents of the core's buffers between the items of the program — the launch memory, then the host preparation,
  then each of the four passes — as a fold from the launch memory: a host stretch applies its operations; a pass leaves
  each of its output arrays at what its write-backs leave and every other buffer as it found it. Then every pass's
  proof data at the contents it is entered from, and what rides beside the buffers through every item (the generator
  register at some state, nothing owed).
-/
import proofs.«134233_g4183298146899_cont_8to1_b_1680_5_alg».proof.Proof.Region0
import proofs.«134233_g4183298146899_cont_8to1_b_1680_5_alg».proof.Proof.Region1
import proofs.«134233_g4183298146899_cont_8to1_b_1680_5_alg».proof.Proof.Region2
import proofs.«134233_g4183298146899_cont_8to1_b_1680_5_alg».proof.Proof.Region3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.Pipeline (Seg HostSeg RegionSeg)

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host preparation (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first pass: its three output arrays at what its write-backs leave, every other buffer as entered
    (its input arrays are never written; the features array, handed to it twice, is one of them). -/
def W2 (c : Dev nD) : Valuation τ sig (Elt F) :=
  Function.update (Function.update (Function.update (W1 m ρ c) main_v12_0 ((dat0 (V1 m ρ) c).arrAt 5 cfg0.N))
    main_v12_1 ((dat0 (V1 m ρ) c).arrAt 6 cfg0.N)) main_v12_2 ((dat0 (V1 m ρ) c).arrAt 7 cfg0.N)
abbrev V2 : (c : Dev nD) → (b : Ref sig .tc) → Buf (Elt F) ((c : Thread nD τ).loc b) := fun c b => W2 m ρ c b

/-- After the second pass. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- After the third pass. -/
def W4 (c : Dev nD) : Valuation τ sig (Elt F) :=
  Pipeline.withArrays spec2 c (W3 m ρ c) fun w => (dat2 (V3 m ρ) c).arrAt w cfg2.N
abbrev V4 : (c : Dev nD) → (b : Ref sig .tc) → Buf (Elt F) ((c : Thread nD τ).loc b) := fun c b => W4 m ρ c b
/-- After the fourth pass: what the program returns with. -/
def W5 (c : Dev nD) : Valuation τ sig (Elt F) :=
  Pipeline.withArrays spec3 c (W4 m ρ c) fun w => (dat3 (V4 m ρ) c).arrAt w cfg3.N
abbrev V5 : (c : Dev nD) → (b : Ref sig .tc) → Buf (Elt F) ((c : Thread nD τ).loc b) := fun c b => W5 m ρ c b

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb

/-- A buffer that is none of the first pass's three outputs is after it as before it. -/
theorem W2_of_ne (c : Dev nD) (b : Ref sig .tc) (h0 : b ≠ main_v12_0) (h1 : b ≠ main_v12_1) (h2 : b ≠ main_v12_2) :
    W2 m ρ c (Proc.devRef .tc b) = W1 m ρ c (Proc.devRef .tc b) := by
  unfold W2
  rw [Function.update_of_ne (StableHlo.devRef_ne_of_ne h2), Function.update_of_ne (StableHlo.devRef_ne_of_ne h1),
    Function.update_of_ne (StableHlo.devRef_ne_of_ne h0)]
theorem W2_out5 (c : Dev nD) : W2 m ρ c (Proc.devRef .tc main_v12_0) = (dat0 (V1 m ρ) c).arrAt 5 cfg0.N := by
  unfold W2
  rw [Function.update_of_ne (StableHlo.devRef_ne_of_ne (by decide)), Function.update_of_ne (StableHlo.devRef_ne_of_ne (by decide))]
  exact Function.update_self ..
theorem W2_out6 (c : Dev nD) : W2 m ρ c (Proc.devRef .tc main_v12_1) = (dat0 (V1 m ρ) c).arrAt 6 cfg0.N := by
  unfold W2
  rw [Function.update_of_ne (StableHlo.devRef_ne_of_ne (by decide))]
  exact Function.update_self ..
theorem W2_out7 (c : Dev nD) : W2 m ρ c (Proc.devRef .tc main_v12_2) = (dat0 (V1 m ρ) c).arrAt 7 cfg0.N := by
  unfold W2
  exact Function.update_self ..

/-! ## The proof data family and what rides along -/

abbrev adm : (p : Fin 4) → (pcfgs (F := F) p).Adm := fun p => (cfgs p).toPCfg_adm
/-- Every pass's proof data, each at the contents it is entered from. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Reg0.lean ====
/-
  Pass 1 as an item of the program: what it is entered from, what it leaves, and how its arrays and the rest of the
  core's buffers are sorted into and out of the pipeline's proof data.
-/
import proofs.«134233_g4183298146899_cont_8to1_b_1680_5_alg».proof.Proof.Bounds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.Pipeline (Seg HostSeg RegionSeg)

variable (m : (ℓ : Loc nD τ sig) → Buf (Elt F) ℓ) (ρ : Dev nD → PrngReg)

/-- The distinct buffers behind the first pass's eight windows are seven: listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_v0) ↦{fullShare} V main_v0)
          ∗ (((c : Thread nD τ).loc main_v1) ↦{fullShare} V main_v1) ∗ (((c : Thread nD τ).loc main_v6) ↦{fullShare} V main_v6)
          ∗ (((c : Thread nD τ).loc main_v12_0) ↦{fullShare} V main_v12_0) ∗ (((c : Thread nD τ).loc main_v12_1) ↦{fullShare} V main_v12_1)
          ∗ (((c : Thread nD τ).loc main_v12_2) ↦{fullShare} V main_v12_2)) := by
  unfold Pipeline.arrBufs
  exact bigSep_eq_bigSepL_of_eq [main_arg1, main_v0, main_v1, main_v6, main_v12_0, main_v12_1, main_v12_2] (by decide) (by decide) _

/-- A core's unscoped buffers are those seven and the rest. -/
theorem ub_split0 (c : Dev nD) (V : (b : Ref sig .tc) → Buf (Elt F) ((c : Thread nD τ).loc b)) :
    (unscopedBufs c V : sProp 𝕄) = iprop(Pipeline.arrBufs spec0 c V ∗ Pipeline.unscopedRest spec0 c V) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

section
variable (V : (c : Dev nD) → (b : Ref sig .tc) → Buf (Elt F) ((c : Thread nD τ).loc b))

/-- The first pass's arrays, window by window: the features array twice, at the two halves of the full share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_v0) ↦{fullShare.left} G 1)
          ∗ (((c : Thread nD τ).loc main_v0) ↦{fullShare.right} G 2) ∗ (((c : Thread nD τ).loc main_v1) ↦{fullShare} G 3)
          ∗ (((c : Thread nD τ).loc main_v6) ↦{fullShare} G 4) ∗ (((c : Thread nD τ).loc main_v12_0) ↦{fullShare} G 5)
          ∗ (((c : Thread nD τ).loc main_v12_1) ↦{fullShare} G 6) ∗ (((c : Thread nD τ).loc main_v12_2) ↦{fullShare} G 7)) := by
  unfold Dat.arrays
  rw [bigSep_W0, (arr_whole0 0).set_eq_univ, (arr_whole0 1).set_eq_univ, (arr_whole0 3).set_eq_univ,
    (arr_whole0 4).set_eq_univ, (arr_whole0 5).set_eq_univ, (arr_whole0 6).set_eq_univ, (arr_whole0 7).set_eq_univ]
  rfl
end

/-- ENTRY of the first pass: the unscoped buffers at the contents after the host preparation are its arrays at their
    entry contents — the features array's points-to cut into its two halves for the two windows that read it — and the rest. -/
theorem split0_in (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [ub_split0, arrBufs0_eq, arrays0_eq]
  have hs := (pointsTo_share (Ix := Unit) (Val := Elt F) (Name := ℕ) (U := UR sig nD τ) (Lvl := ℕ) (ℓ := (c : Thread nD τ).loc main_v0)
    (I := Finset.univ) (f := V1 m ρ c main_v0) (PosShare.mem_left_op_right fullShare)).1
  iintro ⟨⟨H1, H0, Hv1, Hv6, H5, H6, H7⟩, Hrest⟩
  ihave H0' := hs $$ H0
  icases H0' with ⟨H0l, H0r⟩
  isplitr [Hrest]
  swap; · iexact Hrest
  isplitl [H1]; · iexact H1
  isplitl [H0l]; · iexact H0l
  isplitl [H0r]; · iexact H0r
  isplitl [Hv1]; · iexact Hv1
  isplitl [Hv6]; · iexact Hv6
  isplitl [H5]; · iexact H5
  isplitl [H6]; · iexact H6
  iexact H7

/-- EXIT of the first pass: its arrays at what the write-backs leave and the rest as entered are the unscoped buffers
    at the contents after it — the inputs were never written, the two halves of the features array's points-to rejoin,
    the three outputs are where the contents after the pass were changed. -/
theorem join0_out (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  have hrest : (Pipeline.unscopedRest (Ix := Unit) (Name := ℕ) (U := UR sig nD τ) (Lvl := ℕ) spec0 c (V2 m ρ c) : sProp 𝕄)
      = Pipeline.unscopedRest spec0 c (V1 m ρ c) := by
    unfold Pipeline.unscopedRest
    exact bigSep_congr fun b hb => by
      have hb' := (Finset.mem_sdiff.mp hb).2
      rw [show V2 m ρ c b = V1 m ρ c b from W2_of_ne m ρ c b
        (fun e => hb' (e ▸ Finset.mem_image.mpr ⟨5, Finset.mem_univ _, rfl⟩))
        (fun e => hb' (e ▸ Finset.mem_image.mpr ⟨6, Finset.mem_univ _, rfl⟩))
        (fun e => hb' (e ▸ Finset.mem_image.mpr ⟨7, Finset.mem_univ _, rfl⟩))]
  have e0 : (dat0 (V1 m ρ) c).arrAt 0 cfg0.N = V2 m ρ c main_arg1 :=
    ((dat0 (V1 m ρ) c).arrAt_in 0 rfl _).trans (W2_of_ne m ρ c main_arg1 (by decide) (by decide) (by decide)).symm
  have e1 : (dat0 (V1 m ρ) c).arrAt 1 cfg0.N = V2 m ρ c main_v0 :=
    ((dat0 (V1 m ρ) c).arrAt_in 1 rfl _).trans (W2_of_ne m ρ c main_v0 (by decide) (by decide) (by decide)).symm
  have e2 : (dat0 (V1 m ρ) c).arrAt 2 cfg0.N = V2 m ρ c main_v0 :=
    ((dat0 (V1 m ρ) c).arrAt_in 2 rfl _).trans (W2_of_ne m ρ c main_v0 (by decide) (by decide) (by decide)).symm
  have e3 : (dat0 (V1 m ρ) c).arrAt 3 cfg0.N = V2 m ρ c main_v1 :=
    ((dat0 (V1 m ρ) c).arrAt_in 3 rfl _).trans (W2_of_ne m ρ c main_v1 (by decide) (by decide) (by decide)).symm
  have e4 : (dat0 (V1 m ρ) c).arrAt 4 cfg0.N = V2 m ρ c main_v6 :=
    ((dat0 (V1 m ρ) c).arrAt_in 4 rfl _).trans (W2_of_ne m ρ c main_v6 (by decide) (by decide) (by decide)).symm
  have e5 : (dat0 (V1 m ρ) c).arrAt 5 cfg0.N = V2 m ρ c main_v12_0 := (W2_out5 m ρ c).symm
  have e6 : (dat0 (V1 m ρ) c).arrAt 6 cfg0.N = V2 m ρ c main_v12_1 := (W2_out6 m ρ c).symm
  have e7 : (dat0 (V1 m ρ) c).arrAt 7 cfg0.N = V2 m ρ c main_v12_2 := (W2_out7 m ρ c).symm
  have hs := (pointsTo_share (Ix := Unit) (Val := Elt F) (Name := ℕ) (U := UR sig nD τ) (Lvl := ℕ) (ℓ := (c : Thread nD τ).loc main_v0)
    (I := Finset.univ) (f := V2 m ρ c main_v0) (PosShare.mem_left_op_right fullShare)).2
  rw [ub_split0, arrBufs0_eq, arrays0_eq, hrest]
  dsimp only
  rw [e0, e1, e2, e3, e4, e5, e6, e7]
  iintro ⟨⟨H1, H0l, H0r, Hv1, Hv6, H5, H6, H7⟩, Hrest⟩
  ihave H0 := hs $$ [H0l H0r]
  · isplitl [H0l] <;> iassumption
  isplitr [Hrest]
  swap; · iexact Hrest
  isplitl [H1]; · iexact H1
  isplitl [H0]; · iexact H0
  isplitl [Hv1]; · iexact Hv1
  isplitl [Hv6]; · iexact Hv6
  isplitl [H5]; · iexact H5
  isplitl [H6]; · iexact H6
  iexact H7

set_option backward.isDefEq.respectTransparency.types false in
/-- The first pass over the thread state: entered from every unscoped buffer at the contents after the host
    preparation, left at the contents after the pass. Its windows share an array, so its arrays are sorted out of and
    back into the unscoped buffers by the two lemmas above; the rest as for the other passes. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
      ⊢ iprop((pdats m ρ 0 c).arrays ((pdats m ρ 0 c).arrAt · 0)
        ∗ Pipeline.unscopedRest (Ix := Unit) (Name := ℕ) (U := UR sig nD τ) (Lvl := ℕ) spec0 c (V1 m ρ c)) := split0_in m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
        ∗ Pipeline.unscopedRest (Ix := Unit) (Name := ℕ) (U := UR sig nD τ) (Lvl := ℕ) spec0 c (V1 m ρ c))
      ⊢ (unscopedBufs c (V2 m ρ c) : sProp 𝕄) := join0_out m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg1.lean ====
/-
  Pass 2 as an item of the program: what it is entered from, what it leaves, and how its arrays and the rest of the
  core's buffers are sorted into and out of the pipeline's proof data.
-/
import proofs.«134233_g4183298146899_cont_8to1_b_1680_5_alg».proof.Proof.Bounds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.Pipeline (Seg HostSeg RegionSeg)

variable (m : (ℓ : Loc nD τ sig) → Buf (Elt F) ℓ) (ρ : Dev nD → PrngReg)
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

set_option backward.isDefEq.respectTransparency.types false in
/-- Pass 2 over the thread state: entered from every unscoped buffer at the contents before it, left at the
    contents after it. Its arrays are split out of the unscoped buffers and put back at the exit contents; the generator
    register goes into the pass's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg2.lean ====
/-
  Pass 3 as an item of the program: what it is entered from, what it leaves, and how its arrays and the rest of the
  core's buffers are sorted into and out of the pipeline's proof data.
-/
import proofs.«134233_g4183298146899_cont_8to1_b_1680_5_alg».proof.Proof.Bounds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.Pipeline (Seg HostSeg RegionSeg)

variable (m : (ℓ : Loc nD τ sig) → Buf (Elt F) ℓ) (ρ : Dev nD → PrngReg)
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

set_option backward.isDefEq.respectTransparency.types false in
/-- Pass 3 over the thread state: entered from every unscoped buffer at the contents before it, left at the
    contents after it. Its arrays are split out of the unscoped buffers and put back at the exit contents; the generator
    register goes into the pass's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Reg3.lean ====
/-
  Pass 4 as an item of the program: what it is entered from, what it leaves, and how its arrays and the rest of the
  core's buffers are sorted into and out of the pipeline's proof data.
-/
import proofs.«134233_g4183298146899_cont_8to1_b_1680_5_alg».proof.Proof.Bounds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.Pipeline (Seg HostSeg RegionSeg)

variable (m : (ℓ : Loc nD τ sig) → Buf (Elt F) ℓ) (ρ : Dev nD → PrngReg)
/-- The last thread state without the dues: every unscoped buffer at the last contents, the generator register at some state. -/
abbrev Tₙ (c : Dev nD) : sProp 𝕄 := iprop(StableHlo.held (c : Thread nD τ) (Pipeline.ucRefs τ sig) (W5 m ρ c) ∗ ∃ r, prngReg c r)
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

set_option backward.isDefEq.respectTransparency.types false in
/-- Pass 4 over the thread state: entered from every unscoped buffer at the contents before it, left at the
    contents after it. Its arrays are split out of the unscoped buffers and put back at the exit contents; the generator
    register goes into the pass's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Hand

end
-- ==== Proof.RunMain.lean ====
/-
  The whole run: the program as its five items in order — the host preparation, then the four passes —, launched on
  any memory; every weakly fair execution terminates, nothing faulting, and in every final state each unscoped buffer
  holds what the fold of the items leaves in it. Read off that: the six argument arrays end as launched (no item writes
  one), and the result array ends at what the fourth pass's write-backs leave.
-/
import proofs.«134233_g4183298146899_cont_8to1_b_1680_5_alg».proof.Proof.Reg0
import proofs.«134233_g4183298146899_cont_8to1_b_1680_5_alg».proof.Proof.Reg1
import proofs.«134233_g4183298146899_cont_8to1_b_1680_5_alg».proof.Proof.Reg2
import proofs.«134233_g4183298146899_cont_8to1_b_1680_5_alg».proof.Proof.Reg3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
open Idealize.ShloMosaic.Pipeline (Seg HostSeg RegionSeg)

variable (m : (ℓ : Loc nD τ sig) → Buf (Elt F) ℓ) (ρ : Dev nD → PrngReg)

/-- The references the host preparation writes. -/
abbrev hostOps0_W : List (Ref sig .tc) := [main_v0, main_v1, main_cst, main_v2, main_v3, main_c, main_v4, main_v5, main_v6, main_cst_0, main_v7, main_c_1, main_v8, main_c_2, main_v9, main_v10, main_v11]

/-- A buffer the host preparation does not write is after it as launched. -/
theorem W1_of_not_written (c : Dev nD) (b : Ref sig .tc) (hb : b ∉ hostOps0_W) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (fun e => hb (e ▸ by decide))))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide) (by decide) (by decide)
    _ = W0 m ρ c (Proc.devRef .tc main_arg0) := W1_of_not_written m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide) (by decide) (by decide)
    _ = W0 m ρ c (Proc.devRef .tc main_arg1) := W1_of_not_written m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide) (by decide) (by decide)
    _ = W0 m ρ c (Proc.devRef .tc main_arg2) := W1_of_not_written m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide) (by decide) (by decide)
    _ = W0 m ρ c (Proc.devRef .tc main_arg3) := W1_of_not_written m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide) (by decide) (by decide)
    _ = W0 m ρ c (Proc.devRef .tc main_arg4) := W1_of_not_written m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide) (by decide) (by decide)
    _ = W0 m ρ c (Proc.devRef .tc main_arg5) := W1_of_not_written m ρ c main_arg5 (by decide)
    _ = m ((c : Thread nD τ).loc main_arg5) := rfl

/-- The result array ends at what the fourth pass's write-backs leave. -/
theorem W5_main_v15 (c : Dev nD) : W5 m ρ c (Proc.devRef .tc main_v15) = (dat3 (V4 m ρ) c).arrAt 3 cfg3.N := W5_arr m ρ c 3

/-- A host stretch as an item: its operations over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ) ]

theorem main_run (c : Dev nD) : main (F := F) c = Pipeline.Seg.run (segs m ρ) := (main_chain c).trans (by chain_rfl)

set_option backward.isDefEq.respectTransparency.types false in
/-- THE RUN, at any `F`: from any memory with zero counters every weakly fair execution terminates, nothing faulting,
    and every final state holds each unscoped buffer at the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c), (h c _ (mem_uc main_arg1 (by decide))).trans (W5_main_arg1 m ρ c),
     (h c _ (mem_uc main_arg2 (by decide))).trans (W5_main_arg2 m ρ c), (h c _ (mem_uc main_arg3 (by decide))).trans (W5_main_arg3 m ρ c),
     (h c _ (mem_uc main_arg4 (by decide))).trans (W5_main_arg4 m ρ c), (h c _ (mem_uc main_arg5 (by decide))).trans (W5_main_arg5 m ρ c)⟩)
    (run_main m ρ)

/-- The run with the result named: the result array ends at what the fourth pass's write-backs leave, the six
    argument arrays as launched. -/
theorem run_result : θ_run defs (onTc (τ := τ) (main (F := F))) ⟨m, fun _ => 0, ρ⟩ (fun r => ∀ c : Dev nD,
      r.2.mem ((c.tc : Thread nD τ).loc main_v15) = (dat3 (V4 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v15 (by decide))).trans (W5_main_v15 m ρ c),
     (h c _ (mem_uc main_arg0 (by decide))).trans (W5_main_arg0 m ρ c), (h c _ (mem_uc main_arg1 (by decide))).trans (W5_main_arg1 m ρ c),
     (h c _ (mem_uc main_arg2 (by decide))).trans (W5_main_arg2 m ρ c), (h c _ (mem_uc main_arg3 (by decide))).trans (W5_main_arg3 m ρ c),
     (h c _ (mem_uc main_arg4 (by decide))).trans (W5_main_arg4 m ρ c), (h c _ (mem_uc main_arg5 (by decide))).trans (W5_main_arg5 m ρ c)⟩)
    (run_main m ρ)

end Cert.KernelIdeal.Hand

end
-- ==== Proof.WRegion0.lean ====
/-
  The first pass over the operator, one grid point at a time, at any entry contents `V` of the core's buffers.
  At point `t` the body is handed rows 400·t … 400·t+399 of the row-blocked operands and the whole of the others, and
  leaves in each output window's buffer one function of those blocks (a single store covers each buffer): the operator's rows themselves (the narrowed copy), the rows' image times the third weight slab, and the one-pass part of the first layer. The features array is handed to this pass twice, whole and by row blocks, so the two windows hold it at complementary half shares.
  Stated here: those functions, the body's triple, the proof data of the pipeline and the body obligation at a generic point.
-/
import proofs.«134233_g4183298146899_cont_8to1_b_1680_5_alg».proof.Proof.Gen.Kernel.Launch
import proofs.«134233_g4183298146899_cont_8to1_b_1680_5_alg».proof.Proof.Gen.Kernel.Skeleton
import proofs.«134233_g4183298146899_cont_8to1_b_1680_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section Region0
variable (V : (c : Dev nD) → (b : Ref sig .tc) → Buf (Elt F) ((c : Thread nD τ).loc b))

/-- Window `w`'s block at point `t`, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Each input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S400x10000 := Rect.unit (s := S400x10000) ![0, 0] S400x10000.size inb_S400x10000_S400x10000_0_0
abbrev r0_1 : Rect S10000x128 := Rect.unit (s := S10000x128) ![0, 0] S10000x128.size inb_S10000x128_S10000x128_0_0
abbrev r0_2 : Rect S400x128 := Rect.unit (s := S400x128) ![0, 0] S400x128.size inb_S400x128_S400x128_0_0
abbrev r0_3 : Rect S3x128x128 := Rect.unit (s := S3x128x128) ![0, 0, 0] S3x128x128.size inb_S3x128x128_S3x128x128_0_0_0
abbrev r0_4 : Rect S1x128 := Rect.unit (s := S1x128) ![0, 0] S1x128.size inb_S1x128_S1x128_0_0
abbrev r0_5 : Rect S400x10000 := Rect.unit (s := S400x10000) ![0, 0] S400x10000.size inb_S400x10000_S400x10000_0_0
abbrev r0_6 : Rect S400x128 := Rect.unit (s := S400x128) ![0, 0] S400x128.size inb_S400x128_S400x128_0_0
abbrev r0_7 : Rect S400x128 := Rect.unit (s := S400x128) ![0, 0] S400x128.size inb_S400x128_S400x128_0_0

/-- What the body leaves in output window 5's buffer, from the input blocks: its one store. -/
def out0_5 (x0 : Vec F S400x10000 .f32) (x1 : Vec F S10000x128 .bf16) (x2 : Vec F S400x128 .bf16) (x3 : Vec F S3x128x128 .bf16) (x4 : Vec F S1x128 .f32) : Vec F S400x10000 .bf16 :=
  View.canon [⟨r0_5, k0_pay1 (View.ld x0 r0_0)⟩]

theorem cover0_5 (p0 : Vec F S400x10000 .bf16) (y : S400x10000.Idx) :
    ∃ pc ∈ ([⟨r0_5, p0⟩] : List (View.Piece (Elt F) S400x10000 .bf16)), y ∈ pc.1.set :=
  View.cover_of_tiled [⟨r0_5, p0⟩] S400x10000.size (by rfl) y

/-- What the body leaves in output window 6's buffer, from the input blocks: its one store. -/
def out0_6 (x0 : Vec F S400x10000 .f32) (x1 : Vec F S10000x128 .bf16) (x2 : Vec F S400x128 .bf16) (x3 : Vec F S3x128x128 .bf16) (x4 : Vec F S1x128 .f32) : Vec F S400x128 .bf16 :=
  View.canon [⟨r0_6, k0_pay4 (View.ld x0 r0_0) (View.ld x1 r0_1) (View.ld x3 r0_3)⟩]

theorem cover0_6 (p0 : Vec F S400x128 .bf16) (y : S400x128.Idx) :
    ∃ pc ∈ ([⟨r0_6, p0⟩] : List (View.Piece (Elt F) S400x128 .bf16)), y ∈ pc.1.set :=
  View.cover_of_tiled [⟨r0_6, p0⟩] S400x128.size (by rfl) y

/-- What the body leaves in output window 7's buffer, from the input blocks: its one store. -/
def out0_7 (x0 : Vec F S400x10000 .f32) (x1 : Vec F S10000x128 .bf16) (x2 : Vec F S400x128 .bf16) (x3 : Vec F S3x128x128 .bf16) (x4 : Vec F S1x128 .f32) : Vec F S400x128 .f32 :=
  View.canon [⟨r0_7, k0_pay5 (View.ld x0 r0_0) (View.ld x1 r0_1) (View.ld x3 r0_3) (View.ld x2 r0_2) (View.ld x4 r0_4)⟩]

theorem cover0_7 (p0 : Vec F S400x128 .f32) (y : S400x128.Idx) :
    ∃ pc ∈ ([⟨r0_7, p0⟩] : List (View.Piece (Elt F) S400x128 .f32)), y ∈ pc.1.set :=
  View.cover_of_tiled [⟨r0_7, p0⟩] S400x128.size (by rfl) y

set_option maxHeartbeats 1000000 in
/-- The body on whole staging memrefs, the inputs' at read contents and the outputs' at anything, runs to the
    continuation holding the inputs' as they were and each output's at its function of the inputs'. -/
theorem sound_kernel0 (c : Dev nD) (E : Set ℕ) (i : grid0.Coords)
    (arg1 : Memref sig .tc .vmem S400x10000 .f32) (harg1 : arg1.IsWhole) (arg2 : Memref sig .tc .vmem S10000x128 .bf16) (harg2 : arg2.IsWhole) (arg3 : Memref sig .tc .vmem S400x128 .bf16) (harg3 : arg3.IsWhole) (arg4 : Memref sig .tc .vmem S3x128x128 .bf16) (harg4 : arg4.IsWhole) (arg5 : Memref sig .tc .vmem S1x128 .f32) (harg5 : arg5.IsWhole) (arg6 : Memref sig .tc .vmem S400x10000 .bf16) (harg6 : arg6.IsWhole) (arg7 : Memref sig .tc .vmem S400x128 .bf16) (harg7 : arg7.IsWhole) (arg8 : Memref sig .tc .vmem S400x128 .f32) (harg8 : arg8.IsWhole)
    (x0 : Vec F S400x10000 .f32) (x1 : Vec F S10000x128 .bf16) (x2 : Vec F S400x128 .bf16) (x3 : Vec F S3x128x128 .bf16) (x4 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out0_5 x0 x1 x2 x3 x4)
            ∗ owns (c : Thread nD τ) arg7 fullShare (out0_6 x0 x1 x2 x3 x4)
            ∗ owns (c : Thread nD τ) arg8 fullShare (out0_7 x0 x1 x2 x3 x4)) -∗ K ⟨⟩))
      ⊢ wp frame (wpE (defs₀ (F := F)) Variants.none c none) E (cc0__pass1_body i arg1 harg1 arg2 harg2 arg3 harg3 arg4 harg4 arg5 harg5 arg6 harg6 arg7 harg7 arg8 harg8) K := by
  simp only [cc0__pass1_body_eq_skeleton]; unfold cc0__pass1_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  isplitl [H6]
  · iexists _; isplitr
    swap; · iexact H6
    ipureintro
    exact View.read_writes_eq_canon _ _ _ (cover0_6 _)
  iexists _; isplitr
  swap; · iexact H7
  ipureintro
  exact View.read_writes_eq_canon _ _ _ (cover0_7 _)

/-- The proof data of this pass on core `c`: the arrays as the pass finds them; after the body at point `t` each
    input's buffer at its block and each output's at the body's function of the input blocks; the invariant the scoped
    rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
  Φ _ := Pipeline.ΦA spec0 c
  q w := match w with
    | ⟨1, _⟩ => fullShare.left
    | ⟨2, _⟩ => fullShare.right
    | _ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' buffers hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.WRegion1.lean ====
/-
  The second pass over the operator, one grid point at a time, at any entry contents `V` of the core's buffers.
  At point `t` the body is handed rows 400·t … 400·t+399 of the row-blocked operands and the whole of the others, and
  leaves in each output window's buffer one function of those blocks (a single store covers each buffer): the hidden features (the first layer's sum clamped below at zero) and their one-pass part of the second layer.
  Stated here: those functions, the body's triple, the proof data of the pipeline and the body obligation at a generic point.
-/
import proofs.«134233_g4183298146899_cont_8to1_b_1680_5_alg».proof.Proof.Gen.Kernel.Launch
import proofs.«134233_g4183298146899_cont_8to1_b_1680_5_alg».proof.Proof.Gen.Kernel.Skeleton
import proofs.«134233_g4183298146899_cont_8to1_b_1680_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section Region1
variable (V : (c : Dev nD) → (b : Ref sig .tc) → Buf (Elt F) ((c : Thread nD τ).loc b))

/-- Window `w`'s block at point `t`, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S400x10000 := Rect.unit (s := S400x10000) ![0, 0] S400x10000.size inb_S400x10000_S400x10000_0_0
abbrev r1_1 : Rect S10000x128 := Rect.unit (s := S10000x128) ![0, 0] S10000x128.size inb_S10000x128_S10000x128_0_0
abbrev r1_2 : Rect S400x128 := Rect.unit (s := S400x128) ![0, 0] S400x128.size inb_S400x128_S400x128_0_0
abbrev r1_3 : Rect S3x128x128 := Rect.unit (s := S3x128x128) ![0, 0, 0] S3x128x128.size inb_S3x128x128_S3x128x128_0_0_0
abbrev r1_4 : Rect S1x128 := Rect.unit (s := S1x128) ![0, 0] S1x128.size inb_S1x128_S1x128_0_0
abbrev r1_5 : Rect S400x128 := Rect.unit (s := S400x128) ![0, 0] S400x128.size inb_S400x128_S400x128_0_0
abbrev r1_6 : Rect S400x128 := Rect.unit (s := S400x128) ![0, 0] S400x128.size inb_S400x128_S400x128_0_0

/-- What the body leaves in output window 5's buffer, from the input blocks: its one store. -/
def out1_5 (x0 : Vec F S400x10000 .bf16) (x1 : Vec F S10000x128 .bf16) (x2 : Vec F S400x128 .f32) (x3 : Vec F S3x128x128 .bf16) (x4 : Vec F S1x128 .f32) : Vec F S400x128 .bf16 :=
  View.canon [⟨r1_5, k1_pay1 (View.ld x0 r1_0) (View.ld x1 r1_1) (View.ld x2 r1_2)⟩]

theorem cover1_5 (p0 : Vec F S400x128 .bf16) (y : S400x128.Idx) :
    ∃ pc ∈ ([⟨r1_5, p0⟩] : List (View.Piece (Elt F) S400x128 .bf16)), y ∈ pc.1.set :=
  View.cover_of_tiled [⟨r1_5, p0⟩] S400x128.size (by rfl) y

/-- What the body leaves in output window 6's buffer, from the input blocks: its one store. -/
def out1_6 (x0 : Vec F S400x10000 .bf16) (x1 : Vec F S10000x128 .bf16) (x2 : Vec F S400x128 .f32) (x3 : Vec F S3x128x128 .bf16) (x4 : Vec F S1x128 .f32) : Vec F S400x128 .f32 :=
  View.canon [⟨r1_6, k1_pay2 (View.ld x0 r1_0) (View.ld x1 r1_1) (View.ld x2 r1_2) (View.ld x3 r1_3) (View.ld x4 r1_4)⟩]

theorem cover1_6 (p0 : Vec F S400x128 .f32) (y : S400x128.Idx) :
    ∃ pc ∈ ([⟨r1_6, p0⟩] : List (View.Piece (Elt F) S400x128 .f32)), y ∈ pc.1.set :=
  View.cover_of_tiled [⟨r1_6, p0⟩] S400x128.size (by rfl) y

set_option maxHeartbeats 1000000 in
/-- The body on whole staging memrefs, the inputs' at read contents and the outputs' at anything, runs to the
    continuation holding the inputs' as they were and each output's at its function of the inputs'. -/
theorem sound_kernel1 (c : Dev nD) (E : Set ℕ) (i : grid1.Coords)
    (arg1 : Memref sig .tc .vmem S400x10000 .bf16) (harg1 : arg1.IsWhole) (arg2 : Memref sig .tc .vmem S10000x128 .bf16) (harg2 : arg2.IsWhole) (arg3 : Memref sig .tc .vmem S400x128 .f32) (harg3 : arg3.IsWhole) (arg4 : Memref sig .tc .vmem S3x128x128 .bf16) (harg4 : arg4.IsWhole) (arg5 : Memref sig .tc .vmem S1x128 .f32) (harg5 : arg5.IsWhole) (arg6 : Memref sig .tc .vmem S400x128 .bf16) (harg6 : arg6.IsWhole) (arg7 : Memref sig .tc .vmem S400x128 .f32) (harg7 : arg7.IsWhole)
    (x0 : Vec F S400x10000 .bf16) (x1 : Vec F S10000x128 .bf16) (x2 : Vec F S400x128 .f32) (x3 : Vec F S3x128x128 .bf16) (x4 : Vec F S1x128 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ (∃ d, owns (c : Thread nD τ) arg6 fullShare d)
        ∗ (∃ d, owns (c : Thread nD τ) arg7 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (out1_6 x0 x1 x2 x3 x4)) -∗ K ⟨⟩))
      ⊢ wp frame (wpE (defs₀ (F := F)) Variants.none c none) E (cc1__pass2_body i arg1 harg1 arg2 harg2 arg3 harg3 arg4 harg4 arg5 harg5 arg6 harg6 arg7 harg7) K := by
  simp only [cc1__pass2_body_eq_skeleton]; unfold cc1__pass2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-- The proof data of this pass on core `c`: the arrays as the pass finds them; after the body at point `t` each
    input's buffer at its block and each output's at the body's function of the input blocks; the invariant the scoped
    rest and the generator register, untouched; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.WRegion2.lean ====
/-
  The third pass over the operator, one grid point at a time, at any entry contents `V` of the core's buffers.
  At point `t` the body is handed rows 400·t … 400·t+399 of the row-blocked operands and the whole of the others, and
  leaves in each output window's buffer one function of those blocks (a single store covers each buffer): the product of the rows' image under the operator with the third weight slab, and the running sum plus its product with the second slab.
  Stated here: those functions, the body's triple, the proof data of the pipeline and the body obligation at a generic point.
-/
import proofs.«134233_g4183298146899_cont_8to1_b_1680_5_alg».proof.Proof.Gen.Kernel.Launch
import proofs.«134233_g4183298146899_cont_8to1_b_1680_5_alg».proof.Proof.Gen.Kernel.Skeleton
import proofs.«134233_g4183298146899_cont_8to1_b_1680_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section Region2
variable (V : (c : Dev nD) → (b : Ref sig .tc) → Buf (Elt F) ((c : Thread nD τ).loc b))

/-- Window `w`'s block at point `t`, read off its array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each input window's current buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S400x10000 := Rect.unit (s := S400x10000) ![0, 0] S400x10000.size inb_S400x10000_S400x10000_0_0
abbrev r2_1 : Rect S10000x128 := Rect.unit (s := S10000x128) ![0, 0] S10000x128.size inb_S10000x128_S10000x128_0_0
abbrev r2_2 : Rect S400x128 := Rect.unit (s := S400x128) ![0, 0] S400x128.size inb_S400x128_S400x128_0_0
abbrev r2_3 : Rect S3x128x128 := Rect.unit (s := S3x128x128) ![0, 0, 0] S3x128x128.size inb_S3x128x128_S3x128x128_0_0_0
abbrev r2_4 : Rect S400x128 := Rect.unit (s := S400x128) ![0, 0] S400x128.size inb_S400x128_S400x128_0_0
abbrev r2_5 : Rect S400x128 := Rect.unit (s := S400x128) ![0, 0] S400x128.size inb_S400x128_S400x128_0_0

/-- What the body leaves in output window 4's buffer, from the input blocks: its one store. -/
def out2_4 (x0 : Vec F S400x10000 .bf16) (x1 : Vec F S10000x128 .bf16) (x2 : Vec F S400x128 .f32) (x3 : Vec F S3x128x128 .bf16) : Vec F S400x128 .bf16 :=
  View.canon [⟨r2_4, k2_pay3 (View.ld x0 r2_0) (View.ld x1 r2_1) (View.ld x3 r2_3)⟩]

theorem cover2_4 (p0 : Vec F S400x128 .bf16) (y : S400x128.Idx) :
    ∃ pc ∈ ([⟨r2_4, p0⟩] : List (View.Piece (Elt F) S400x128 .bf16)), y ∈ pc.1.set :=
  View.cover_of_tiled [⟨r2_4, p0⟩] S400x128.size (by rfl) y

/-- What the body leaves in output window 5's buffer, from the input blocks: its one store. -/
def out2_5 (x0 : Vec F S400x10000 .bf16) (x1 : Vec F S10000x128 .bf16) (x2 : Vec F S400x128 .f32) (x3 : Vec F S3x128x128 .bf16) : Vec F S400x128 .f32 :=
  View.canon [⟨r2_5, k2_pay4 (View.ld x0 r2_0) (View.ld x1 r2_1) (View.ld x3 r2_3) (View.ld x2 r2_2)⟩]

theorem cover2_5 (p0 : Vec F S400x128 .f32) (y : S400x128.Idx) :
    ∃ pc ∈ ([⟨r2_5, p0⟩] : List (View.Piece (Elt F) S400x128 .f32)), y ∈ pc.1.set :=
  View.cover_of_tiled [⟨r2_5, p0⟩] S400x128.size (by rfl) y

set_option maxHeartbeats 1000000 in
/-- The body on whole staging memrefs, the inputs' at read contents and the outputs' at anything, runs to the
    continuation holding the inputs' as they were and each output's at its function of the inputs'. -/
theorem sound_kernel2 (c : Dev nD) (E : Set ℕ) (i : grid2.Coords)
    (arg1 : Memref sig .tc .vmem S400x10000 .bf16) (harg1 : arg1.IsWhole) (arg2 : Memref sig .tc .vmem S10000x128 .bf16) (harg2 : arg2.IsWhole) (arg3 : Memref sig .tc .vmem S400x128 .f32) (harg3 : arg3.IsWhole) (arg4 : Memref sig .tc .vmem S3x128x128 .bf16) (harg4 : arg4.IsWhole) (arg5 : Memref sig .tc .vmem S400x128 .bf16) (harg5 : arg5.IsWhole) (arg6 : Memref sig .tc .vmem S400x128 .f32) (harg6 : arg6.IsWhole)
    (x0 : Vec F S400x10000 .bf16) (x1 : Vec F S10000x128 .bf16) (x2 : Vec F S400x128 .f32) (x3 : Vec F S3x128x128 .bf16) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ (∃ d, owns (c : Thread nD τ) arg5 fullShare d)
        ∗ (∃ d, owns (c : Thread nD τ) arg6 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E (cc2__pass3_body i arg1 harg1 arg2 harg2 arg3 harg3 arg4 harg4 arg5 harg5 arg6 harg6) K := by
  simp only [cc2__pass3_body_eq_skeleton]; unfold cc2__pass3_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The proof data of this pass on core `c`: the arrays as the pass finds them; after the body at point `t` each
    input's buffer at its block and each output's at the body's function of the input blocks; the invariant the scoped
    rest and the generator register, untouched; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.WRegion3.lean ====
/-
  The fourth pass over the operator, one grid point at a time, at any entry contents `V` of the core's buffers.
  At point `t` the body is handed rows 400·t … 400·t+399 of the row-blocked operands and the whole of the others, and
  leaves in each output window's buffer one function of those blocks (a single store covers each buffer): the masked row-wise log-softmax of the logits, cut to the forty real lanes.
  Stated here: those functions, the body's triple, the proof data of the pipeline and the body obligation at a generic point.
-/
import proofs.«134233_g4183298146899_cont_8to1_b_1680_5_alg».proof.Proof.Gen.Kernel.Launch
import proofs.«134233_g4183298146899_cont_8to1_b_1680_5_alg».proof.Proof.Gen.Kernel.Skeleton
import proofs.«134233_g4183298146899_cont_8to1_b_1680_5_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen

section Region3
variable (V : (c : Dev nD) → (b : Ref sig .tc) → Buf (Elt F) ((c : Thread nD τ).loc b))

/-- Window `w`'s block at point `t`, read off its array as the pass finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Each input window's current buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S400x10000 := Rect.unit (s := S400x10000) ![0, 0] S400x10000.size inb_S400x10000_S400x10000_0_0
abbrev r3_1 : Rect S10000x128 := Rect.unit (s := S10000x128) ![0, 0] S10000x128.size inb_S10000x128_S10000x128_0_0
abbrev r3_2 : Rect S400x128 := Rect.unit (s := S400x128) ![0, 0] S400x128.size inb_S400x128_S400x128_0_0
abbrev r3_3 : Rect S400x40 := Rect.unit (s := S400x40) ![0, 0] S400x40.size inb_S400x40_S400x40_0_0

/-- What the body leaves in output window 3's buffer, from the input blocks: its one store. -/
def out3_3 (x0 : Vec F S400x10000 .bf16) (x1 : Vec F S10000x128 .bf16) (x2 : Vec F S400x128 .f32) : Vec F S400x40 .f32 :=
  View.canon [⟨r3_3, k3_pay1 (View.ld x0 r3_0) (View.ld x1 r3_1) (View.ld x2 r3_2)⟩]

theorem cover3_3 (p0 : Vec F S400x40 .f32) (y : S400x40.Idx) :
    ∃ pc ∈ ([⟨r3_3, p0⟩] : List (View.Piece (Elt F) S400x40 .f32)), y ∈ pc.1.set :=
  View.cover_of_tiled [⟨r3_3, p0⟩] S400x40.size (by rfl) y

set_option maxHeartbeats 1000000 in
/-- The body on whole staging memrefs, the inputs' at read contents and the outputs' at anything, runs to the
    continuation holding the inputs' as they were and each output's at its function of the inputs'. -/
theorem sound_kernel3 (c : Dev nD) (E : Set ℕ) (i : grid3.Coords)
    (arg1 : Memref sig .tc .vmem S400x10000 .bf16) (harg1 : arg1.IsWhole) (arg2 : Memref sig .tc .vmem S10000x128 .bf16) (harg2 : arg2.IsWhole) (arg3 : Memref sig .tc .vmem S400x128 .f32) (harg3 : arg3.IsWhole) (arg4 : Memref sig .tc .vmem S400x40 .f32) (harg4 : arg4.IsWhole)
    (x0 : Vec F S400x10000 .bf16) (x1 : Vec F S10000x128 .bf16) (x2 : Vec F S400x128 .f32) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare (out3_3 x0 x1 x2)) -∗ K ⟨⟩))
      ⊢ wp frame (wpE (defs₀ (F := F)) Variants.none c none) E (cc3__lambda_ i arg1 harg1 arg2 harg2 arg3 harg3 arg4 harg4) K := by
  simp only [cc3__lambda__eq_skeleton]; unfold cc3__lambda__skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this pass on core `c`: the arrays as the pass finds them; after the body at point `t` each
    input's buffer at its block and each output's at the body's function of the input blocks; the invariant the scoped
    rest and the generator register, untouched; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.WBounds.lean ====
/-
  The contents of the core's buffers between the items of the program — the launch memory, then the host preparation,
  then each of the four passes — as a fold from the launch memory: a host stretch applies its operations; a pass leaves
  each of its output arrays at what its write-backs leave and every other buffer as it found it. Then every pass's
  proof data at the contents it is entered from, and what rides beside the buffers through every item (the generator
  register at some state, nothing owed).
-/
import proofs.«134233_g4183298146899_cont_8to1_b_1680_5_alg».proof.Proof.WRegion0
import proofs.«134233_g4183298146899_cont_8to1_b_1680_5_alg».proof.Proof.WRegion1
import proofs.«134233_g4183298146899_cont_8to1_b_1680_5_alg».proof.Proof.WRegion2
import proofs.«134233_g4183298146899_cont_8to1_b_1680_5_alg».proof.Proof.WRegion3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen
open Idealize.ShloMosaic.Pipeline (Seg HostSeg RegionSeg)

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the host preparation (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- After the first pass: its three output arrays at what its write-backs leave, every other buffer as entered
    (its input arrays are never written; the features array, handed to it twice, is one of them). -/
def W2 (c : Dev nD) : Valuation τ sig (Elt F) :=
  Function.update (Function.update (Function.update (W1 m ρ c) main_v12_0 ((dat0 (V1 m ρ) c).arrAt 5 cfg0.N))
    main_v12_1 ((dat0 (V1 m ρ) c).arrAt 6 cfg0.N)) main_v12_2 ((dat0 (V1 m ρ) c).arrAt 7 cfg0.N)
abbrev V2 : (c : Dev nD) → (b : Ref sig .tc) → Buf (Elt F) ((c : Thread nD τ).loc b) := fun c b => W2 m ρ c b

/-- After the second pass. -/
def W3 (c : Dev nD) : Valuation τ sig (Elt F) :=
  Pipeline.withArrays spec1 c (W2 m ρ c) fun w => (dat1 (V2 m ρ) c).arrAt w cfg1.N
abbrev V3 : (c : Dev nD) → (b : Ref sig .tc) → Buf (Elt F) ((c : Thread nD τ).loc b) := fun c b => W3 m ρ c b
/-- After the third pass. -/
def W4 (c : Dev nD) : Valuation τ sig (Elt F) :=
  Pipeline.withArrays spec2 c (W3 m ρ c) fun w => (dat2 (V3 m ρ) c).arrAt w cfg2.N
abbrev V4 : (c : Dev nD) → (b : Ref sig .tc) → Buf (Elt F) ((c : Thread nD τ).loc b) := fun c b => W4 m ρ c b
/-- After the fourth pass: what the program returns with. -/
def W5 (c : Dev nD) : Valuation τ sig (Elt F) :=
  Pipeline.withArrays spec3 c (W4 m ρ c) fun w => (dat3 (V4 m ρ) c).arrAt w cfg3.N
abbrev V5 : (c : Dev nD) → (b : Ref sig .tc) → Buf (Elt F) ((c : Thread nD τ).loc b) := fun c b => W5 m ρ c b

theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
theorem W5_arr (c : Dev nD) (w : Fin cfg3.W) :
    W5 m ρ c (Proc.devRef .tc (Pipeline.arrRef spec3 w)) = (dat3 (V4 m ρ) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m ρ c (Proc.devRef .tc b) = W4 m ρ c (Proc.devRef .tc b) := by
  unfold W5; exact Pipeline.withArrays_of_ne spec3 c _ _ b hb

/-- A buffer that is none of the first pass's three outputs is after it as before it. -/
theorem W2_of_ne (c : Dev nD) (b : Ref sig .tc) (h0 : b ≠ main_v12_0) (h1 : b ≠ main_v12_1) (h2 : b ≠ main_v12_2) :
    W2 m ρ c (Proc.devRef .tc b) = W1 m ρ c (Proc.devRef .tc b) := by
  unfold W2
  rw [Function.update_of_ne (StableHlo.devRef_ne_of_ne h2), Function.update_of_ne (StableHlo.devRef_ne_of_ne h1),
    Function.update_of_ne (StableHlo.devRef_ne_of_ne h0)]
theorem W2_out5 (c : Dev nD) : W2 m ρ c (Proc.devRef .tc main_v12_0) = (dat0 (V1 m ρ) c).arrAt 5 cfg0.N := by
  unfold W2
  rw [Function.update_of_ne (StableHlo.devRef_ne_of_ne (by decide)), Function.update_of_ne (StableHlo.devRef_ne_of_ne (by decide))]
  exact Function.update_self ..
theorem W2_out6 (c : Dev nD) : W2 m ρ c (Proc.devRef .tc main_v12_1) = (dat0 (V1 m ρ) c).arrAt 6 cfg0.N := by
  unfold W2
  rw [Function.update_of_ne (StableHlo.devRef_ne_of_ne (by decide))]
  exact Function.update_self ..
theorem W2_out7 (c : Dev nD) : W2 m ρ c (Proc.devRef .tc main_v12_2) = (dat0 (V1 m ρ) c).arrAt 7 cfg0.N := by
  unfold W2
  exact Function.update_self ..

/-! ## The proof data family and what rides along -/

abbrev adm : (p : Fin 4) → (pcfgs (F := F) p).Adm := fun p => (cfgs p).toPCfg_adm
/-- Every pass's proof data, each at the contents it is entered from. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
  | ⟨3, _⟩ => fun c => dat3 (V4 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.WReg0.lean ====
/-
  Pass 1 as an item of the program: what it is entered from, what it leaves, and how its arrays and the rest of the
  core's buffers are sorted into and out of the pipeline's proof data.
-/
import proofs.«134233_g4183298146899_cont_8to1_b_1680_5_alg».proof.Proof.WBounds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen
open Idealize.ShloMosaic.Pipeline (Seg HostSeg RegionSeg)

variable (m : (ℓ : Loc nD τ sig) → Buf (Elt F) ℓ) (ρ : Dev nD → PrngReg)

/-- The distinct buffers behind the first pass's eight windows are seven: listed. -/
theorem arrBufs0_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg1) ↦{fullShare} V main_arg1) ∗ (((c : Thread nD τ).loc main_v0) ↦{fullShare} V main_v0)
          ∗ (((c : Thread nD τ).loc main_v1) ↦{fullShare} V main_v1) ∗ (((c : Thread nD τ).loc main_v6) ↦{fullShare} V main_v6)
          ∗ (((c : Thread nD τ).loc main_v12_0) ↦{fullShare} V main_v12_0) ∗ (((c : Thread nD τ).loc main_v12_1) ↦{fullShare} V main_v12_1)
          ∗ (((c : Thread nD τ).loc main_v12_2) ↦{fullShare} V main_v12_2)) := by
  unfold Pipeline.arrBufs
  exact bigSep_eq_bigSepL_of_eq [main_arg1, main_v0, main_v1, main_v6, main_v12_0, main_v12_1, main_v12_2] (by decide) (by decide) _

/-- A core's unscoped buffers are those seven and the rest. -/
theorem ub_split0 (c : Dev nD) (V : (b : Ref sig .tc) → Buf (Elt F) ((c : Thread nD τ).loc b)) :
    (unscopedBufs c V : sProp 𝕄) = iprop(Pipeline.arrBufs spec0 c V ∗ Pipeline.unscopedRest spec0 c V) := by
  classical
  have hA : Finset.univ.image (Pipeline.arrRef spec0) ⊆ Finset.univ.filter fun b : Ref sig .tc => ¬ b.isScoped := by decide
  unfold unscopedBufs Pipeline.unscopedRest Pipeline.arrBufs
  rw [bigSep_sdiff_split hA]
  rfl

section
variable (V : (c : Dev nD) → (b : Ref sig .tc) → Buf (Elt F) ((c : Thread nD τ).loc b))

/-- The first pass's arrays, window by window: the features array twice, at the two halves of the full share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg1) ↦{fullShare} G 0) ∗ (((c : Thread nD τ).loc main_v0) ↦{fullShare.left} G 1)
          ∗ (((c : Thread nD τ).loc main_v0) ↦{fullShare.right} G 2) ∗ (((c : Thread nD τ).loc main_v1) ↦{fullShare} G 3)
          ∗ (((c : Thread nD τ).loc main_v6) ↦{fullShare} G 4) ∗ (((c : Thread nD τ).loc main_v12_0) ↦{fullShare} G 5)
          ∗ (((c : Thread nD τ).loc main_v12_1) ↦{fullShare} G 6) ∗ (((c : Thread nD τ).loc main_v12_2) ↦{fullShare} G 7)) := by
  unfold Dat.arrays
  rw [bigSep_W0, (arr_whole0 0).set_eq_univ, (arr_whole0 1).set_eq_univ, (arr_whole0 3).set_eq_univ,
    (arr_whole0 4).set_eq_univ, (arr_whole0 5).set_eq_univ, (arr_whole0 6).set_eq_univ, (arr_whole0 7).set_eq_univ]
  rfl
end

/-- ENTRY of the first pass: the unscoped buffers at the contents after the host preparation are its arrays at their
    entry contents — the features array's points-to cut into its two halves for the two windows that read it — and the rest. -/
theorem split0_in (c : Dev nD) :
    (unscopedBufs c (V1 m ρ c) : sProp 𝕄)
      ⊢ iprop((dat0 (V1 m ρ) c).arrays ((dat0 (V1 m ρ) c).arrAt · 0) ∗ Pipeline.unscopedRest spec0 c (V1 m ρ c)) := by
  rw [ub_split0, arrBufs0_eq, arrays0_eq]
  have hs := (pointsTo_share (Ix := Unit) (Val := Elt F) (Name := ℕ) (U := UR sig nD τ) (Lvl := ℕ) (ℓ := (c : Thread nD τ).loc main_v0)
    (I := Finset.univ) (f := V1 m ρ c main_v0) (PosShare.mem_left_op_right fullShare)).1
  iintro ⟨⟨H1, H0, Hv1, Hv6, H5, H6, H7⟩, Hrest⟩
  ihave H0' := hs $$ H0
  icases H0' with ⟨H0l, H0r⟩
  isplitr [Hrest]
  swap; · iexact Hrest
  isplitl [H1]; · iexact H1
  isplitl [H0l]; · iexact H0l
  isplitl [H0r]; · iexact H0r
  isplitl [Hv1]; · iexact Hv1
  isplitl [Hv6]; · iexact Hv6
  isplitl [H5]; · iexact H5
  isplitl [H6]; · iexact H6
  iexact H7

/-- EXIT of the first pass: its arrays at what the write-backs leave and the rest as entered are the unscoped buffers
    at the contents after it — the inputs were never written, the two halves of the features array's points-to rejoin,
    the three outputs are where the contents after the pass were changed. -/
theorem join0_out (c : Dev nD) :
    iprop((dat0 (V1 m ρ) c).arrays ((dat0 (V1 m ρ) c).arrAt · cfg0.N) ∗ Pipeline.unscopedRest spec0 c (V1 m ρ c))
      ⊢ (unscopedBufs c (V2 m ρ c) : sProp 𝕄) := by
  have hrest : (Pipeline.unscopedRest (Ix := Unit) (Name := ℕ) (U := UR sig nD τ) (Lvl := ℕ) spec0 c (V2 m ρ c) : sProp 𝕄)
      = Pipeline.unscopedRest spec0 c (V1 m ρ c) := by
    unfold Pipeline.unscopedRest
    exact bigSep_congr fun b hb => by
      have hb' := (Finset.mem_sdiff.mp hb).2
      rw [show V2 m ρ c b = V1 m ρ c b from W2_of_ne m ρ c b
        (fun e => hb' (e ▸ Finset.mem_image.mpr ⟨5, Finset.mem_univ _, rfl⟩))
        (fun e => hb' (e ▸ Finset.mem_image.mpr ⟨6, Finset.mem_univ _, rfl⟩))
        (fun e => hb' (e ▸ Finset.mem_image.mpr ⟨7, Finset.mem_univ _, rfl⟩))]
  have e0 : (dat0 (V1 m ρ) c).arrAt 0 cfg0.N = V2 m ρ c main_arg1 :=
    ((dat0 (V1 m ρ) c).arrAt_in 0 rfl _).trans (W2_of_ne m ρ c main_arg1 (by decide) (by decide) (by decide)).symm
  have e1 : (dat0 (V1 m ρ) c).arrAt 1 cfg0.N = V2 m ρ c main_v0 :=
    ((dat0 (V1 m ρ) c).arrAt_in 1 rfl _).trans (W2_of_ne m ρ c main_v0 (by decide) (by decide) (by decide)).symm
  have e2 : (dat0 (V1 m ρ) c).arrAt 2 cfg0.N = V2 m ρ c main_v0 :=
    ((dat0 (V1 m ρ) c).arrAt_in 2 rfl _).trans (W2_of_ne m ρ c main_v0 (by decide) (by decide) (by decide)).symm
  have e3 : (dat0 (V1 m ρ) c).arrAt 3 cfg0.N = V2 m ρ c main_v1 :=
    ((dat0 (V1 m ρ) c).arrAt_in 3 rfl _).trans (W2_of_ne m ρ c main_v1 (by decide) (by decide) (by decide)).symm
  have e4 : (dat0 (V1 m ρ) c).arrAt 4 cfg0.N = V2 m ρ c main_v6 :=
    ((dat0 (V1 m ρ) c).arrAt_in 4 rfl _).trans (W2_of_ne m ρ c main_v6 (by decide) (by decide) (by decide)).symm
  have e5 : (dat0 (V1 m ρ) c).arrAt 5 cfg0.N = V2 m ρ c main_v12_0 := (W2_out5 m ρ c).symm
  have e6 : (dat0 (V1 m ρ) c).arrAt 6 cfg0.N = V2 m ρ c main_v12_1 := (W2_out6 m ρ c).symm
  have e7 : (dat0 (V1 m ρ) c).arrAt 7 cfg0.N = V2 m ρ c main_v12_2 := (W2_out7 m ρ c).symm
  have hs := (pointsTo_share (Ix := Unit) (Val := Elt F) (Name := ℕ) (U := UR sig nD τ) (Lvl := ℕ) (ℓ := (c : Thread nD τ).loc main_v0)
    (I := Finset.univ) (f := V2 m ρ c main_v0) (PosShare.mem_left_op_right fullShare)).2
  rw [ub_split0, arrBufs0_eq, arrays0_eq, hrest]
  dsimp only
  rw [e0, e1, e2, e3, e4, e5, e6, e7]
  iintro ⟨⟨H1, H0l, H0r, Hv1, Hv6, H5, H6, H7⟩, Hrest⟩
  ihave H0 := hs $$ [H0l H0r]
  · isplitl [H0l] <;> iassumption
  isplitr [Hrest]
  swap; · iexact Hrest
  isplitl [H1]; · iexact H1
  isplitl [H0]; · iexact H0
  isplitl [Hv1]; · iexact Hv1
  isplitl [Hv6]; · iexact Hv6
  isplitl [H5]; · iexact H5
  isplitl [H6]; · iexact H6
  iexact H7

set_option backward.isDefEq.respectTransparency.types false in
/-- The first pass over the thread state: entered from every unscoped buffer at the contents after the host
    preparation, left at the contents after the pass. Its windows share an array, so its arrays are sorted out of and
    back into the unscoped buffers by the two lemmas above; the rest as for the other passes. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
      ⊢ iprop((pdats m ρ 0 c).arrays ((pdats m ρ 0 c).arrAt · 0)
        ∗ Pipeline.unscopedRest (Ix := Unit) (Name := ℕ) (U := UR sig nD τ) (Lvl := ℕ) spec0 c (V1 m ρ c)) := split0_in m ρ c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
        ∗ Pipeline.unscopedRest (Ix := Unit) (Name := ℕ) (U := UR sig nD τ) (Lvl := ℕ) spec0 c (V1 m ρ c))
      ⊢ (unscopedBufs c (V2 m ρ c) : sProp 𝕄) := join0_out m ρ c
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg1.lean ====
/-
  Pass 2 as an item of the program: what it is entered from, what it leaves, and how its arrays and the rest of the
  core's buffers are sorted into and out of the pipeline's proof data.
-/
import proofs.«134233_g4183298146899_cont_8to1_b_1680_5_alg».proof.Proof.WBounds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen
open Idealize.ShloMosaic.Pipeline (Seg HostSeg RegionSeg)

variable (m : (ℓ : Loc nD τ sig) → Buf (Elt F) ℓ) (ρ : Dev nD → PrngReg)
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

set_option backward.isDefEq.respectTransparency.types false in
/-- Pass 2 over the thread state: entered from every unscoped buffer at the contents before it, left at the
    contents after it. Its arrays are split out of the unscoped buffers and put back at the exit contents; the generator
    register goes into the pass's invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg2.lean ====
/-
  Pass 3 as an item of the program: what it is entered from, what it leaves, and how its arrays and the rest of the
  core's buffers are sorted into and out of the pipeline's proof data.
-/
import proofs.«134233_g4183298146899_cont_8to1_b_1680_5_alg».proof.Proof.WBounds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen
open Idealize.ShloMosaic.Pipeline (Seg HostSeg RegionSeg)

variable (m : (ℓ : Loc nD τ sig) → Buf (Elt F) ℓ) (ρ : Dev nD → PrngReg)
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

set_option backward.isDefEq.respectTransparency.types false in
/-- Pass 3 over the thread state: entered from every unscoped buffer at the contents before it, left at the
    contents after it. Its arrays are split out of the unscoped buffers and put back at the exit contents; the generator
    register goes into the pass's invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.WReg3.lean ====
/-
  Pass 4 as an item of the program: what it is entered from, what it leaves, and how its arrays and the rest of the
  core's buffers are sorted into and out of the pipeline's proof data.
-/
import proofs.«134233_g4183298146899_cont_8to1_b_1680_5_alg».proof.Proof.WBounds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen
open Idealize.ShloMosaic.Pipeline (Seg HostSeg RegionSeg)

variable (m : (ℓ : Loc nD τ sig) → Buf (Elt F) ℓ) (ρ : Dev nD → PrngReg)
/-- The last thread state without the dues: every unscoped buffer at the last contents, the generator register at some state. -/
abbrev Tₙ (c : Dev nD) : sProp 𝕄 := iprop(StableHlo.held (c : Thread nD τ) (Pipeline.ucRefs τ sig) (W5 m ρ c) ∗ ∃ r, prngReg c r)
theorem hF3 (c : Dev nD) (w : Fin cfg3.W) : (dat3 (V4 m ρ) c).arrAt w cfg3.N = V5 m ρ c (Pipeline.arrRef spec3 w) :=
  (W5_arr m ρ c w).symm
theorem hrest3 (c : Dev nD) : ∀ b, b ∉ Finset.univ.image (Pipeline.arrRef spec3) → V5 m ρ c b = V4 m ρ c b :=
  fun b hb => W5_of_ne m ρ c b fun w e => hb (Finset.mem_image.mpr ⟨w, Finset.mem_univ _, e⟩)

set_option backward.isDefEq.respectTransparency.types false in
/-- Pass 4 over the thread state: entered from every unscoped buffer at the contents before it, left at the
    contents after it. Its arrays are split out of the unscoped buffers and put back at the exit contents; the generator
    register goes into the pass's invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V4 m ρ) c).loose
  hwaits := Pipeline.hwaits_of_owed_zero _ _ _ _ L lv 3 fun _ _ => rfl
  pre c := iprop(StableHlo.held (c : Thread nD τ) (Pipeline.ucRefs τ sig) (W4 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V4 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V4 m ρ c) (V5 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.Kernel.Hand

end
-- ==== Proof.WRunMain.lean ====
/-
  The whole run: the program as its five items in order — the host preparation, then the four passes —, launched on
  any memory; every weakly fair execution terminates, nothing faulting, and in every final state each unscoped buffer
  holds what the fold of the items leaves in it. Read off that: the six argument arrays end as launched (no item writes
  one), and the result array ends at what the fourth pass's write-backs leave.
-/
import proofs.«134233_g4183298146899_cont_8to1_b_1680_5_alg».proof.Proof.WReg0
import proofs.«134233_g4183298146899_cont_8to1_b_1680_5_alg».proof.Proof.WReg1
import proofs.«134233_g4183298146899_cont_8to1_b_1680_5_alg».proof.Proof.WReg2
import proofs.«134233_g4183298146899_cont_8to1_b_1680_5_alg».proof.Proof.WReg3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Kernel Cert.Kernel.Gen
open Idealize.ShloMosaic.Pipeline (Seg HostSeg RegionSeg)

variable (m : (ℓ : Loc nD τ sig) → Buf (Elt F) ℓ) (ρ : Dev nD → PrngReg)

/-- The references the host preparation writes. -/
abbrev hostOps0_W : List (Ref sig .tc) := [main_v0, main_v1, main_cst, main_v2, main_v3, main_c, main_v4, main_v5, main_v6, main_cst_0, main_v7, main_c_1, main_v8, main_c_2, main_v9, main_v10, main_v11]

/-- A buffer the host preparation does not write is after it as launched. -/
theorem W1_of_not_written (c : Dev nD) (b : Ref sig .tc) (hb : b ∉ hostOps0_W) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (fun e => hb (e ▸ by decide))))

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of_ne m ρ c main_arg0 (by decide)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide) (by decide) (by decide)
    _ = W0 m ρ c (Proc.devRef .tc main_arg0) := W1_of_not_written m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of_ne m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide) (by decide) (by decide)
    _ = W0 m ρ c (Proc.devRef .tc main_arg1) := W1_of_not_written m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of_ne m ρ c main_arg2 (by decide)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := W2_of_ne m ρ c main_arg2 (by decide) (by decide) (by decide)
    _ = W0 m ρ c (Proc.devRef .tc main_arg2) := W1_of_not_written m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of_ne m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := W2_of_ne m ρ c main_arg3 (by decide) (by decide) (by decide)
    _ = W0 m ρ c (Proc.devRef .tc main_arg3) := W1_of_not_written m ρ c main_arg3 (by decide)
    _ = m ((c : Thread nD τ).loc main_arg3) := rfl

theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide) (by decide) (by decide)
    _ = W0 m ρ c (Proc.devRef .tc main_arg4) := W1_of_not_written m ρ c main_arg4 (by decide)
    _ = m ((c : Thread nD τ).loc main_arg4) := rfl

theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide) (by decide) (by decide)
    _ = W0 m ρ c (Proc.devRef .tc main_arg5) := W1_of_not_written m ρ c main_arg5 (by decide)
    _ = m ((c : Thread nD τ).loc main_arg5) := rfl

/-- The result array ends at what the fourth pass's write-backs leave. -/
theorem W5_main_v15 (c : Dev nD) : W5 m ρ c (Proc.devRef .tc main_v15) = (dat3 (V4 m ρ) c).arrAt 3 cfg3.N := W5_arr m ρ c 3

/-- A host stretch as an item: its operations over the unscoped buffers from the contents `W`, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The program's five items in order. -/
abbrev segs : List (Pipeline.Seg (pcfgs (F := F)) adm (pdats m ρ) () defs₀ 𝒱₀ L lv) :=
  [ .host (hseg hostOps0 hostOps0_sub hostOps0_fresh (W0 m ρ)),
    .region (reg0 m ρ), .region (reg1 m ρ), .region (reg2 m ρ), .region (reg3 m ρ) ]

theorem main_run (c : Dev nD) : main (F := F) c = Pipeline.Seg.run (segs m ρ) := (main_chain c).trans (by chain_rfl)

set_option backward.isDefEq.respectTransparency.types false in
/-- THE RUN, at any `F`: from any memory with zero counters every weakly fair execution terminates, nothing faulting,
    and every final state holds each unscoped buffer at the last contents of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- THE FRAME: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m ρ c), (h c _ (mem_uc main_arg1 (by decide))).trans (W5_main_arg1 m ρ c),
     (h c _ (mem_uc main_arg2 (by decide))).trans (W5_main_arg2 m ρ c), (h c _ (mem_uc main_arg3 (by decide))).trans (W5_main_arg3 m ρ c),
     (h c _ (mem_uc main_arg4 (by decide))).trans (W5_main_arg4 m ρ c), (h c _ (mem_uc main_arg5 (by decide))).trans (W5_main_arg5 m ρ c)⟩)
    (run_main m ρ)

/-- The run with the result named: the result array ends at what the fourth pass's write-backs leave, the six
    argument arrays as launched. -/
theorem run_result : θ_run defs (onTc (τ := τ) (main (F := F))) ⟨m, fun _ => 0, ρ⟩ (fun r => ∀ c : Dev nD,
      r.2.mem ((c.tc : Thread nD τ).loc main_v15) = (dat3 (V4 m ρ) c).arrAt 3 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v15 (by decide))).trans (W5_main_v15 m ρ c),
     (h c _ (mem_uc main_arg0 (by decide))).trans (W5_main_arg0 m ρ c), (h c _ (mem_uc main_arg1 (by decide))).trans (W5_main_arg1 m ρ c),
     (h c _ (mem_uc main_arg2 (by decide))).trans (W5_main_arg2 m ρ c), (h c _ (mem_uc main_arg3 (by decide))).trans (W5_main_arg3 m ρ c),
     (h c _ (mem_uc main_arg4 (by decide))).trans (W5_main_arg4 m ρ c), (h c _ (mem_uc main_arg5 (by decide))).trans (W5_main_arg5 m ρ c)⟩)
    (run_main m ρ)

end Cert.Kernel.Hand

end
-- ==== Proof.HostVals.lean ====
/-
  What the host preparation leaves in the five buffers the passes read besides the arguments: the features and the
  first weights narrowed (the identity at the ideal values), the first bias as a one-row matrix, and the second
  layer's weights and bias written into zero arrays of 128 lanes (a scatter of the whole update at lane offset zero).
  Each is one operation chain applied to the launch contents of the arguments.
-/
import proofs.«134233_g4183298146899_cont_8to1_b_1680_5_alg».proof.Proof.Bounds
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal Cert.KernelIdeal.Gen
variable (m : (ℓ : Loc nD τ sig) → Buf (Elt F) ℓ) (ρ : Dev nD → PrngReg)

theorem V1_main_v0 (c : Dev nD) : (V1 m ρ c main_v0 : (⟨S10000x128, .bf16⟩ : BufTy).Contents (Elt F))
    = truncf .bf16 (m ((c : Thread nD τ).loc main_arg0)) bitsLt_bf16_f32 := by
  show StableHlo.after hostOps0 (W0 m ρ c) (Proc.devRef .tc main_v0) = _
  after_results

theorem V1_main_v1 (c : Dev nD) : (V1 m ρ c main_v1 : (⟨S3x128x128, .bf16⟩ : BufTy).Contents (Elt F))
    = truncf .bf16 (m ((c : Thread nD τ).loc main_arg2)) bitsLt_bf16_f32 := by
  show StableHlo.after hostOps0 (W0 m ρ c) (Proc.devRef .tc main_v1) = _
  after_results

theorem V1_main_v6 (c : Dev nD) : (V1 m ρ c main_v6 : (⟨S1x128, .f32⟩ : BufTy).Contents (Elt F))
    = shapeCast S1x128 (m ((c : Thread nD τ).loc main_arg3)) shapeCasts_S128_S1x128 := by
  show StableHlo.after hostOps0 (W0 m ρ c) (Proc.devRef .tc main_v6) = _
  after_results; rfl

theorem V1_main_v5 (c : Dev nD) : (V1 m ρ c main_v5 : (⟨S3x128x128, .bf16⟩ : BufTy).Contents (Elt F))
    = Host.scatter scatter_S3x128x128_S1_S3x128x40_012_n_2_0 (fun _ b => b)
        (broadcastInDim S3x128x128 ![] bcast_S_S3x128x128 (constant (F := F) S_ .bf16 0x0000#16))
        (broadcastInDim S1 ![] bcast_S_S1 (constantI S_ 32 0#32))
        (truncf .bf16 (m ((c : Thread nD τ).loc main_arg4)) bitsLt_bf16_f32) := by
  show StableHlo.after hostOps0 (W0 m ρ c) (Proc.devRef .tc main_v5) = _
  after_results

theorem V1_main_v11 (c : Dev nD) : (V1 m ρ c main_v11 : (⟨S1x128, .f32⟩ : BufTy).Contents (Elt F))
    = Host.scatter scatter_S1x128_S2_S40_0_0_01_0 (fun _ b => b)
        (broadcastInDim S1x128 ![] bcast_S_S1x128 (constant (F := F) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        (m ((c : Thread nD τ).loc main_arg5)) := by
  show StableHlo.after hostOps0 (W0 m ρ c) (Proc.devRef .tc main_v11) = _
  after_results

theorem V1_main_arg1 (c : Dev nD) : V1 m ρ c main_arg1 = m ((c : Thread nD τ).loc main_arg1) := by
  show StableHlo.after hostOps0 (W0 m ρ c) (Proc.devRef .tc main_arg1) = _
  after_results

end Cert.KernelIdeal.Hand

end
-- ==== Proof.LibScatter.lean ====
/-
  General facts about the host scatter, read at one operand index.

  A scatter walks the update indices in row-major order; each update lands at one operand index (start index plus
  window coordinate) or is dropped when that index leaves the operand. Read at ONE operand index `i`, only the
  updates landing at `i` matter, in their row-major order:

  * `scatter_apply`      — the value at `i` is the left fold of the body over the updates that land at `i`, from the
                            operand's own element;
  * `scatter_of_none`    — when no update lands at `i` the value is the operand's element, whatever the body;
  * `scatter_set_of_unique` — for a body that returns the update (an assignment): when exactly one update lands at `i`
                            the value is that update;
  * `scatter_add_one_toNat` — for the integer sum of the constant one into zeros (a histogram): the value at `i` is the
                            number of updates landing at `i`, when that number fits the word.
-/
import Idealize.ShloMosaic.PureOps.ShapeOps
import Idealize.ShloMosaic.PureOps.Dims
import Mathlib.Data.List.Basic

namespace Cert.LibScatter

open Idealize.ShloMosaic

variable {s si u : Shape} {α : Type} {w : Nat}

/-- The scatter's step function: update number `n` (row-major) replaces the element at its landing index by the body
    of that element and the update, and changes nothing when it is dropped. -/
def step (d : ScatterDims s si u) (f : α → α → α) (idx : IVec si w) (upd : u.Idx → α) (r : s.Idx → α) (n : Fin u.numel) :
    s.Idx → α :=
  match d.resultIdx? (u.rowMajor.symm n) idx with
  | some i => fun i' => if i' = i then f (r i) (upd (u.rowMajor.symm n)) else r i'
  | none => r

theorem scatter_eq_foldl (d : ScatterDims s si u) (f : α → α → α) (x : s.Idx → α) (idx : IVec si w) (upd : u.Idx → α) :
    Host.scatter d f x idx upd = (List.finRange u.numel).foldl (step d f idx upd) x := rfl

/-- One step read at `i`: the body is applied exactly when the update lands at `i`. -/
theorem step_apply (d : ScatterDims s si u) (f : α → α → α) (idx : IVec si w) (upd : u.Idx → α) (r : s.Idx → α)
    (n : Fin u.numel) (i : s.Idx) :
    step d f idx upd r n i
      = if d.resultIdx? (u.rowMajor.symm n) idx = some i then f (r i) (upd (u.rowMajor.symm n)) else r i := by
  unfold step
  cases h : d.resultIdx? (u.rowMajor.symm n) idx with
  | none => simp
  | some k =>
    by_cases hk : i = k
    · subst hk; simp
    · have : ¬ (some k = some i) := fun e => hk (Option.some.inj e).symm
      simp [hk, this]

/-- A fold of steps read at `i` is the fold of the body over the updates of the list that land at `i`. -/
theorem foldl_step_apply (d : ScatterDims s si u) (f : α → α → α) (idx : IVec si w) (upd : u.Idx → α)
    (L : List (Fin u.numel)) (r : s.Idx → α) (i : s.Idx) :
    L.foldl (step d f idx upd) r i
      = (L.filter fun n => decide (d.resultIdx? (u.rowMajor.symm n) idx = some i)).foldl
          (fun a n => f a (upd (u.rowMajor.symm n))) (r i) := by
  induction L generalizing r with
  | nil => rfl
  | cons n L ih =>
    rw [List.foldl_cons, ih, step_apply]
    by_cases h : d.resultIdx? (u.rowMajor.symm n) idx = some i
    · rw [List.filter_cons_of_pos (by simpa using h), List.foldl_cons, if_pos h]
    · rw [List.filter_cons_of_neg (by simpa using h), if_neg h]

/-- THE SCATTER AT AN INDEX: the left fold of the body, from the operand's element at `i`, over the updates that land at
    `i`, in row-major order. -/
theorem scatter_apply (d : ScatterDims s si u) (f : α → α → α) (x : s.Idx → α) (idx : IVec si w) (upd : u.Idx → α)
    (i : s.Idx) :
    Host.scatter d f x idx upd i
      = ((List.finRange u.numel).filter fun n => decide (d.resultIdx? (u.rowMajor.symm n) idx = some i)).foldl
          (fun a n => f a (upd (u.rowMajor.symm n))) (x i) := by
  rw [scatter_eq_foldl, foldl_step_apply]

/-- No update lands at `i`: the operand's element stays, whatever the body. -/
theorem scatter_of_none (d : ScatterDims s si u) (f : α → α → α) (x : s.Idx → α) (idx : IVec si w) (upd : u.Idx → α)
    (i : s.Idx) (h : ∀ j : u.Idx, d.resultIdx? j idx ≠ some i) :
    Host.scatter d f x idx upd i = x i := by
  rw [scatter_apply]
  have : ((List.finRange u.numel).filter fun n => decide (d.resultIdx? (u.rowMajor.symm n) idx = some i)) = [] := by
    rw [List.filter_eq_nil_iff]
    intro n _
    simpa using h (u.rowMajor.symm n)
  rw [this]; rfl

/-- The updates landing at `i`, when `j₀` is the only one: the one-element list of its row-major number. -/
theorem filter_of_unique (d : ScatterDims s si u) (idx : IVec si w) (i : s.Idx) (j₀ : u.Idx)
    (h₀ : d.resultIdx? j₀ idx = some i) (huniq : ∀ j : u.Idx, d.resultIdx? j idx = some i → j = j₀) :
    ((List.finRange u.numel).filter fun n => decide (d.resultIdx? (u.rowMajor.symm n) idx = some i))
      = [u.rowMajor j₀] := by
  have hp : ∀ n : Fin u.numel, decide (d.resultIdx? (u.rowMajor.symm n) idx = some i) = (n == u.rowMajor j₀) := by
    intro n
    by_cases hn : n = u.rowMajor j₀
    · subst hn; simp [h₀]
    · have : ¬ d.resultIdx? (u.rowMajor.symm n) idx = some i := fun e => hn (by
        have := huniq _ e; rw [← this]; simp)
      simp [hn, this]
  rw [List.filter_congr (fun n _ => hp n), List.filter_beq,
    List.count_eq_one_of_mem (List.nodup_finRange _) (List.mem_finRange _)]
  rfl

/-- An assignment (the body returns the update): when `j₀` is the one update landing at `i`, the value at `i` is that
    update. -/
theorem scatter_set_of_unique (d : ScatterDims s si u) (x : s.Idx → α) (idx : IVec si w) (upd : u.Idx → α)
    (i : s.Idx) (j₀ : u.Idx) (h₀ : d.resultIdx? j₀ idx = some i)
    (huniq : ∀ j : u.Idx, d.resultIdx? j idx = some i → j = j₀) :
    Host.scatter d (fun _ b => b) x idx upd i = upd j₀ := by
  rw [scatter_apply, filter_of_unique d idx i j₀ h₀ huniq]
  simp

/-- A left fold of word addition of the constant one over a list, from zero, counts the list (when the count fits). -/
theorem foldl_add_one_toNat {β : Type} (L : List β) (a : BitVec w) (hfit : a.toNat + L.length < 2 ^ w) :
    (L.foldl (fun (r : BitVec w) (_ : β) => IntOp.addi r (1 : BitVec w)) a).toNat = a.toNat + L.length := by
  induction L generalizing a with
  | nil => simp
  | cons b L ih =>
    rw [List.foldl_cons]
    have hfit' : a.toNat + (L.length + 1) < 2 ^ w := by rw [List.length_cons] at hfit; exact hfit
    have hpow : 1 < 2 ^ w := by
      rcases Nat.eq_zero_or_pos w with hw | hw
      · subst hw; omega
      · exact Nat.one_lt_two_pow (by omega)
    have hone : (1 : BitVec w).toNat = 1 := by
      show (BitVec.ofNat w 1).toNat = 1
      rw [BitVec.toNat_ofNat]; exact Nat.mod_eq_of_lt hpow
    have h1 : (IntOp.addi a (1 : BitVec w)).toNat = a.toNat + 1 := by
      unfold IntOp.addi
      rw [BitVec.toNat_add, hone]; exact Nat.mod_eq_of_lt (by omega)
    rw [ih _ (by rw [h1]; omega), h1, List.length_cons]; omega

/-- A histogram: the integer sum of the constant one scattered into zeros holds, at `i`, the number of updates that
    land at `i` (when that number fits the word). -/
theorem scatter_add_one_toNat (d : ScatterDims s si u) (x : s.Idx → BitVec w) (idx : IVec si w) (upd : u.Idx → BitVec w)
    (i : s.Idx) (hx : x i = 0) (hupd : ∀ j, upd j = 1)
    (hfit : ((List.finRange u.numel).filter fun n => decide (d.resultIdx? (u.rowMajor.symm n) idx = some i)).length < 2 ^ w) :
    (Host.scatter d IntOp.addi x idx upd i).toNat
      = ((List.finRange u.numel).filter fun n => decide (d.resultIdx? (u.rowMajor.symm n) idx = some i)).length := by
  rw [scatter_apply]
  have : (fun (a : BitVec w) (n : Fin u.numel) => IntOp.addi a (upd (u.rowMajor.symm n)))
      = fun (a : BitVec w) (_ : Fin u.numel) => IntOp.addi a (1 : BitVec w) := by
    funext a n; rw [hupd]
  rw [this, foldl_add_one_toNat _ _ (by rw [hx]; simpa using hfit), hx]
  simp

end Cert.LibScatter
-- ==== Proof.LibScatterPad.lean ====
/-
  The landing index of an update for two more scatter layouts, in closed form: a block written into a wider array.

  * One start index on the LAST axis of a rank-3 operand (`resultIdx?_lane`): the operand is `A × B × N`, the update is
    one `A × B × M` window, and the single start index is the window's offset on the last axis; update `(a, b, c)` lands
    at `(a', b', n)` exactly when `a' = a`, `b' = b` and `n` is the offset plus `c`.
  * A pair of start indices placing a row of length `M` inside a `1 × N` operand (`resultIdx?_row`): the first start
    index names the operand's one row, the second the offset along it; update `c` lands at `(p, n)` exactly when the
    first start index is `p` and `n` is the second plus `c`.
-/
import Idealize.ShloMosaic.PureOps.ShapeOps
import Idealize.ShloMosaic.PureOps.Dims
import Idealize.ShloMosaic.Lib.ValueIdx

namespace Cert.LibScatter

open Idealize.ShloMosaic Idealize.ShloMosaic.ValueIdx

variable {A B N M w : Nat}

section Lane

variable (d : ScatterDims ⟨3, ![A, B, N]⟩ ⟨1, ![1]⟩ ⟨3, ![A, B, M]⟩)
    (h1 : d.updateWindowDims = [0, 1, 2]) (h2 : d.insertedWindowDims = []) (h3 : d.scatterDimsToOperandDims = [2])
    (h4 : d.indexVectorDim = 0)

include h1 h2 h3 h4 in
/-- The first axis has no start index: its start is zero. -/
theorem start_lane0 (j : (⟨3, ![A, B, M]⟩ : Shape).Idx) (idx : IVec ⟨1, ![1]⟩ w) : d.start j idx 0 = 0 := by
  obtain ⟨uw, iw, sd, iv, wf⟩ := d
  subst h1 h2 h3 h4
  unfold ScatterDims.start
  rw [dif_neg]
  simp

include h1 h2 h3 h4 in
/-- Nor has the second. -/
theorem start_lane1 (j : (⟨3, ![A, B, M]⟩ : Shape).Idx) (idx : IVec ⟨1, ![1]⟩ w) : d.start j idx 1 = 0 := by
  obtain ⟨uw, iw, sd, iv, wf⟩ := d
  subst h1 h2 h3 h4
  unfold ScatterDims.start
  rw [dif_neg]
  simp

include h1 h2 h3 h4 in
/-- The last axis starts at the one start index, read signed. -/
theorem start_lane2 (j : (⟨3, ![A, B, M]⟩ : Shape).Idx) (idx : IVec ⟨1, ![1]⟩ w) :
    d.start j idx 2 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- Every operand axis is a window axis: the window coordinate is the update's own coordinate. -/
theorem window_lane0 (j : (⟨3, ![A, B, M]⟩ : Shape).Idx) : d.window j 0 = (j 0).val := by
  obtain ⟨uw, iw, sd, iv, wf⟩ := d
  subst h1 h2 h3 h4
  unfold ScatterDims.window
  rw [dif_pos (by simp [ScatterDims.sKept, Shape.kept])]
  rfl

include h1 h2 h3 h4 in
theorem window_lane1 (j : (⟨3, ![A, B, M]⟩ : Shape).Idx) : d.window j 1 = (j 1).val := by
  obtain ⟨uw, iw, sd, iv, wf⟩ := d
  subst h1 h2 h3 h4
  unfold ScatterDims.window
  rw [dif_pos (by simp [ScatterDims.sKept, Shape.kept])]
  rfl

include h1 h2 h3 h4 in
theorem window_lane2 (j : (⟨3, ![A, B, M]⟩ : Shape).Idx) : d.window j 2 = (j 2).val := by
  obtain ⟨uw, iw, sd, iv, wf⟩ := d
  subst h1 h2 h3 h4
  unfold ScatterDims.window
  rw [dif_pos (by simp [ScatterDims.sKept, Shape.kept])]
  rfl

include h1 h2 h3 h4 in
/-- Update `(a, b, c)` lands at `(a', b', n)` exactly when `a' = a`, `b' = b` and `n` is the start index, read signed,
    plus `c`. -/
theorem resultIdx?_lane (j : (⟨3, ![A, B, M]⟩ : Shape).Idx) (idx : IVec ⟨1, ![1]⟩ w) (i : (⟨3, ![A, B, N]⟩ : Shape).Idx) :
    d.resultIdx? j idx = some i ↔
      (i 0).val = (j 0).val ∧ (i 1).val = (j 1).val ∧ (idx (ix1 0)).toInt + ((j 2).val : Int) = ((i 2).val : Int) := by
  have hs0 := start_lane0 d h1 h2 h3 h4 j idx
  have hs1 := start_lane1 d h1 h2 h3 h4 j idx
  have hs2 := start_lane2 d h1 h2 h3 h4 j idx
  have hw0 := window_lane0 d h1 h2 h3 h4 j
  have hw1 := window_lane1 d h1 h2 h3 h4 j
  have hw2 := window_lane2 d h1 h2 h3 h4 j
  have hi0 : (i 0).val < A := (i 0).isLt
  have hi1 : (i 1).val < B := (i 1).isLt
  have hi2 : (i 2).val < N := (i 2).isLt
  have hj0 : (j 0).val < A := (j 0).isLt
  have hj1 : (j 1).val < B := (j 1).isLt
  unfold ScatterDims.resultIdx?
  constructor
  · intro h
    split at h
    · rename_i hin
      have e := Option.some.inj h
      have e0 := congrArg Fin.val (congrFun e 0)
      have e1 := congrArg Fin.val (congrFun e 1)
      have e2 := congrArg Fin.val (congrFun e 2)
      simp only [hs0, hw0, hs1, hw1, hs2, hw2] at e0 e1 e2
      have g2 := (hin 2).1
      rw [hs2, hw2] at g2
      refine ⟨by omega, by omega, by omega⟩
    · exact absurd h (by simp)
  · rintro ⟨e0, e1, e2⟩
    have hin : ∀ a, 0 ≤ d.start j idx a + ↑(d.window j a) ∧ d.start j idx a + ↑(d.window j a) < (⟨3, ![A, B, N]⟩ : Shape).size a := by
      intro a
      match a with
      | ⟨0, _⟩ =>
        show 0 ≤ d.start j idx 0 + ↑(d.window j 0) ∧ d.start j idx 0 + ↑(d.window j 0) < ((A : Nat) : Int)
        rw [hs0, hw0]; omega
      | ⟨1, _⟩ =>
        show 0 ≤ d.start j idx 1 + ↑(d.window j 1) ∧ d.start j idx 1 + ↑(d.window j 1) < ((B : Nat) : Int)
        rw [hs1, hw1]; omega
      | ⟨2, _⟩ =>
        show 0 ≤ d.start j idx 2 + ↑(d.window j 2) ∧ d.start j idx 2 + ↑(d.window j 2) < ((N : Nat) : Int)
        rw [hs2, hw2, e2]; omega
    rw [dif_pos hin]
    congr 1
    funext a
    apply Fin.ext
    match a with
    | ⟨0, _⟩ =>
      show (d.start j idx 0 + ↑(d.window j 0)).toNat = (i 0).val
      rw [hs0, hw0]; omega
    | ⟨1, _⟩ =>
      show (d.start j idx 1 + ↑(d.window j 1)).toNat = (i 1).val
      rw [hs1, hw1]; omega
    | ⟨2, _⟩ =>
      show (d.start j idx 2 + ↑(d.window j 2)).toNat = (i 2).val
      rw [hs2, hw2, e2]; omega

end Lane

section Row

variable (d : ScatterDims ⟨2, ![1, N]⟩ ⟨1, ![2]⟩ ⟨1, ![M]⟩)
    (h1 : d.updateWindowDims = [0]) (h2 : d.insertedWindowDims = [0]) (h3 : d.scatterDimsToOperandDims = [0, 1])
    (h4 : d.indexVectorDim = 0)

include h1 h2 h3 h4 in
/-- The row axis starts at the first start index, read signed. -/
theorem start_row0 (j : (⟨1, ![M]⟩ : Shape).Idx) (idx : IVec ⟨1, ![2]⟩ w) :
    d.start j idx 0 = (idx (ix1 0)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The lane axis starts at the second start index, read signed. -/
theorem start_row1 (j : (⟨1, ![M]⟩ : Shape).Idx) (idx : IVec ⟨1, ![2]⟩ w) :
    d.start j idx 1 = (idx (ix1 1)).toInt := by
  obtain ⟨uw, iw, sd, iv, wf⟩ := d
  subst h1 h2 h3 h4
  unfold ScatterDims.start
  rw [dif_pos (by simp)]
  congr 1
  congr 1
  funext b
  unfold ScatterDims.siIdx
  match b with
  | ⟨0, _⟩ => simp; rfl

include h1 h2 h3 h4 in
/-- The row axis is an inserted one: its window coordinate is zero. -/
theorem window_row0 (j : (⟨1, ![M]⟩ : Shape).Idx) : d.window j 0 = 0 := by
  obtain ⟨uw, iw, sd, iv, wf⟩ := d
  subst h1 h2 h3 h4
  unfold ScatterDims.window
  rw [dif_neg]
  simp [ScatterDims.sKept, Shape.kept]

include h1 h2 h3 h4 in
/-- The lane axis is the window axis: its window coordinate is the update's coordinate. -/
theorem window_row1 (j : (⟨1, ![M]⟩ : Shape).Idx) : d.window j 1 = (j 0).val := by
  obtain ⟨uw, iw, sd, iv, wf⟩ := d
  subst h1 h2 h3 h4
  unfold ScatterDims.window
  rw [dif_pos (by simp [ScatterDims.sKept, Shape.kept])]
  rfl

include h1 h2 h3 h4 in
/-- Update `c` lands at `(p, n)` exactly when the first start index, read signed, is `p` and `n` is the second plus `c`. -/
theorem resultIdx?_row (j : (⟨1, ![M]⟩ : Shape).Idx) (idx : IVec ⟨1, ![2]⟩ w) (i : (⟨2, ![1, N]⟩ : Shape).Idx) :
    d.resultIdx? j idx = some i ↔
      (idx (ix1 0)).toInt = ((i 0).val : Int) ∧ (idx (ix1 1)).toInt + ((j 0).val : Int) = ((i 1).val : Int) := by
  have hs0 := start_row0 d h1 h2 h3 h4 j idx
  have hs1 := start_row1 d h1 h2 h3 h4 j idx
  have hw0 := window_row0 d h1 h2 h3 h4 j
  have hw1 := window_row1 d h1 h2 h3 h4 j
  have hi0 : (i 0).val < 1 := (i 0).isLt
  have hi1 : (i 1).val < N := (i 1).isLt
  unfold ScatterDims.resultIdx?
  constructor
  · intro h
    split at h
    · rename_i hin
      have e := Option.some.inj h
      have e0 := congrArg Fin.val (congrFun e 0)
      have e1 := congrArg Fin.val (congrFun e 1)
      simp only [hs0, hw0, hs1, hw1] at e0 e1
      have g0 := (hin 0).1
      have g1 := (hin 1).1
      rw [hs0, hw0] at g0
      rw [hs1, hw1] at g1
      refine ⟨by omega, by omega⟩
    · exact absurd h (by simp)
  · rintro ⟨e0, e1⟩
    have hin : ∀ a, 0 ≤ d.start j idx a + ↑(d.window j a) ∧ d.start j idx a + ↑(d.window j a) < (⟨2, ![1, N]⟩ : Shape).size a := by
      intro a
      match a with
      | ⟨0, _⟩ =>
        show 0 ≤ d.start j idx 0 + ↑(d.window j 0) ∧ d.start j idx 0 + ↑(d.window j 0) < ((1 : Nat) : Int)
        rw [hs0, hw0, e0]; omega
      | ⟨1, _⟩ =>
        show 0 ≤ d.start j idx 1 + ↑(d.window j 1) ∧ d.start j idx 1 + ↑(d.window j 1) < ((N : Nat) : Int)
        rw [hs1, hw1, e1]; omega
    rw [dif_pos hin]
    congr 1
    funext a
    apply Fin.ext
    match a with
    | ⟨0, _⟩ =>
      show (d.start j idx 0 + ↑(d.window j 0)).toNat = (i 0).val
      rw [hs0, hw0, e0]; omega
    | ⟨1, _⟩ =>
      show (d.start j idx 1 + ↑(d.window j 1)).toNat = (i 1).val
      rw [hs1, hw1, e1]; omega

end Row

end Cert.LibScatter
-- ==== Proof.HostPrep.lean ====
/-
  The operands the host prepares before the first kernel call, read at an index at the ideal values.

  The second layer's weights `[3, 128, 40]` and bias `[40]` are padded with zero lanes to `[3, 128, 128]` and `[1, 128]`:
  each is written, at offset zero, into an array of zeros. Read at a lane `l`, the padded array holds the original entry
  on the first forty lanes and zero beyond. The other prepared operands are changes of float format (the identity at the
  ideal values) and the first layer's bias viewed as one row.
-/
import proofs.«134233_g4183298146899_cont_8to1_b_1680_5_alg».proof.KernelIdeal
import proofs.«134233_g4183298146899_cont_8to1_b_1680_5_alg».proof.Proof.Gen.KernelIdeal
import proofs.«134233_g4183298146899_cont_8to1_b_1680_5_alg».proof.Proof.LibScatter
import proofs.«134233_g4183298146899_cont_8to1_b_1680_5_alg».proof.Proof.LibScatterPad
import Idealize.ShloMosaic.Lib.ValueIdx
import Idealize.ShloMosaic.Lib.Pipeline.Value
import Idealize.ShloMosaic.Lib.ValueLayout
import Idealize.ShloMosaic.PureOps.Ideal.Laws

noncomputable section

namespace Cert.KernelBridge

open Cert.KernelIdeal Cert.KernelIdeal.Facts₀ Idealize.ShloMosaic Idealize.ShloMosaic.ValueIdx

/-- The sixteen-bit zero word is the extended real zero. -/
theorem ofBits_zero_bf16 : Ideal.ofBits .bf16 0x0000#16 = 0 := by simp [Ideal.ofBits, Ideal.ieee]

/-! ## The padded weights -/

/-- The one start index of the weights' write is zero. -/
theorem padW_start : ((broadcastInDim S1 ![] bcast_S_S1 (constantI S_ 32 0#32) : IVec S1 32) (ix1 0)).toInt = 0 := rfl

/-- The second layer's weights written at lane offset zero into a `[3, 128, 128]` array of zeros: the weight on the first
    forty lanes, zero beyond. -/
theorem padW (W1 : FVec Ideal S3x128x40 .f32) (k : Fin 3) (j : Fin 128) (l : Fin 128) :
    Host.scatter scatter_S3x128x128_S1_S3x128x40_012_n_2_0 (fun _ b => b)
        (broadcastInDim S3x128x128 ![] bcast_S_S3x128x128 (constant (F := Ideal) S_ .bf16 0x0000#16))
        (broadcastInDim S1 ![] bcast_S_S1 (constantI S_ 32 0#32))
        (truncf .bf16 W1 bitsLt_bf16_f32) (ix3 k j l)
      = if hl : l.val < 40 then W1 (ix3 k j ⟨l.val, hl⟩) else 0 := by
  by_cases hl : l.val < 40
  · rw [dif_pos hl]
    refine (LibScatter.scatter_set_of_unique scatter_S3x128x128_S1_S3x128x40_012_n_2_0 _ _ _ (ix3 k j l) (ix3 k j ⟨l.val, hl⟩) ?_ ?_).trans rfl
    · refine (LibScatter.resultIdx?_lane scatter_S3x128x128_S1_S3x128x40_012_n_2_0 rfl rfl rfl rfl _ _ _).mpr ⟨rfl, rfl, ?_⟩
      rw [padW_start]
      exact Int.zero_add _
    · intro j' hj'
      obtain ⟨e0, e1, e2⟩ := (LibScatter.resultIdx?_lane scatter_S3x128x128_S1_S3x128x40_012_n_2_0 rfl rfl rfl rfl _ _ _).mp hj'
      rw [padW_start] at e2
      have e2' : (0 : Int) + ((j' 2).val : Int) = (l.val : Int) := e2
      funext a
      apply Fin.ext
      match a with
      | ⟨0, _⟩ => exact e0.symm
      | ⟨1, _⟩ => exact e1.symm
      | ⟨2, _⟩ => show (j' 2).val = l.val; omega
  · rw [dif_neg hl]
    refine (LibScatter.scatter_of_none scatter_S3x128x128_S1_S3x128x40_012_n_2_0 _ _ _ _ (ix3 k j l) ?_).trans ofBits_zero_bf16
    intro j' hj'
    obtain ⟨_, _, e2⟩ := (LibScatter.resultIdx?_lane scatter_S3x128x128_S1_S3x128x40_012_n_2_0 rfl rfl rfl rfl _ _ _).mp hj'
    rw [padW_start] at e2
    have e2' : (0 : Int) + ((j' 2).val : Int) = (l.val : Int) := e2
    have h40 : (j' 2).val < 40 := (j' 2).isLt
    omega

/-! ## The padded bias -/

/-- Both start indices of the bias's write are zero. -/
theorem padB_start0 : (((concatenate S2 0 [⟨S1, broadcastInDim S1 ![] bcast_S_S1 (constantI S_ 32 0#32)⟩, ⟨S1, broadcastInDim S1 ![] bcast_S_S1 (constantI S_ 32 0#32)⟩] concatenates_S1_S1_S2_d0) : IVec S2 32) (ix1 0)).toInt = 0 := rfl
theorem padB_start1 : (((concatenate S2 0 [⟨S1, broadcastInDim S1 ![] bcast_S_S1 (constantI S_ 32 0#32)⟩, ⟨S1, broadcastInDim S1 ![] bcast_S_S1 (constantI S_ 32 0#32)⟩] concatenates_S1_S1_S2_d0) : IVec S2 32) (ix1 1)).toInt = 0 := rfl

/-- The second layer's bias written at `(0, 0)` into a `[1, 128]` row of zeros: the bias on the first forty lanes, zero
    beyond. -/
theorem padB (b1 : FVec Ideal S40 .f32) (l : Fin 128) :
    Host.scatter scatter_S1x128_S2_S40_0_0_01_0 (fun _ b => b)
        (broadcastInDim S1x128 ![] bcast_S_S1x128 (constant (F := Ideal) S_ .f32 0x00000000#32))
        (concatenate S2 0 [⟨S1, broadcastInDim S1 ![] bcast_S_S1 (constantI S_ 32 0#32)⟩, ⟨S1, broadcastInDim S1 ![] bcast_S_S1 (constantI S_ 32 0#32)⟩] concatenates_S1_S1_S2_d0)
        b1 (ix2 0 l)
      = if hl : l.val < 40 then b1 (ix1 ⟨l.val, hl⟩) else 0 := by
  by_cases hl : l.val < 40
  · rw [dif_pos hl]
    refine LibScatter.scatter_set_of_unique scatter_S1x128_S2_S40_0_0_01_0 _ _ _ (ix2 0 l) (ix1 ⟨l.val, hl⟩) ?_ ?_
    · refine (LibScatter.resultIdx?_row scatter_S1x128_S2_S40_0_0_01_0 rfl rfl rfl rfl _ _ _).mpr ⟨?_, ?_⟩
      · rw [padB_start0]; rfl
      · rw [padB_start1]; exact Int.zero_add _
    · intro j' hj'
      obtain ⟨_, e1⟩ := (LibScatter.resultIdx?_row scatter_S1x128_S2_S40_0_0_01_0 rfl rfl rfl rfl _ _ _).mp hj'
      rw [padB_start1] at e1
      have e1' : (0 : Int) + ((j' 0).val : Int) = (l.val : Int) := e1
      funext a
      apply Fin.ext
      match a with
      | ⟨0, _⟩ => show (j' 0).val = l.val; omega
  · rw [dif_neg hl]
    refine (LibScatter.scatter_of_none scatter_S1x128_S2_S40_0_0_01_0 _ _ _ _ (ix2 0 l) ?_).trans Ideal.ofBits_zero_f32
    intro j' hj'
    obtain ⟨_, e1⟩ := (LibScatter.resultIdx?_row scatter_S1x128_S2_S40_0_0_01_0 rfl rfl rfl rfl _ _ _).mp hj'
    rw [padB_start1] at e1
    have e1' : (0 : Int) + ((j' 0).val : Int) = (l.val : Int) := e1
    have h40 : (j' 0).val < 40 := (j' 0).isLt
    omega

/-! ## The other prepared operands -/

/-- The features in the narrower format: at the ideal values, the features. -/
theorem prep_x (x : FVec Ideal S10000x128 .f32) : truncf .bf16 x bitsLt_bf16_f32 = x := rfl

/-- The first layer's weights in the narrower format: the weights. -/
theorem prep_W0 (W0 : FVec Ideal S3x128x128 .f32) : truncf .bf16 W0 bitsLt_bf16_f32 = W0 := rfl

/-- The second layer's weights in the narrower format: the weights. -/
theorem prep_W1 (W1 : FVec Ideal S3x128x40 .f32) : truncf .bf16 W1 bitsLt_bf16_f32 = W1 := rfl

/-- The first layer's bias viewed as one row reads, at `(0, l)`, the bias at `l`. -/
theorem prep_b0 (b0 : FVec Ideal S128 .f32) (h : S128.ShapeCasts S1x128) (l : Fin 128) :
    shapeCast S1x128 b0 h (ix2 0 l) = b0 (ix1 l) :=
  shapeCast_a_1a_apply b0 h 0 l

end Cert.KernelBridge

end
-- ==== Proof.Spec.lean ====
/-
  The two computations as functions of matrices over the extended reals, entry by entry, and nothing else: a
  two-layer Chebyshev graph convolution of order three followed by a row-wise log-softmax.

  With `G` the n×n operator, `X` the n×d features, `W k` the three weight matrices of a layer and `b` its bias,
  one layer is `X·W 0 + (G·X)·W 1 + (τ·(G·(G·X)) − X)·W 2 + b` (the recursion T₂ = τ·G·T₁ − T₀, τ the literal two).
  The re-associated form computes `τ·(G·((G·X)·W 2)) + (X·(W 0 − W 2) + (G·X)·W 1 + b)`: the same matrix when every
  entry is a real number (matrix products associate and distribute), which is what the inputs' finiteness gives.
  The second layer of the re-associated form works on weights and bias padded with zero lanes from c to p lanes and
  masks the padded lanes out of the log-softmax; the plain form has c lanes throughout.
  The literal words of the programs (two, zero, minus infinity) are parameters here: `τ`, `z`, `ninf`.
-/
import Mathlib
import Idealize.ShloMosaic.PureOps.Ideal
import Idealize.ShloMosaic.Lib.ValueIdx

noncomputable section

namespace Cheb

open scoped BigOperators
open Idealize.ShloMosaic Idealize.ShloMosaic.ValueIdx

/-- A rank-two array as a function of its row and its column. -/
abbrev cur {a b : ℕ} (v : (⟨2, ![a, b]⟩ : Shape).Idx → EReal) : Fin a → Fin b → EReal := fun i j => v (ix2 i j)
/-- Slab `k` of a rank-three array as a function of its row and its column. -/
abbrev cur3 {s a b : ℕ} (v : (⟨3, ![s, a, b]⟩ : Shape).Idx → EReal) : Fin s → Fin a → Fin b → EReal := fun k i j => v (ix3 k i j)
/-- A vector as a function of its position. -/
abbrev cur1 {a : ℕ} (v : (⟨1, ![a]⟩ : Shape).Idx → EReal) : Fin a → EReal := fun i => v (ix1 i)

/-- The three literal words of the programs at the ideal values: two, zero, minus infinity. -/
abbrev wTwo : EReal := Ideal.ofBits .f32 0x40000000#32
abbrev wZero : EReal := Ideal.ofBits .f32 0x00000000#32
abbrev wNinf : EReal := Ideal.ofBits .f32 0xFF800000#32

/-- The matrix product, entry by entry. -/
def mmul {a k b : ℕ} (A : Fin a → Fin k → EReal) (B : Fin k → Fin b → EReal) : Fin a → Fin b → EReal :=
  fun i j => ∑ t : Fin k, A i t * B t j

/-- A row's maximum as both programs take it: the fold of `max` from a start value over the lanes. -/
def rowMax {k : ℕ} (init : EReal) (f : Fin k → EReal) : EReal := (Finset.univ : Finset (Fin k)).fold max init f

section Plain

variable {n d h c : ℕ} (τ z ninf : EReal) (ex lg : EReal → EReal)

/-- One layer in the plain arrangement: `X·W 0 + (G·X)·W 1 + (τ·(G·(G·X)) − X)·W 2 + b`. -/
def layerPlain {a b : ℕ} (X : Fin n → Fin a → EReal) (G : Fin n → Fin n → EReal) (W : Fin 3 → Fin a → Fin b → EReal)
    (bias : Fin b → EReal) : Fin n → Fin b → EReal := fun i l =>
  ((mmul X (W 0) i l + mmul (mmul G X) (W 1) i l)
    + mmul (fun i j => τ * mmul G (mmul G X) i j - X i j) (W 2) i l) + bias l

/-- The hidden features in the plain arrangement: the first layer, then `max · z`. -/
def hidPlain (X : Fin n → Fin d → EReal) (G : Fin n → Fin n → EReal) (W0 : Fin 3 → Fin d → Fin h → EReal) (b0 : Fin h → EReal) :
    Fin n → Fin h → EReal := fun i l => max (layerPlain τ X G W0 b0 i l) z

/-- The logits in the plain arrangement. -/
def logitsPlain (X : Fin n → Fin d → EReal) (G : Fin n → Fin n → EReal) (W0 : Fin 3 → Fin d → Fin h → EReal) (b0 : Fin h → EReal)
    (W1 : Fin 3 → Fin h → Fin c → EReal) (b1 : Fin c → EReal) : Fin n → Fin c → EReal :=
  layerPlain τ (hidPlain τ z X G W0 b0) G W1 b1

/-- The row-wise log-softmax as the plain program spells it: with `m = max ninf (rowMax ninf row)` and `s = row − m`,
    the result is `s − lg (z + ∑ ex s)`. -/
def logSoftmaxPlain (L : Fin n → Fin c → EReal) : Fin n → Fin c → EReal := fun i j =>
  (L i j - max ninf (rowMax ninf (L i)))
    - lg (z + ∑ t : Fin c, ex (L i t - max ninf (rowMax ninf (L i))))

/-- The whole plain computation. -/
def outPlain (X : Fin n → Fin d → EReal) (G : Fin n → Fin n → EReal) (W0 : Fin 3 → Fin d → Fin h → EReal) (b0 : Fin h → EReal)
    (W1 : Fin 3 → Fin h → Fin c → EReal) (b1 : Fin c → EReal) : Fin n → Fin c → EReal :=
  logSoftmaxPlain z ninf ex lg (logitsPlain τ z X G W0 b0 W1 b1)

end Plain

section Reassoc

variable {n d h p : ℕ} (τ z ninf : EReal) (ex lg : EReal → EReal)

/-- `(G·X)·W 2`, the right factor of the second pass over `G`. -/
def passP {a b : ℕ} (X : Fin n → Fin a → EReal) (G : Fin n → Fin n → EReal) (W : Fin 3 → Fin a → Fin b → EReal) :
    Fin n → Fin b → EReal := mmul (mmul G X) (W 2)

/-- `(X·(W 0 − W 2) + (G·X)·W 1) + b`, everything of a layer that needs one pass over `G`. -/
def passR {a b : ℕ} (X : Fin n → Fin a → EReal) (G : Fin n → Fin n → EReal) (W : Fin 3 → Fin a → Fin b → EReal)
    (bias : Fin b → EReal) : Fin n → Fin b → EReal := fun i l =>
  (mmul X (fun j l => W 0 j l - W 2 j l) i l + mmul (mmul G X) (W 1) i l) + bias l

/-- One layer re-associated: `τ·(G·P) + R`. -/
def layerRe {a b : ℕ} (X : Fin n → Fin a → EReal) (G : Fin n → Fin n → EReal) (W : Fin 3 → Fin a → Fin b → EReal)
    (bias : Fin b → EReal) : Fin n → Fin b → EReal := fun i l =>
  τ * mmul G (passP X G W) i l + passR X G W bias i l

/-- The hidden features re-associated. -/
def hidRe (X : Fin n → Fin d → EReal) (G : Fin n → Fin n → EReal) (W0 : Fin 3 → Fin d → Fin h → EReal) (b0 : Fin h → EReal) :
    Fin n → Fin h → EReal := fun i l => max (layerRe τ X G W0 b0 i l) z

/-- The second layer's one-pass part as the second pass over `G` leaves it: `H·(W 0 − W 2) + b` only
    (the `(G·H)·W 1` term is added in the third pass). -/
def passR1 (H : Fin n → Fin h → EReal) (W : Fin 3 → Fin h → Fin p → EReal) (bias : Fin p → EReal) : Fin n → Fin p → EReal :=
  fun i l => mmul H (fun j l => W 0 j l - W 2 j l) i l + bias l

/-- The third pass's sum: `R1 + (G·H)·W 1`. -/
def passS1 (H : Fin n → Fin h → EReal) (G : Fin n → Fin n → EReal) (W : Fin 3 → Fin h → Fin p → EReal) (bias : Fin p → EReal) :
    Fin n → Fin p → EReal := fun i l => passR1 H W bias i l + mmul (mmul G H) (W 1) i l

/-- The padded logits: `τ·(G·((G·H)·W 2)) + S1`. -/
def logitsRe (X : Fin n → Fin d → EReal) (G : Fin n → Fin n → EReal) (W0 : Fin 3 → Fin d → Fin h → EReal) (b0 : Fin h → EReal)
    (W1p : Fin 3 → Fin h → Fin p → EReal) (b1p : Fin p → EReal) : Fin n → Fin p → EReal := fun i l =>
  τ * mmul G (passP (hidRe τ z X G W0 b0) G W1p) i l + passS1 (hidRe τ z X G W0 b0) G W1p b1p i l

/-- The masked row-wise log-softmax over the first `c` of `p` lanes, as the re-associated program spells it: with
    `ml = L` on the first `c` lanes and `ninf` beyond, `m = rowMax ninf ml` and `e = ex (ml − m)` on the first `c`
    lanes and `z` beyond, the result at a lane `l` is `L l − (m + lg (∑ e))`. -/
def logSoftmaxMasked (c : ℕ) (L : Fin n → Fin p → EReal) : Fin n → Fin p → EReal := fun i l =>
  L i l - (rowMax ninf (fun t : Fin p => if t.val < c then L i t else ninf)
    + lg (∑ t : Fin p, if t.val < c then
        ex ((if t.val < c then L i t else ninf) - rowMax ninf (fun t : Fin p => if t.val < c then L i t else ninf)) else z))

end Reassoc

end Cheb

end
-- ==== Proof.ChainA.lean ====
/-
  The contents of the buffers the four passes read, followed through the program at the ideal values: what the host
  preparation leaves (the arguments themselves, format changes being the identity; the second layer's weights and
  bias padded with zero lanes), and which earlier pass's output each later pass's operand is.
-/
import proofs.«134233_g4183298146899_cont_8to1_b_1680_5_alg».proof.Proof.RunMain
import proofs.«134233_g4183298146899_cont_8to1_b_1680_5_alg».proof.Proof.HostVals
import proofs.«134233_g4183298146899_cont_8to1_b_1680_5_alg».proof.Proof.HostPrep
import proofs.«134233_g4183298146899_cont_8to1_b_1680_5_alg».proof.Proof.Spec

set_option maxRecDepth 16384

noncomputable section

namespace Cert.KernelIdeal.Chain

open Idealize.ShloMosaic Idealize.ShloMosaic.TcCoe Idealize.ShloMosaic.ValueIdx
open Idealize.SL.Sem
open Cert.KernelIdeal Cert.KernelIdeal.Gen Cert.KernelIdeal.Hand Cert.KernelBridge

variable (m : (ℓ : Loc nD τ sig) → Buf (Elt Ideal) ℓ) (ρ : Dev nD → PrngReg) (c : Dev nD)

/-- The six argument arrays as launched. -/
abbrev argX : S10000x128.Idx → EReal := m ((c : Thread nD τ).loc main_arg0)
abbrev argG : S10000x10000.Idx → EReal := m ((c : Thread nD τ).loc main_arg1)
abbrev argW0 : S3x128x128.Idx → EReal := m ((c : Thread nD τ).loc main_arg2)
abbrev argB0 : S128.Idx → EReal := m ((c : Thread nD τ).loc main_arg3)
abbrev argW1 : S3x128x40.Idx → EReal := m ((c : Thread nD τ).loc main_arg4)
abbrev argB1 : S40.Idx → EReal := m ((c : Thread nD τ).loc main_arg5)

/-- The second layer's weights and bias with zero lanes from 40 to 128. -/
def padW1 : Fin 3 → Fin 128 → Fin 128 → EReal := fun k j l => if hl : l.val < 40 then argW1 m c (ix3 k j ⟨l.val, hl⟩) else 0
def padB1 : Fin 128 → EReal := fun l => if hl : l.val < 40 then argB1 m c (ix1 ⟨l.val, hl⟩) else 0

/-! ## After the host preparation -/

theorem v1_G : (V1 m ρ c main_arg1 : S10000x10000.Idx → EReal) = argG m c := V1_main_arg1 m ρ c
theorem v1_X : (V1 m ρ c main_v0 : S10000x128.Idx → EReal) = argX m c := (V1_main_v0 m ρ c).trans (prep_x _)
theorem v1_W0 : (V1 m ρ c main_v1 : S3x128x128.Idx → EReal) = argW0 m c := (V1_main_v1 m ρ c).trans (prep_W0 _)
theorem v1_B0 (l : Fin 128) : (V1 m ρ c main_v6 : S1x128.Idx → EReal) (ix2 0 l) = argB0 m c (ix1 l) := by
  rw [V1_main_v6]; exact prep_b0 _ _ l
theorem v1_W1p (k : Fin 3) (j l : Fin 128) : (V1 m ρ c main_v5 : S3x128x128.Idx → EReal) (ix3 k j l) = padW1 m c k j l := by
  rw [V1_main_v5]; exact padW _ k j l
theorem v1_B1p (l : Fin 128) : (V1 m ρ c main_v11 : S1x128.Idx → EReal) (ix2 0 l) = padB1 m c l := by
  rw [V1_main_v11]; exact padB _ l

/-! ## Which buffer a later pass reads is which earlier contents -/

theorem v2_W1p : V2 m ρ c main_v5 = V1 m ρ c main_v5 := W2_of_ne m ρ c main_v5 (by decide) (by decide) (by decide)
theorem v2_B1p : V2 m ρ c main_v11 = V1 m ρ c main_v11 := W2_of_ne m ρ c main_v11 (by decide) (by decide) (by decide)
theorem v3_G : V3 m ρ c main_v12_0 = V2 m ρ c main_v12_0 := (W3_arr m ρ c 0).trans ((dat1 (V2 m ρ) c).arrAt_in 0 rfl _)
theorem v3_W1p : V3 m ρ c main_v5 = V2 m ρ c main_v5 := by
  have h : W3 m ρ c (Proc.devRef .tc main_v5) = (dat1 (V2 m ρ) c).arrAt 3 cfg1.N := W3_arr m ρ c 3
  have h2 : (dat1 (V2 m ρ) c).arrAt 3 cfg1.N = (dat1 (V2 m ρ) c).A 3 := (dat1 (V2 m ρ) c).arrAt_in 3 rfl cfg1.N
  have h3 : (dat1 (V2 m ρ) c).A 3 = V2 m ρ c main_v5 := A_eq1 (V2 m ρ) c 3
  exact h.trans (h2.trans h3)
theorem v4_G : V4 m ρ c main_v12_0 = V3 m ρ c main_v12_0 := (W4_arr m ρ c 0).trans ((dat2 (V3 m ρ) c).arrAt_in 0 rfl _)
theorem v2_out5 : V2 m ρ c main_v12_0 = (dat0 (V1 m ρ) c).arrAt 5 cfg0.N := W2_out5 m ρ c
theorem v2_out6 : V2 m ρ c main_v12_1 = (dat0 (V1 m ρ) c).arrAt 6 cfg0.N := W2_out6 m ρ c
theorem v2_out7 : V2 m ρ c main_v12_2 = (dat0 (V1 m ρ) c).arrAt 7 cfg0.N := W2_out7 m ρ c
theorem v3_out5 : V3 m ρ c main_v13_0 = (dat1 (V2 m ρ) c).arrAt 5 cfg1.N := W3_arr m ρ c 5
theorem v3_out6 : V3 m ρ c main_v13_1 = (dat1 (V2 m ρ) c).arrAt 6 cfg1.N := W3_arr m ρ c 6
theorem v4_out4 : V4 m ρ c main_v14_0 = (dat2 (V3 m ρ) c).arrAt 4 cfg2.N := W4_arr m ρ c 4
theorem v4_out5 : V4 m ρ c main_v14_1 = (dat2 (V3 m ρ) c).arrAt 5 cfg2.N := W4_arr m ρ c 5

end Cert.KernelIdeal.Chain

end
-- ==== Proof.Payloads.lean ====
/-
  The four kernel bodies' arithmetic at the ideal values, entry by entry.

  Each body stores one or two pure values computed from the blocks it loads. Read at a row `r` and a lane `l`, at the
  ideal values (where a change of float format is the identity and a matrix product into the zero accumulator is the
  plain sum of products), each stored value is an entry of a product of matrices, or a sum of such entries with a
  bias row, or — in the last body — the masked row-wise log-softmax of such a sum. The statements below say so in the
  vocabulary of the specification (`Cheb.mmul`, `Cheb.cur`, `Cheb.cur3`, `Cheb.rowMax`, `Cheb.logSoftmaxMasked`).
-/
import proofs.«134233_g4183298146899_cont_8to1_b_1680_5_alg».proof.Proof.Gen.KernelIdeal.Skeleton
import proofs.«134233_g4183298146899_cont_8to1_b_1680_5_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelBridge

open Cert.KernelIdeal Cert.KernelIdeal.Gen Idealize.ShloMosaic Idealize.ShloMosaic.ValueIdx
open scoped BigOperators

/-! ## The non-pointwise operations, each read at one index

The four bodies are built from two matrix products (a 400×10000 block of the operator against a 10000×128 matrix, and a
400×128 block against a 128×128 weight slab), the choice of one slab of a stack of three weight matrices, the broadcast
of a bias row over the block's rows, and — in the last body — a lane mask, a row maximum, a row sum and the column
forms that carry a per-row scalar back over the lanes. Each is read here at one index given by coordinates. -/

section Dots

/-- Row coordinate of the left operand's index: the result's row. -/
theorem lhs_big_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide),
    dif_pos (show (0 : Fin S400x10000.rank) ∈ dot_S400x10000_S10000x128_S400x128_1_0_0_1_n_n.lhsNonContracting by decide)]
  rfl
/-- Column coordinate of the left operand's index: the contracted coordinate. -/
theorem lhs_big_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- Row coordinate of the right operand's index: the contracted coordinate. -/
theorem rhs_big_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- Column coordinate of the right operand's index: the result's lane. -/
theorem rhs_big_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide),
    dif_pos (show (1 : Fin S10000x128.rank) ∈ dot_S400x10000_S10000x128_S400x128_1_0_0_1_n_n.rhsNonContracting by decide)]
  rfl

/-- The product of a 400×10000 block with a 10000×128 matrix into the zero accumulator, read at row `r` and lane `l`:
    the sum over the contracted coordinate of the entries' products. -/
theorem mm_big {φ₁ φ₂ : FTy} (A : FVec Ideal S400x10000 φ₁) (B : FVec Ideal S10000x128 φ₂) (r : Fin 400) (l : Fin 128) :
    matmul dot_S400x10000_S10000x128_S400x128_1_0_0_1_n_n none A B (constant (F := Ideal) S400x128 .f32 0x00000000#32) (ix2 r l)
      = Cheb.mmul (Cheb.cur A) (Cheb.cur B) r l := by
  show FloatOps.matmul dot_S400x10000_S10000x128_S400x128_1_0_0_1_n_n none A B (constant S400x128 .f32 0x00000000#32) (ix2 r l) = _
  rw [Ideal.matmul_constant_zero_apply,
    ← Equiv.sum_comp (contrEquiv1 dot_S400x10000_S10000x128_S400x128_1_0_0_1_n_n 10000 rfl rfl).symm]
  unfold Cheb.mmul
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 r l) ((contrEquiv1 dot_S400x10000_S10000x128_S400x128_1_0_0_1_n_n 10000 rfl rfl).symm k) = ix2 r k :=
    funext fun a => Fin.ext (by
      match a with
      | ⟨0, _⟩ => exact lhs_big_0 _ _
      | ⟨1, _⟩ => exact (lhs_big_1 _ _).trans hk)
  have er : dot_S400x10000_S10000x128_S400x128_1_0_0_1_n_n.rhsIdx (ix2 r l) ((contrEquiv1 dot_S400x10000_S10000x128_S400x128_1_0_0_1_n_n 10000 rfl rfl).symm k) = ix2 k l :=
    funext fun a => Fin.ext (by
      match a with
      | ⟨0, _⟩ => exact (rhs_big_0 _ _).trans hk
      | ⟨1, _⟩ => exact rhs_big_1 _ _)
  rw [el, er]

/-- Row coordinate of the left operand's index: the result's row. -/
theorem lhs_small_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide),
    dif_pos (show (0 : Fin S400x128.rank) ∈ dot_S400x128_S128x128_S400x128_1_0_0_1_n_n.lhsNonContracting by decide)]
  rfl
/-- Column coordinate of the left operand's index: the contracted coordinate. -/
theorem lhs_small_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- Row coordinate of the right operand's index: the contracted coordinate. -/
theorem rhs_small_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- Column coordinate of the right operand's index: the result's lane. -/
theorem rhs_small_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide),
    dif_pos (show (1 : Fin S128x128.rank) ∈ dot_S400x128_S128x128_S400x128_1_0_0_1_n_n.rhsNonContracting by decide)]
  rfl

/-- The product of a 400×128 block with a 128×128 matrix into the zero accumulator, read at row `r` and lane `l`:
    the sum over the contracted coordinate of the entries' products. -/
theorem mm_small {φ₁ φ₂ : FTy} (A : FVec Ideal S400x128 φ₁) (B : FVec Ideal S128x128 φ₂) (r : Fin 400) (l : Fin 128) :
    matmul dot_S400x128_S128x128_S400x128_1_0_0_1_n_n none A B (constant (F := Ideal) S400x128 .f32 0x00000000#32) (ix2 r l)
      = Cheb.mmul (Cheb.cur A) (Cheb.cur B) r l := by
  show FloatOps.matmul dot_S400x128_S128x128_S400x128_1_0_0_1_n_n none A B (constant S400x128 .f32 0x00000000#32) (ix2 r l) = _
  rw [Ideal.matmul_constant_zero_apply,
    ← Equiv.sum_comp (contrEquiv1 dot_S400x128_S128x128_S400x128_1_0_0_1_n_n 128 rfl rfl).symm]
  unfold Cheb.mmul
  refine Finset.sum_congr rfl fun k _ => ?_
  have hk := contrEquiv1_symm_val dot_S400x128_S128x128_S400x128_1_0_0_1_n_n 128 rfl rfl k
  have el : dot_S400x128_S128x128_S400x128_1_0_0_1_n_n.lhsIdx (ix2 r l) ((contrEquiv1 dot_S400x128_S128x128_S400x128_1_0_0_1_n_n 128 rfl rfl).symm k) = ix2 r k :=
    funext fun a => Fin.ext (by
      match a with
      | ⟨0, _⟩ => exact lhs_small_0 _ _
      | ⟨1, _⟩ => exact (lhs_small_1 _ _).trans hk)
  have er : dot_S400x128_S128x128_S400x128_1_0_0_1_n_n.rhsIdx (ix2 r l) ((contrEquiv1 dot_S400x128_S128x128_S400x128_1_0_0_1_n_n 128 rfl rfl).symm k) = ix2 k l :=
    funext fun a => Fin.ext (by
      match a with
      | ⟨0, _⟩ => exact (rhs_small_0 _ _).trans hk
      | ⟨1, _⟩ => exact rhs_small_1 _ _)
  rw [el, er]

end Dots

section Layout
variable {α : Type}

/-- Slab `k` of a stack of three 128×128 matrices, cut out as a `[1, 128, 128]` slice at offset `o = k` and viewed as a
    matrix, reads at `(j, l)` the stack at `(k, j, l)`. -/
theorem slab_apply (W : S3x128x128.Idx → α) (o : ℕ) (hs : S3x128x128.Slices ![o, 0, 0] S1x128x128)
    (hc : S1x128x128.ShapeCasts S128x128) (k : Fin 3) (hk : k.val = o) (j l : Fin 128) :
    shapeCast S128x128 (extractStridedSlice S1x128x128 ![o, 0, 0] W hs) hc (ix2 j l) = W (ix3 k j l) := by
  refine (shapeCast_1ab_ab_apply _ hc j l).trans ?_
  refine extractStridedSlice_apply _ W hs _ _ fun ax => ?_
  match ax with
  | ⟨0, _⟩ => exact hk.trans (Nat.add_zero o).symm
  | ⟨1, _⟩ => exact (Nat.zero_add _).symm
  | ⟨2, _⟩ => exact (Nat.zero_add _).symm

/-- The same as an equation of matrices. -/
theorem slab_cur (W : S3x128x128.Idx → EReal) (o : ℕ) (hs : S3x128x128.Slices ![o, 0, 0] S1x128x128)
    (hc : S1x128x128.ShapeCasts S128x128) (k : Fin 3) (hk : k.val = o) :
    Cheb.cur (shapeCast S128x128 (extractStridedSlice S1x128x128 ![o, 0, 0] W hs) hc) = Cheb.cur3 W k :=
  funext fun j => funext fun l => slab_apply W o hs hc k hk j l

/-- A bias row `[1, 128]`, cast to its own shape and broadcast over 400 rows, reads at `(r, l)` the row at `l`. -/
theorem bias_apply (b : S1x128.Idx → α) (hc : S1x128.ShapeCasts S1x128) (hb : S1x128.Broadcasts S400x128) (r : Fin 400) (l : Fin 128) :
    broadcastTo S400x128 (shapeCast S1x128 b hc) hb (ix2 r l) = b (ix2 0 l) := by
  rw [shapeCast_self]
  exact broadcastTo_1b_ab_apply b hb r l

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Lanes

/-- The signed comparison of a lane number below 128 with forty, as a one-bit word. -/
theorem lane_lt (l : Fin 128) : IntOp.cmpi .slt (BitVec.ofNat 32 l.val) 40#32 = if l.val < 40 then 1#1 else 0#1 := by
  revert l; decide +kernel

/-- The lane mask: the lane counter along axis 1 compared with forty reads, at `(r, l)`, the bit "`l < 40`". -/
theorem mask_apply (h : S400x128.Iotas .tc 32 [1]) (r : Fin 400) (l : Fin 128) :
    cmpi .slt (iota .tc S400x128 32 [1] h) (broadcast S400x128 40#32) (ix2 r l) = if l.val < 40 then 1#1 else 0#1 := by
  show IntOp.cmpi .slt (iota .tc S400x128 32 [1] h (ix2 r l)) 40#32 = _
  rw [iota_single_apply]
  exact lane_lt l

/-- A select on that bit is the `if` on the lane number. -/
theorem select_lane {α : Type} (l : Fin 128) (a b : α) :
    Scalar.select (if l.val < 40 then 1#1 else 0#1) a b = if l.val < 40 then a else b := by
  by_cases h : l.val < 40
  · rw [if_pos h, if_pos h]; exact select_one a b
  · rw [if_neg h, if_neg h]; exact select_zero a b

/-- The index over row `r` with lane `t` inserted is `(r, t)`. -/
theorem lift_row (h : S400x128.Reduces [1] S400) (r : Fin 400) (t : Fin 128) : h.lift (ix1 r) t = ix2 r t :=
  funext fun c => Fin.ext (by match c with | ⟨0, _⟩ => rfl | ⟨1, _⟩ => rfl)

/-- The row maximum: a maximum reduction over the lanes from minus infinity reads, at row `r`, the fold of `max` over
    the row. -/
theorem rowmax_apply (src : FVec Ideal S400x128 .f32) (h : S400x128.Reduces [1] S400) (hφ : FKind.Formats .f32)
    (hacc : (0xFF800000#32 : BitVec 32) = 0xFF800000#32) (r : Fin 400) :
    multiReduction (F := Ideal) .maximumf [1] S400 src 0xFF800000#32 h hφ hacc (ix1 r)
      = Cheb.rowMax Cheb.wNinf (fun t : Fin 128 => src (ix2 r t)) := by
  refine (Ideal.multiReduction_maximumf_single src 0xFF800000#32 h hφ hacc (ix1 r)).trans ?_
  have e : (src ∘ h.lift (ix1 r)) = fun t : Fin 128 => src (ix2 r t) := funext fun t => congrArg src (lift_row h r t)
  rw [e]
  rfl

/-- The row sum: an add reduction over the lanes reads, at row `r`, the sum over the row. -/
theorem rowsum_apply (src : FVec Ideal S400x128 .f32) (h : S400x128.Reduces [1] S400) (hφ : FKind.Formats .f32)
    (hacc : (0x00000000#32 : BitVec 32) = 0x00000000#32) (r : Fin 400) :
    multiReduction (F := Ideal) .add [1] S400 src 0x00000000#32 h hφ hacc (ix1 r) = ∑ t : Fin 128, src (ix2 r t) := by
  refine (Ideal.multiReduction_add_single src 0x00000000#32 h hφ hacc (ix1 r)).trans ?_
  exact Finset.sum_congr rfl fun t _ => congrArg src (lift_row h r t)

end Lanes

/-! ## Bodies 0 to 2: products, sums of products, a bias row -/

section Bodies
variable (r : Fin 400) (l : Fin 128)

/-- Body 0 stores the operator block in the narrower format: at the ideal values, the block itself. -/
theorem pay0_1 (v0 : FVec Ideal S400x10000 .f32) : k0_pay1 (F := Ideal) v0 = v0 := rfl

/-- `G·X` on the block's rows. -/
theorem pay0_2 (v0 : FVec Ideal S400x10000 .f32) (v3 : FVec Ideal S10000x128 .bf16) :
    k0_pay2 (F := Ideal) v0 v3 (ix2 r l) = Cheb.mmul (Cheb.cur v0) (Cheb.cur v3) r l := by
  unfold k0_pay2
  rw [pay0_1, shapeCast_self]
  exact mm_big v0 v3 r l

/-- The same as an equation of matrices. -/
theorem pay0_2_cur (v0 : FVec Ideal S400x10000 .f32) (v3 : FVec Ideal S10000x128 .bf16) :
    Cheb.cur (k0_pay2 (F := Ideal) v0 v3) = Cheb.mmul (Cheb.cur v0) (Cheb.cur v3) :=
  funext fun r => funext fun l => pay0_2 r l v0 v3

/-- The weight stack cast to its own shape is the stack. -/
theorem pay0_3 (v7 : FVec Ideal S3x128x128 .bf16) : k0_pay3 (F := Ideal) v7 = v7 := shapeCast_self _ _

/-- `(G·X)·W 2` on the block's rows. -/
theorem pay0_4 (v0 : FVec Ideal S400x10000 .f32) (v3 : FVec Ideal S10000x128 .bf16) (v7 : FVec Ideal S3x128x128 .bf16) :
    k0_pay4 (F := Ideal) v0 v3 v7 (ix2 r l)
      = Cheb.mmul (Cheb.mmul (Cheb.cur v0) (Cheb.cur v3)) (Cheb.cur3 v7 2) r l := by
  unfold k0_pay4
  rw [pay0_3]
  refine (mm_small _ _ r l).trans ?_
  rw [pay0_2_cur, slab_cur v7 2 _ _ 2 rfl]

/-- `(X·(W 0 − W 2) + (G·X)·W 1) + b` on the block's rows. -/
theorem pay0_5 (v0 : FVec Ideal S400x10000 .f32) (v3 : FVec Ideal S10000x128 .bf16) (v7 : FVec Ideal S3x128x128 .bf16)
    (v14 : FVec Ideal S400x128 .bf16) (v26 : FVec Ideal S1x128 .f32) :
    k0_pay5 (F := Ideal) v0 v3 v7 v14 v26 (ix2 r l)
      = (Cheb.mmul (Cheb.cur v14) (fun j l => Cheb.cur3 v7 0 j l - Cheb.cur3 v7 2 j l) r l
          + Cheb.mmul (Cheb.mmul (Cheb.cur v0) (Cheb.cur v3)) (Cheb.cur3 v7 1) r l) + v26 (ix2 0 l) := by
  unfold k0_pay5
  rw [pay0_3, shapeCast_self]
  refine congrArg₂ (· + ·) (congrArg₂ (· + ·) ((mm_small _ _ r l).trans ?_) ((mm_small _ _ r l).trans ?_)) (bias_apply v26 _ _ r l)
  · refine congrArg (fun B => Cheb.mmul (Cheb.cur v14) B r l) (funext fun j => funext fun l => ?_)
    exact congrArg₂ (· - ·) (slab_apply v7 0 _ _ 0 rfl j l) (slab_apply v7 2 _ _ 2 rfl j l)
  · rw [pay0_2_cur, slab_cur v7 1 _ _ 1 rfl]

end Bodies

section Bodies12
variable (r : Fin 400) (l : Fin 128)

/-- `τ·(G·P) + R` at an entry, before the `max`: twice the product's entry plus the loaded entry. -/
theorem scaled_apply (v0 : FVec Ideal S400x10000 .bf16) (v2 : FVec Ideal S10000x128 .bf16) (v7 : FVec Ideal S400x128 .f32)
    (h0 : S400x10000.ShapeCasts S400x10000) (h2 : S10000x128.ShapeCasts S10000x128) (h7 : S400x128.ShapeCasts S400x128) :
    addf (mulf (broadcast S400x128 (Scalar.ofBits (F := Ideal) .f32 0x40000000#32))
        (matmul dot_S400x10000_S10000x128_S400x128_1_0_0_1_n_n none (shapeCast S400x10000 v0 h0) (shapeCast S10000x128 v2 h2)
          (constant (F := Ideal) S400x128 .f32 0x00000000#32)))
      (shapeCast S400x128 v7 h7) (ix2 r l)
      = Cheb.wTwo * Cheb.mmul (Cheb.cur v0) (Cheb.cur v2) r l + v7 (ix2 r l) := by
  rw [shapeCast_self, shapeCast_self, shapeCast_self]
  exact congrArg (fun x => Cheb.wTwo * x + v7 (ix2 r l)) (mm_big v0 v2 r l)

/-- The hidden features on the block's rows: `max (τ·(G·P) + R) z`. -/
theorem pay1_1 (v0 : FVec Ideal S400x10000 .bf16) (v2 : FVec Ideal S10000x128 .bf16) (v7 : FVec Ideal S400x128 .f32) :
    k1_pay1 (F := Ideal) v0 v2 v7 (ix2 r l)
      = max (Cheb.wTwo * Cheb.mmul (Cheb.cur v0) (Cheb.cur v2) r l + v7 (ix2 r l)) Cheb.wZero := by
  unfold k1_pay1
  exact congrArg (fun x => max x Cheb.wZero) (scaled_apply r l v0 v2 v7 _ _ _)

/-- `H·(W 0 − W 2) + b` on the block's rows, `H` the hidden features just computed. -/
theorem pay1_2 (v0 : FVec Ideal S400x10000 .bf16) (v2 : FVec Ideal S10000x128 .bf16) (v7 : FVec Ideal S400x128 .f32)
    (v14 : FVec Ideal S3x128x128 .bf16) (v22 : FVec Ideal S1x128 .f32) :
    k1_pay2 (F := Ideal) v0 v2 v7 v14 v22 (ix2 r l)
      = Cheb.mmul (fun r j => max (Cheb.wTwo * Cheb.mmul (Cheb.cur v0) (Cheb.cur v2) r j + v7 (ix2 r j)) Cheb.wZero)
          (fun j l => Cheb.cur3 v14 0 j l - Cheb.cur3 v14 2 j l) r l + v22 (ix2 0 l) := by
  unfold k1_pay2
  rw [shapeCast_self]
  refine congrArg₂ (· + ·) ((mm_small _ _ r l).trans ?_) (bias_apply v22 _ _ r l)
  refine congrArg₂ (fun A B => Cheb.mmul A B r l) (funext fun r => funext fun j => pay1_1 r j v0 v2 v7)
    (funext fun j => funext fun l => ?_)
  exact congrArg₂ (· - ·) (slab_apply v14 0 _ _ 0 rfl j l) (slab_apply v14 2 _ _ 2 rfl j l)

/-- `G·H` on the block's rows. -/
theorem pay2_1 (v0 : FVec Ideal S400x10000 .bf16) (v2 : FVec Ideal S10000x128 .bf16) :
    k2_pay1 (F := Ideal) v0 v2 (ix2 r l) = Cheb.mmul (Cheb.cur v0) (Cheb.cur v2) r l := by
  unfold k2_pay1
  rw [shapeCast_self, shapeCast_self]
  exact mm_big v0 v2 r l

/-- The same as an equation of matrices. -/
theorem pay2_1_cur (v0 : FVec Ideal S400x10000 .bf16) (v2 : FVec Ideal S10000x128 .bf16) :
    Cheb.cur (k2_pay1 (F := Ideal) v0 v2) = Cheb.mmul (Cheb.cur v0) (Cheb.cur v2) :=
  funext fun r => funext fun l => pay2_1 r l v0 v2

/-- The weight stack cast to its own shape is the stack. -/
theorem pay2_2 (v6 : FVec Ideal S3x128x128 .bf16) : k2_pay2 (F := Ideal) v6 = v6 := shapeCast_self _ _

/-- `(G·H)·W 2` on the block's rows. -/
theorem pay2_3 (v0 : FVec Ideal S400x10000 .bf16) (v2 : FVec Ideal S10000x128 .bf16) (v6 : FVec Ideal S3x128x128 .bf16) :
    k2_pay3 (F := Ideal) v0 v2 v6 (ix2 r l)
      = Cheb.mmul (Cheb.mmul (Cheb.cur v0) (Cheb.cur v2)) (Cheb.cur3 v6 2) r l := by
  unfold k2_pay3
  rw [pay2_2]
  refine (mm_small _ _ r l).trans ?_
  rw [pay2_1_cur, slab_cur v6 2 _ _ 2 rfl]

/-- `R1 + (G·H)·W 1` on the block's rows, `R1` the loaded entry. -/
theorem pay2_4 (v0 : FVec Ideal S400x10000 .bf16) (v2 : FVec Ideal S10000x128 .bf16) (v6 : FVec Ideal S3x128x128 .bf16)
    (v13 : FVec Ideal S400x128 .f32) :
    k2_pay4 (F := Ideal) v0 v2 v6 v13 (ix2 r l)
      = v13 (ix2 r l) + Cheb.mmul (Cheb.mmul (Cheb.cur v0) (Cheb.cur v2)) (Cheb.cur3 v6 1) r l := by
  unfold k2_pay4
  rw [pay2_2, shapeCast_self]
  refine congrArg (fun x => v13 (ix2 r l) + x) ((mm_small _ _ r l).trans ?_)
  rw [pay2_1_cur, slab_cur v6 1 _ _ 1 rfl]

end Bodies12

/-! ## Body 3: the masked row-wise log-softmax of `τ·(G·P) + S` -/

section Softmax
variable (r : Fin 400)

/-- A select on the lane mask reads, at `(r, t)`, the first operand on the first forty lanes and the second beyond. -/
theorem select_mask_apply {α : Type} (hI : S400x128.Iotas .tc 32 [1]) (a b : S400x128.Idx → α) (t : Fin 128) :
    select (cmpi .slt (iota .tc S400x128 32 [1] hI) (broadcast S400x128 40#32)) a b (ix2 r t)
      = if t.val < 40 then a (ix2 r t) else b (ix2 r t) := by
  show Scalar.select (cmpi .slt (iota .tc S400x128 32 [1] hI) (broadcast S400x128 40#32) (ix2 r t)) _ _ = _
  rw [mask_apply]
  exact select_lane t _ _

/-- The masked row maximum: the logits on the first forty lanes and minus infinity beyond, folded by `max`. -/
theorem maskedMax_apply (L : FVec Ideal S400x128 .f32) (hI : S400x128.Iotas .tc 32 [1]) (hR : S400x128.Reduces [1] S400)
    (hφ : FKind.Formats .f32) (ham : (0xFF800000#32 : BitVec 32) = 0xFF800000#32) :
    multiReduction (F := Ideal) .maximumf [1] S400
        (select (cmpi .slt (iota .tc S400x128 32 [1] hI) (broadcast S400x128 40#32)) L
          (broadcast S400x128 (Scalar.ofBits (F := Ideal) .f32 0xFF800000#32)))
        0xFF800000#32 hR hφ ham (ix1 r)
      = Cheb.rowMax Cheb.wNinf (fun t : Fin 128 => if t.val < 40 then Cheb.cur L r t else Cheb.wNinf) :=
  (rowmax_apply _ hR hφ ham r).trans
    (congrArg (Cheb.rowMax Cheb.wNinf) (funext fun t => select_mask_apply r hI L _ t))

/-- The body's last value before the slice, at any of the 128 lanes: the logit less the row's masked maximum plus the
    logarithm of the masked sum of exponentials. -/
theorem lsm_lane (L : FVec Ideal S400x128 .f32) (hI : S400x128.Iotas .tc 32 [1]) (hR : S400x128.Reduces [1] S400)
    (hφ : FKind.Formats .f32) (ham : (0xFF800000#32 : BitVec 32) = 0xFF800000#32)
    (has : (0x00000000#32 : BitVec 32) = 0x00000000#32) (hC : S400.ShapeCasts S400x1) (hB : S400x1.Broadcasts S400x128)
    (l : Fin 128) :
    subf L (broadcastTo S400x128
      (addf
        (shapeCast S400x1 (multiReduction (F := Ideal) .maximumf [1] S400
          (select (cmpi .slt (iota .tc S400x128 32 [1] hI) (broadcast S400x128 40#32)) L
            (broadcast S400x128 (Scalar.ofBits (F := Ideal) .f32 0xFF800000#32))) 0xFF800000#32 hR hφ ham) hC)
        (log (shapeCast S400x1 (multiReduction (F := Ideal) .add [1] S400
          (select (cmpi .slt (iota .tc S400x128 32 [1] hI) (broadcast S400x128 40#32))
            (exp (subf
              (select (cmpi .slt (iota .tc S400x128 32 [1] hI) (broadcast S400x128 40#32)) L
                (broadcast S400x128 (Scalar.ofBits (F := Ideal) .f32 0xFF800000#32)))
              (broadcastTo S400x128 (shapeCast S400x1 (multiReduction (F := Ideal) .maximumf [1] S400
                (select (cmpi .slt (iota .tc S400x128 32 [1] hI) (broadcast S400x128 40#32)) L
                  (broadcast S400x128 (Scalar.ofBits (F := Ideal) .f32 0xFF800000#32))) 0xFF800000#32 hR hφ ham) hC) hB)))
            (broadcast S400x128 (Scalar.ofBits (F := Ideal) .f32 0x00000000#32)))
          0x00000000#32 hR hφ has) hC))) hB) (ix2 r l)
      = Cheb.logSoftmaxMasked Cheb.wZero Cheb.wNinf Ideal.exp Ideal.log 40 (Cheb.cur L) r l := by
  unfold Cheb.logSoftmaxMasked
  refine congrArg (fun x => L (ix2 r l) - x) ((broadcastTo_a1_ab_apply _ hB r l).trans ?_)
  refine congrArg₂ (· + ·) ((shapeCast_a_a1_apply _ hC r 0).trans (maskedMax_apply r L hI hR hφ ham)) ?_
  refine congrArg Ideal.log ((shapeCast_a_a1_apply _ hC r 0).trans ((rowsum_apply _ hR hφ has r).trans ?_))
  refine Finset.sum_congr rfl fun t _ => (select_mask_apply r hI _ _ t).trans (if_congr Iff.rfl ?_ rfl)
  refine congrArg Ideal.exp (congrArg₂ (· - ·) (select_mask_apply r hI L _ t) ?_)
  exact (broadcastTo_a1_ab_apply _ hB r t).trans ((shapeCast_a_a1_apply _ hC r 0).trans (maskedMax_apply r L hI hR hφ ham))

/-- The last body stores, on the block's rows, the first forty lanes of the masked log-softmax of the padded logits
    `τ·(G·P) + S`. -/
theorem pay3_1 (v0 : FVec Ideal S400x10000 .bf16) (v2 : FVec Ideal S10000x128 .bf16) (v7 : FVec Ideal S400x128 .f32) (j : Fin 40) :
    k3_pay1 (F := Ideal) v0 v2 v7 (ix2 r j)
      = Cheb.logSoftmaxMasked Cheb.wZero Cheb.wNinf Ideal.exp Ideal.log 40
          (fun r l => Cheb.wTwo * Cheb.mmul (Cheb.cur v0) (Cheb.cur v2) r l + v7 (ix2 r l)) r
          (Fin.castLE (by decide : 40 ≤ 128) j) := by
  unfold k3_pay1
  refine (slice2_axis1_apply 0 _ _ r j (Fin.castLE (by decide : 40 ≤ 128) j) (Nat.zero_add _).symm).trans ?_
  refine (lsm_lane r _ _ _ _ _ _ _ _ (Fin.castLE (by decide : 40 ≤ 128) j)).trans ?_
  exact congrArg (fun L => Cheb.logSoftmaxMasked Cheb.wZero Cheb.wNinf Ideal.exp Ideal.log 40 L r (Fin.castLE (by decide : 40 ≤ 128) j))
    (funext fun r => funext fun l => scaled_apply r l v0 v2 v7 _ _ _)

end Softmax

end Cert.KernelBridge

end
-- ==== Proof.Arrays.lean ====
/-
  From blocks to whole arrays: what each of the four passes over the operator leaves in its output arrays, as one
  function of the arrays the pass reads.

  Each pass runs over 25 grid points; point t is handed rows 400·t … 400·t+399 of the row-blocked operands and the
  whole of the others, and writes back rows 400·t … 400·t+399 of each output.  A row of a matrix product depends on
  the left factor only through that row, and a row of the masked log-softmax depends on the logits only through that
  row: so what a point computes from its row blocks is rows 400·t … 400·t+399 of the same expression of the whole
  arrays.  The 25 row blocks tile the 10000 rows (row i lies in the block of point i / 400), so after the pass each
  output array is that expression of the whole input arrays.
-/
import proofs.«134233_g4183298146899_cont_8to1_b_1680_5_alg».proof.Proof.Region0
import proofs.«134233_g4183298146899_cont_8to1_b_1680_5_alg».proof.Proof.Region1
import proofs.«134233_g4183298146899_cont_8to1_b_1680_5_alg».proof.Proof.Region2
import proofs.«134233_g4183298146899_cont_8to1_b_1680_5_alg».proof.Proof.Region3
import proofs.«134233_g4183298146899_cont_8to1_b_1680_5_alg».proof.Proof.Payloads
import Idealize.ShloMosaic.Lib.Pipeline.Value

set_option maxRecDepth 16384

noncomputable section

namespace Cert.KernelIdeal.Arrays

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.KernelBridge
open scoped BigOperators

/-- The zero offsets of a rank-two rectangle, as a constant function. -/
theorem hz2 : (![0, 0] : Fin 2 → Nat) = fun _ => 0 := funext fun a => by fin_cases a <;> rfl

/-- The zero offsets of a rank-three rectangle, as a constant function. -/
theorem hz3 : (![0, 0, 0] : Fin 3 → Nat) = fun _ => 0 := funext fun a => by fin_cases a <;> rfl

/-! ## Rows of products and of the log-softmax -/

/-- A row of a product depends on the left factor only through that row. -/
theorem mmul_row {a a' k b : ℕ} (A : Fin a → Fin k → EReal) (A' : Fin a' → Fin k → EReal) (B : Fin k → Fin b → EReal)
    (r : Fin a) (i : Fin a') (h : ∀ s, A r s = A' i s) (l : Fin b) : Cheb.mmul A B r l = Cheb.mmul A' B i l := by
  unfold Cheb.mmul
  exact Finset.sum_congr rfl fun s _ => by rw [h s]

/-- The same for a product of three factors, grouped to the left. -/
theorem mmul2_row {a a' k m b : ℕ} (A : Fin a → Fin k → EReal) (A' : Fin a' → Fin k → EReal) (B : Fin k → Fin m → EReal)
    (C : Fin m → Fin b → EReal) (r : Fin a) (i : Fin a') (h : ∀ s, A r s = A' i s) (l : Fin b) :
    Cheb.mmul (Cheb.mmul A B) C r l = Cheb.mmul (Cheb.mmul A' B) C i l :=
  mmul_row (Cheb.mmul A B) (Cheb.mmul A' B) C r i (fun s => mmul_row A A' B r i h s) l

/-- A row of the masked log-softmax depends on the logits only through that row. -/
theorem lsm_row {n n' p : ℕ} (z ninf : EReal) (ex lg : EReal → EReal) (c : ℕ) (L : Fin n → Fin p → EReal)
    (L' : Fin n' → Fin p → EReal) (r : Fin n) (i : Fin n') (h : L r = L' i) (l : Fin p) :
    Cheb.logSoftmaxMasked z ninf ex lg c L r l = Cheb.logSoftmaxMasked z ninf ex lg c L' i l := by
  unfold Cheb.logSoftmaxMasked
  rw [h]

/-! ## The first pass: the operator in the narrower format, (G·X)·W 2 and X·(W 0 − W 2) + (G·X)·W 1 + b -/

/-- The second output array of the first pass, as one function of the arrays the pass reads. -/
def G0_6 (G : S10000x10000.Idx → EReal) (X : S10000x128.Idx → EReal) (W : S3x128x128.Idx → EReal) : S10000x128.Idx → EReal := fun i =>
  Cheb.passP (Cheb.cur X) (Cheb.cur G) (Cheb.cur3 W) (i 0) (i 1)

/-- The third output array of the first pass. -/
def G0_7 (G : S10000x10000.Idx → EReal) (X : S10000x128.Idx → EReal) (W : S3x128x128.Idx → EReal) (B : S1x128.Idx → EReal) : S10000x128.Idx → EReal := fun i =>
  Cheb.passR (Cheb.cur X) (Cheb.cur G) (Cheb.cur3 W) (fun l => B (ix2 0 l)) (i 0) (i 1)

theorem point0_5 (x0 : FVec Ideal S400x10000 .f32) (G : S10000x10000.Idx → EReal) (tv : ℕ)
    (h0 : (∀ (x : S400x10000.Idx) (k : S10000x10000.Idx), (k 0).val = 400 * tv + (x 0).val → (k 1).val = (x 1).val → x0 x = G k))
    (y : S400x10000.Idx) (i : S10000x10000.Idx) (hi0 : (i 0).val = 400 * tv + (y 0).val) (hi1 : (i 1).val = (y 1).val) :
    k0_pay1 (F := Ideal) x0 y = G i := by
  rw [pay0_1]
  exact h0 y i hi0 hi1

theorem point0_6 (x0 : FVec Ideal S400x10000 .f32) (x1 : FVec Ideal S10000x128 .bf16) (x3 : FVec Ideal S3x128x128 .bf16)
    (G : S10000x10000.Idx → EReal) (X : S10000x128.Idx → EReal) (W : S3x128x128.Idx → EReal) (tv : ℕ)
    (h0 : (∀ (x : S400x10000.Idx) (k : S10000x10000.Idx), (k 0).val = 400 * tv + (x 0).val → (k 1).val = (x 1).val → x0 x = G k))
    (h1 : x1 = X) (h3 : x3 = W)
    (y : S400x128.Idx) (i : S10000x128.Idx) (hi0 : (i 0).val = 400 * tv + (y 0).val) (hi1 : (i 1).val = (y 1).val) :
    k0_pay4 (F := Ideal) x0 x1 x3 y = G0_6 G X W i := by
  subst h1 h3
  obtain ⟨r, l, rfl⟩ : ∃ (r : Fin 400) (l : Fin 128), y = ix2 r l := ⟨y 0, y 1, eq_ix2 y⟩
  obtain ⟨i0, l', rfl⟩ : ∃ (i0 : Fin 10000) (l' : Fin 128), i = ix2 i0 l' := ⟨i 0, i 1, eq_ix2 i⟩
  have hr : i0.val = 400 * tv + r.val := hi0
  obtain rfl : l = l' := (Fin.ext hi1).symm
  rw [pay0_4]
  show Cheb.mmul (Cheb.mmul (Cheb.cur x0) (Cheb.cur x1)) (Cheb.cur3 x3 2) r l
    = Cheb.mmul (Cheb.mmul (Cheb.cur G) (Cheb.cur x1)) (Cheb.cur3 x3 2) i0 l
  exact mmul2_row (Cheb.cur x0) (Cheb.cur G) (Cheb.cur x1) (Cheb.cur3 x3 2) r i0
    (fun s => h0 (ix2 r s) (ix2 i0 s) hr rfl) l

theorem point0_7 (x0 : FVec Ideal S400x10000 .f32) (x1 : FVec Ideal S10000x128 .bf16) (x3 : FVec Ideal S3x128x128 .bf16)
    (x2 : FVec Ideal S400x128 .bf16) (x4 : FVec Ideal S1x128 .f32)
    (G : S10000x10000.Idx → EReal) (X : S10000x128.Idx → EReal) (W : S3x128x128.Idx → EReal) (B : S1x128.Idx → EReal) (tv : ℕ)
    (h0 : (∀ (x : S400x10000.Idx) (k : S10000x10000.Idx), (k 0).val = 400 * tv + (x 0).val → (k 1).val = (x 1).val → x0 x = G k))
    (h1 : x1 = X) (h3 : x3 = W)
    (h2 : (∀ (x : S400x128.Idx) (k : S10000x128.Idx), (k 0).val = 400 * tv + (x 0).val → (k 1).val = (x 1).val → x2 x = X k))
    (h4 : x4 = B)
    (y : S400x128.Idx) (i : S10000x128.Idx) (hi0 : (i 0).val = 400 * tv + (y 0).val) (hi1 : (i 1).val = (y 1).val) :
    k0_pay5 (F := Ideal) x0 x1 x3 x2 x4 y = G0_7 G X W B i := by
  subst h1 h3 h4
  obtain ⟨r, l, rfl⟩ : ∃ (r : Fin 400) (l : Fin 128), y = ix2 r l := ⟨y 0, y 1, eq_ix2 y⟩
  obtain ⟨i0, l', rfl⟩ : ∃ (i0 : Fin 10000) (l' : Fin 128), i = ix2 i0 l' := ⟨i 0, i 1, eq_ix2 i⟩
  have hr : i0.val = 400 * tv + r.val := hi0
  obtain rfl : l = l' := (Fin.ext hi1).symm
  rw [pay0_5]
  show (Cheb.mmul (Cheb.cur x2) (fun j l => Cheb.cur3 x3 0 j l - Cheb.cur3 x3 2 j l) r l
      + Cheb.mmul (Cheb.mmul (Cheb.cur x0) (Cheb.cur x1)) (Cheb.cur3 x3 1) r l) + x4 (ix2 0 l)
    = (Cheb.mmul (Cheb.cur x1) (fun j l => Cheb.cur3 x3 0 j l - Cheb.cur3 x3 2 j l) i0 l
      + Cheb.mmul (Cheb.mmul (Cheb.cur G) (Cheb.cur x1)) (Cheb.cur3 x3 1) i0 l) + x4 (ix2 0 l)
  rw [mmul_row (Cheb.cur x2) (Cheb.cur x1) (fun j l => Cheb.cur3 x3 0 j l - Cheb.cur3 x3 2 j l) r i0
      (fun s => h2 (ix2 r s) (ix2 i0 s) hr rfl) l,
    mmul2_row (Cheb.cur x0) (Cheb.cur G) (Cheb.cur x1) (Cheb.cur3 x3 1) r i0
      (fun s => h0 (ix2 r s) (ix2 i0 s) hr rfl) l]

section Pass0
variable (V : (c : Dev nD) → (b : Ref sig .tc) → Buf (Elt Ideal) ((c : Thread nD τ).loc b))

/-- Window 0's block at point t is rows 400·t … 400·t+399 of the operator array. -/
theorem idx0_0 : ∀ t : Fin cfg0.N, win0_0.index t (0 : Fin 2) = t.val ∧ win0_0.index t (1 : Fin 2) = 0 :=
  (by decide +kernel : ∀ t : Fin grid0.N, _)

theorem iblk0_0_apply (c : Dev nD) (t : Fin cfg0.N) (x : S400x10000.Idx) (k : S10000x10000.Idx)
    (hk0 : (k 0).val = 400 * t.val + (x 0).val) (hk1 : (k 1).val = (x 1).val) :
    (iblk0 V c 0 t : S400x10000.Idx → EReal) x = (V c main_arg1 : S10000x10000.Idx → EReal) k := by
  obtain ⟨e0, e1⟩ := idx0_0 t
  unfold iblk0
  rw [View.read_apply]
  show V c main_arg1 _ = V c main_arg1 _
  congr 1
  funext a
  apply Fin.ext
  match a with
  | ⟨0, _⟩ => show win0_0.index t 0 * 400 + 1 * (x 0).val = (k 0).val; rw [e0, hk0]; omega
  | ⟨1, _⟩ => show win0_0.index t 1 * 10000 + 1 * (x 1).val = (k 1).val; rw [e1, hk1]; omega

/-- Window 1's block at every point is the whole of the feature array. -/
theorem idx0_1 : ∀ t : Fin cfg0.N, win0_1.index t (0 : Fin 2) = 0 ∧ win0_1.index t (1 : Fin 2) = 0 :=
  (by decide +kernel : ∀ t : Fin grid0.N, _)

theorem iblk0_1_eq (c : Dev nD) (t : Fin cfg0.N) :
    (iblk0 V c 1 t : S10000x128.Idx → EReal) = (V c main_v0 : S10000x128.Idx → EReal) := by
  obtain ⟨e0, e1⟩ := idx0_1 t
  funext x
  unfold iblk0
  rw [View.read_apply]
  show V c main_v0 _ = V c main_v0 _
  congr 1
  funext a
  apply Fin.ext
  match a with
  | ⟨0, _⟩ => show win0_1.index t 0 * 10000 + 1 * (x 0).val = (x 0).val; rw [e0]; omega
  | ⟨1, _⟩ => show win0_1.index t 1 * 128 + 1 * (x 1).val = (x 1).val; rw [e1]; omega

/-- Window 2's block at point t is rows 400·t … 400·t+399 of the feature array. -/
theorem idx0_2 : ∀ t : Fin cfg0.N, win0_2.index t (0 : Fin 2) = t.val ∧ win0_2.index t (1 : Fin 2) = 0 :=
  (by decide +kernel : ∀ t : Fin grid0.N, _)

theorem iblk0_2_apply (c : Dev nD) (t : Fin cfg0.N) (x : S400x128.Idx) (k : S10000x128.Idx)
    (hk0 : (k 0).val = 400 * t.val + (x 0).val) (hk1 : (k 1).val = (x 1).val) :
    (iblk0 V c 2 t : S400x128.Idx → EReal) x = (V c main_v0 : S10000x128.Idx → EReal) k := by
  obtain ⟨e0, e1⟩ := idx0_2 t
  unfold iblk0
  rw [View.read_apply]
  show V c main_v0 _ = V c main_v0 _
  congr 1
  funext a
  apply Fin.ext
  match a with
  | ⟨0, _⟩ => show win0_2.index t 0 * 400 + 1 * (x 0).val = (k 0).val; rw [e0, hk0]; omega
  | ⟨1, _⟩ => show win0_2.index t 1 * 128 + 1 * (x 1).val = (k 1).val; rw [e1, hk1]; omega

/-- Window 3's block at every point is the whole of the weight stack. -/
theorem idx0_3 : ∀ t : Fin cfg0.N, win0_3.index t (0 : Fin 3) = 0 ∧ win0_3.index t (1 : Fin 3) = 0
    ∧ win0_3.index t (2 : Fin 3) = 0 :=
  (by decide +kernel : ∀ t : Fin grid0.N, _)

theorem iblk0_3_eq (c : Dev nD) (t : Fin cfg0.N) :
    (iblk0 V c 3 t : S3x128x128.Idx → EReal) = (V c main_v1 : S3x128x128.Idx → EReal) := by
  obtain ⟨e0, e1, e2⟩ := idx0_3 t
  funext x
  unfold iblk0
  rw [View.read_apply]
  show V c main_v1 _ = V c main_v1 _
  congr 1
  funext a
  apply Fin.ext
  match a with
  | ⟨0, _⟩ => show win0_3.index t 0 * 3 + 1 * (x 0).val = (x 0).val; rw [e0]; omega
  | ⟨1, _⟩ => show win0_3.index t 1 * 128 + 1 * (x 1).val = (x 1).val; rw [e1]; omega
  | ⟨2, _⟩ => show win0_3.index t 2 * 128 + 1 * (x 2).val = (x 2).val; rw [e2]; omega

/-- Window 4's block at every point is the whole of the bias row. -/
theorem idx0_4 : ∀ t : Fin cfg0.N, win0_4.index t (0 : Fin 2) = 0 ∧ win0_4.index t (1 : Fin 2) = 0 :=
  (by decide +kernel : ∀ t : Fin grid0.N, _)

theorem iblk0_4_eq (c : Dev nD) (t : Fin cfg0.N) :
    (iblk0 V c 4 t : S1x128.Idx → EReal) = (V c main_v6 : S1x128.Idx → EReal) := by
  obtain ⟨e0, e1⟩ := idx0_4 t
  funext x
  unfold iblk0
  rw [View.read_apply]
  show V c main_v6 _ = V c main_v6 _
  congr 1
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- Output window 5 is at block row t. -/
theorem idx0_5 : ∀ t : Fin cfg0.N, win0_5.index t (0 : Fin 2) = t.val ∧ win0_5.index t (1 : Fin 2) = 0 :=
  (by decide +kernel : ∀ t : Fin grid0.N, _)

/-- What point t writes back to output window 5 is block t of the operator array. -/
theorem flushed0_5_eq (c : Dev nD) (t : Fin cfg0.N) :
    (dat0 V c).flushed 5 t = ((cfg0.win 5).blk t).view.read (Elt Ideal) ((V c main_arg1 : S10000x10000.Idx → EReal)) := by
  show (cfg0.win 5).cut (grid0.coords t) ((dat0 V c).after 5 t) = _
  rw [after0_5]
  unfold out0_5
  rw [View.canon_unit_zero hz2]
  simp only [View.ld_unit_zero (S := S400x10000) hz2, View.ld_unit_zero (S := S10000x128) hz2,
    View.ld_unit_zero (S := S400x128) hz2, View.ld_unit_zero (S := S3x128x128) hz3, View.ld_unit_zero (S := S1x128) hz2]
  obtain ⟨e0, e1⟩ := idx0_5 t
  funext y
  show k0_pay1 (F := Ideal) (iblk0 V c 0 t) y
    = ((V c main_arg1 : S10000x10000.Idx → EReal)) (((cfg0.win 5).blk t).view.emb y)
  refine point0_5 _ _ t.val (iblk0_0_apply V c t) _ _ ?_ ?_
  · show win0_5.index t 0 * 400 + 1 * (y 0).val = 400 * t.val + (y 0).val
    rw [e0]; omega
  · show win0_5.index t 1 * 10000 + 1 * (y 1).val = (y 1).val
    rw [e1]; omega

/-- An index of output window 5's array is in point t's block iff each coordinate is in the block's range. -/
theorem mem_blk0_5 (t : Fin cfg0.N) (i : S10000x10000.Idx) :
    i ∈ ((cfg0.win 5).blk t).view.set ↔ ∀ a : Fin 2, win0_5.index t a * S400x10000.size a ≤ (i a).val
      ∧ (i a).val < win0_5.index t a * S400x10000.size a + S400x10000.size a := by
  show i ∈ ((View.whole main_v12_0).slice (win0_5.rect t)).set ↔ _
  rw [View.set_slice_whole, Rect.mem_set_unit]
  exact Iff.rfl

/-- Every index of output window 5's array is in the block of the point its row falls in. -/
theorem cover0_5_all (i : S10000x10000.Idx) :
    ∃ t : Fin cfg0.N, (cfg0.win 5).flush t = true ∧ i ∈ ((cfg0.win 5).blk t).view.set := by
  have hi0 : (i 0).val < 10000 := (i 0).isLt
  have hi1 : (i 1).val < 10000 := (i 1).isLt
  have hN : cfg0.N = 25 := by decide
  obtain ⟨t, ht⟩ : ∃ t : Fin cfg0.N, t.val = (i 0).val / 400 := ⟨⟨(i 0).val / 400, by rw [hN]; omega⟩, rfl⟩
  obtain ⟨e0, e1⟩ := idx0_5 t
  refine ⟨t, flush0_5 t, ?_⟩
  rw [mem_blk0_5]
  intro a
  match a with
  | ⟨0, _⟩ =>
    show win0_5.index t 0 * 400 ≤ (i 0).val ∧ (i 0).val < win0_5.index t 0 * 400 + 400
    rw [e0, ht]; omega
  | ⟨1, _⟩ =>
    show win0_5.index t 1 * 10000 ≤ (i 1).val ∧ (i 1).val < win0_5.index t 1 * 10000 + 10000
    rw [e1]; omega

/-- Output window 5's array after the pass: the operator array. -/
theorem arr0_5_eq (c : Dev nD) : (dat0 V c).arrAt 5 cfg0.N = (V c main_arg1 : S10000x10000.Idx → EReal) :=
  (dat0 V c).arrAt_eq_of_cover 5 _ (fun t _ => flushed0_5_eq V c t) cover0_5_all

/-- Output window 6 is at block row t. -/
theorem idx0_6 : ∀ t : Fin cfg0.N, win0_6.index t (0 : Fin 2) = t.val ∧ win0_6.index t (1 : Fin 2) = 0 :=
  (by decide +kernel : ∀ t : Fin grid0.N, _)

/-- What point t writes back to output window 6 is block t of (G·X)·W 2. -/
theorem flushed0_6_eq (c : Dev nD) (t : Fin cfg0.N) :
    (dat0 V c).flushed 6 t = ((cfg0.win 6).blk t).view.read (Elt Ideal) (G0_6 (V c main_arg1) (V c main_v0) (V c main_v1)) := by
  show (cfg0.win 6).cut (grid0.coords t) ((dat0 V c).after 6 t) = _
  rw [after0_6]
  unfold out0_6
  rw [View.canon_unit_zero hz2]
  simp only [View.ld_unit_zero (S := S400x10000) hz2, View.ld_unit_zero (S := S10000x128) hz2,
    View.ld_unit_zero (S := S400x128) hz2, View.ld_unit_zero (S := S3x128x128) hz3, View.ld_unit_zero (S := S1x128) hz2]
  obtain ⟨e0, e1⟩ := idx0_6 t
  funext y
  show k0_pay4 (F := Ideal) (iblk0 V c 0 t) (iblk0 V c 1 t) (iblk0 V c 3 t) y
    = (G0_6 (V c main_arg1) (V c main_v0) (V c main_v1)) (((cfg0.win 6).blk t).view.emb y)
  refine point0_6 _ _ _ _ _ _ t.val (iblk0_0_apply V c t) (iblk0_1_eq V c t) (iblk0_3_eq V c t) _ _ ?_ ?_
  · show win0_6.index t 0 * 400 + 1 * (y 0).val = 400 * t.val + (y 0).val
    rw [e0]; omega
  · show win0_6.index t 1 * 128 + 1 * (y 1).val = (y 1).val
    rw [e1]; omega

/-- An index of output window 6's array is in point t's block iff each coordinate is in the block's range. -/
theorem mem_blk0_6 (t : Fin cfg0.N) (i : S10000x128.Idx) :
    i ∈ ((cfg0.win 6).blk t).view.set ↔ ∀ a : Fin 2, win0_6.index t a * S400x128.size a ≤ (i a).val
      ∧ (i a).val < win0_6.index t a * S400x128.size a + S400x128.size a := by
  show i ∈ ((View.whole main_v12_1).slice (win0_6.rect t)).set ↔ _
  rw [View.set_slice_whole, Rect.mem_set_unit]
  exact Iff.rfl

/-- Every index of output window 6's array is in the block of the point its row falls in. -/
theorem cover0_6_all (i : S10000x128.Idx) :
    ∃ t : Fin cfg0.N, (cfg0.win 6).flush t = true ∧ i ∈ ((cfg0.win 6).blk t).view.set := by
  have hi0 : (i 0).val < 10000 := (i 0).isLt
  have hi1 : (i 1).val < 128 := (i 1).isLt
  have hN : cfg0.N = 25 := by decide
  obtain ⟨t, ht⟩ : ∃ t : Fin cfg0.N, t.val = (i 0).val / 400 := ⟨⟨(i 0).val / 400, by rw [hN]; omega⟩, rfl⟩
  obtain ⟨e0, e1⟩ := idx0_6 t
  refine ⟨t, flush0_6 t, ?_⟩
  rw [mem_blk0_6]
  intro a
  match a with
  | ⟨0, _⟩ =>
    show win0_6.index t 0 * 400 ≤ (i 0).val ∧ (i 0).val < win0_6.index t 0 * 400 + 400
    rw [e0, ht]; omega
  | ⟨1, _⟩ =>
    show win0_6.index t 1 * 128 ≤ (i 1).val ∧ (i 1).val < win0_6.index t 1 * 128 + 128
    rw [e1]; omega

/-- Output window 6's array after the pass: (G·X)·W 2. -/
theorem arr0_6_eq (c : Dev nD) : (dat0 V c).arrAt 6 cfg0.N = G0_6 (V c main_arg1) (V c main_v0) (V c main_v1) :=
  (dat0 V c).arrAt_eq_of_cover 6 _ (fun t _ => flushed0_6_eq V c t) cover0_6_all

/-- Output window 7 is at block row t. -/
theorem idx0_7 : ∀ t : Fin cfg0.N, win0_7.index t (0 : Fin 2) = t.val ∧ win0_7.index t (1 : Fin 2) = 0 :=
  (by decide +kernel : ∀ t : Fin grid0.N, _)

/-- What point t writes back to output window 7 is block t of X·(W 0 − W 2) + (G·X)·W 1 + b. -/
theorem flushed0_7_eq (c : Dev nD) (t : Fin cfg0.N) :
    (dat0 V c).flushed 7 t = ((cfg0.win 7).blk t).view.read (Elt Ideal) (G0_7 (V c main_arg1) (V c main_v0) (V c main_v1) (V c main_v6)) := by
  show (cfg0.win 7).cut (grid0.coords t) ((dat0 V c).after 7 t) = _
  rw [after0_7]
  unfold out0_7
  rw [View.canon_unit_zero hz2]
  simp only [View.ld_unit_zero (S := S400x10000) hz2, View.ld_unit_zero (S := S10000x128) hz2,
    View.ld_unit_zero (S := S400x128) hz2, View.ld_unit_zero (S := S3x128x128) hz3, View.ld_unit_zero (S := S1x128) hz2]
  obtain ⟨e0, e1⟩ := idx0_7 t
  funext y
  show k0_pay5 (F := Ideal) (iblk0 V c 0 t) (iblk0 V c 1 t) (iblk0 V c 3 t) (iblk0 V c 2 t) (iblk0 V c 4 t) y
    = (G0_7 (V c main_arg1) (V c main_v0) (V c main_v1) (V c main_v6)) (((cfg0.win 7).blk t).view.emb y)
  refine point0_7 _ _ _ _ _ _ _ _ _ t.val (iblk0_0_apply V c t) (iblk0_1_eq V c t) (iblk0_3_eq V c t) (iblk0_2_apply V c t) (iblk0_4_eq V c t) _ _ ?_ ?_
  · show win0_7.index t 0 * 400 + 1 * (y 0).val = 400 * t.val + (y 0).val
    rw [e0]; omega
  · show win0_7.index t 1 * 128 + 1 * (y 1).val = (y 1).val
    rw [e1]; omega

/-- An index of output window 7's array is in point t's block iff each coordinate is in the block's range. -/
theorem mem_blk0_7 (t : Fin cfg0.N) (i : S10000x128.Idx) :
    i ∈ ((cfg0.win 7).blk t).view.set ↔ ∀ a : Fin 2, win0_7.index t a * S400x128.size a ≤ (i a).val
      ∧ (i a).val < win0_7.index t a * S400x128.size a + S400x128.size a := by
  show i ∈ ((View.whole main_v12_2).slice (win0_7.rect t)).set ↔ _
  rw [View.set_slice_whole, Rect.mem_set_unit]
  exact Iff.rfl

/-- Every index of output window 7's array is in the block of the point its row falls in. -/
theorem cover0_7_all (i : S10000x128.Idx) :
    ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 25 := by decide
  obtain ⟨t, ht⟩ : ∃ t : Fin cfg0.N, t.val = (i 0).val / 400 := ⟨⟨(i 0).val / 400, by rw [hN]; omega⟩, rfl⟩
  obtain ⟨e0, e1⟩ := idx0_7 t
  refine ⟨t, flush0_7 t, ?_⟩
  rw [mem_blk0_7]
  intro a
  match a with
  | ⟨0, _⟩ =>
    show win0_7.index t 0 * 400 ≤ (i 0).val ∧ (i 0).val < win0_7.index t 0 * 400 + 400
    rw [e0, ht]; omega
  | ⟨1, _⟩ =>
    show win0_7.index t 1 * 128 ≤ (i 1).val ∧ (i 1).val < win0_7.index t 1 * 128 + 128
    rw [e1]; omega

/-- Output window 7's array after the pass: X·(W 0 − W 2) + (G·X)·W 1 + b. -/
theorem arr0_7_eq (c : Dev nD) : (dat0 V c).arrAt 7 cfg0.N = G0_7 (V c main_arg1) (V c main_v0) (V c main_v1) (V c main_v6) :=
  (dat0 V c).arrAt_eq_of_cover 7 _ (fun t _ => flushed0_7_eq V c t) cover0_7_all

/-- After the first pass its first output array is the operator array, entry by entry. -/
theorem arr0_5 (c : Dev nD) :
    Cheb.cur ((dat0 V c).arrAt 5 cfg0.N : S10000x10000.Idx → EReal) = Cheb.cur (V c main_arg1 : S10000x10000.Idx → EReal) := by
  rw [arr0_5_eq]

/-- its second is (G·X)·W 2, -/
theorem arr0_6 (c : Dev nD) :
    Cheb.cur ((dat0 V c).arrAt 6 cfg0.N : S10000x128.Idx → EReal)
      = Cheb.passP (Cheb.cur (V c main_v0 : S10000x128.Idx → EReal)) (Cheb.cur (V c main_arg1 : S10000x10000.Idx → EReal))
          (Cheb.cur3 (V c main_v1 : S3x128x128.Idx → EReal)) := by
  rw [arr0_6_eq]
  rfl

/-- and its third is X·(W 0 − W 2) + (G·X)·W 1 + b. -/
theorem arr0_7 (c : Dev nD) :
    Cheb.cur ((dat0 V c).arrAt 7 cfg0.N : S10000x128.Idx → EReal)
      = Cheb.passR (Cheb.cur (V c main_v0 : S10000x128.Idx → EReal)) (Cheb.cur (V c main_arg1 : S10000x10000.Idx → EReal))
          (Cheb.cur3 (V c main_v1 : S3x128x128.Idx → EReal)) (fun l => (V c main_v6 : S1x128.Idx → EReal) (ix2 0 l)) := by
  rw [arr0_7_eq]
  rfl

end Pass0

/-! ## The second pass: the hidden features H = max (τ·(G·P) + R) z and H·(W 0 − W 2) + b -/

/-- The first output array of the second pass, as one function of the arrays the pass reads. -/
def G1_5 (Gb : S10000x10000.Idx → EReal) (P R : S10000x128.Idx → EReal) : S10000x128.Idx → EReal := fun i =>
  max (Cheb.wTwo * Cheb.mmul (Cheb.cur Gb) (Cheb.cur P) (i 0) (i 1) + Cheb.cur R (i 0) (i 1)) Cheb.wZero

/-- The second output array of the second pass. -/
def G1_6 (Gb : S10000x10000.Idx → EReal) (P R : S10000x128.Idx → EReal) (Wp : S3x128x128.Idx → EReal) (Bp : S1x128.Idx → EReal) : S10000x128.Idx → EReal := fun i =>
  Cheb.passR1 (fun i l => max (Cheb.wTwo * Cheb.mmul (Cheb.cur Gb) (Cheb.cur P) i l + Cheb.cur R i l) Cheb.wZero)
    (Cheb.cur3 Wp) (fun l => Bp (ix2 0 l)) (i 0) (i 1)

theorem point1_5 (x0 : FVec Ideal S400x10000 .bf16) (x1 : FVec Ideal S10000x128 .bf16) (x2 : FVec Ideal S400x128 .f32)
    (Gb : S10000x10000.Idx → EReal) (P R : S10000x128.Idx → EReal) (tv : ℕ)
    (h0 : (∀ (x : S400x10000.Idx) (k : S10000x10000.Idx), (k 0).val = 400 * tv + (x 0).val → (k 1).val = (x 1).val → x0 x = Gb k))
    (h1 : x1 = P)
    (h2 : (∀ (x : S400x128.Idx) (k : S10000x128.Idx), (k 0).val = 400 * tv + (x 0).val → (k 1).val = (x 1).val → x2 x = R k))
    (y : S400x128.Idx) (i : S10000x128.Idx) (hi0 : (i 0).val = 400 * tv + (y 0).val) (hi1 : (i 1).val = (y 1).val) :
    k1_pay1 (F := Ideal) x0 x1 x2 y = G1_5 Gb P R i := by
  subst h1
  obtain ⟨r, l, rfl⟩ : ∃ (r : Fin 400) (l : Fin 128), y = ix2 r l := ⟨y 0, y 1, eq_ix2 y⟩
  obtain ⟨i0, l', rfl⟩ : ∃ (i0 : Fin 10000) (l' : Fin 128), i = ix2 i0 l' := ⟨i 0, i 1, eq_ix2 i⟩
  have hr : i0.val = 400 * tv + r.val := hi0
  obtain rfl : l = l' := (Fin.ext hi1).symm
  rw [pay1_1]
  show max (Cheb.wTwo * Cheb.mmul (Cheb.cur x0) (Cheb.cur x1) r l + x2 (ix2 r l)) Cheb.wZero
    = max (Cheb.wTwo * Cheb.mmul (Cheb.cur Gb) (Cheb.cur x1) i0 l + R (ix2 i0 l)) Cheb.wZero
  rw [mmul_row (Cheb.cur x0) (Cheb.cur Gb) (Cheb.cur x1) r i0 (fun s => h0 (ix2 r s) (ix2 i0 s) hr rfl) l,
    h2 (ix2 r l) (ix2 i0 l) hr rfl]

theorem point1_6 (x0 : FVec Ideal S400x10000 .bf16) (x1 : FVec Ideal S10000x128 .bf16) (x2 : FVec Ideal S400x128 .f32)
    (x3 : FVec Ideal S3x128x128 .bf16) (x4 : FVec Ideal S1x128 .f32)
    (Gb : S10000x10000.Idx → EReal) (P R : S10000x128.Idx → EReal) (Wp : S3x128x128.Idx → EReal) (Bp : S1x128.Idx → EReal) (tv : ℕ)
    (h0 : (∀ (x : S400x10000.Idx) (k : S10000x10000.Idx), (k 0).val = 400 * tv + (x 0).val → (k 1).val = (x 1).val → x0 x = Gb k))
    (h1 : x1 = P)
    (h2 : (∀ (x : S400x128.Idx) (k : S10000x128.Idx), (k 0).val = 400 * tv + (x 0).val → (k 1).val = (x 1).val → x2 x = R k))
    (h3 : x3 = Wp) (h4 : x4 = Bp)
    (y : S400x128.Idx) (i : S10000x128.Idx) (hi0 : (i 0).val = 400 * tv + (y 0).val) (hi1 : (i 1).val = (y 1).val) :
    k1_pay2 (F := Ideal) x0 x1 x2 x3 x4 y = G1_6 Gb P R Wp Bp i := by
  subst h1 h3 h4
  obtain ⟨r, l, rfl⟩ : ∃ (r : Fin 400) (l : Fin 128), y = ix2 r l := ⟨y 0, y 1, eq_ix2 y⟩
  obtain ⟨i0, l', rfl⟩ : ∃ (i0 : Fin 10000) (l' : Fin 128), i = ix2 i0 l' := ⟨i 0, i 1, eq_ix2 i⟩
  have hr : i0.val = 400 * tv + r.val := hi0
  obtain rfl : l = l' := (Fin.ext hi1).symm
  rw [pay1_2]
  show Cheb.mmul (fun r j => max (Cheb.wTwo * Cheb.mmul (Cheb.cur x0) (Cheb.cur x1) r j + x2 (ix2 r j)) Cheb.wZero)
        (fun j l => Cheb.cur3 x3 0 j l - Cheb.cur3 x3 2 j l) r l + x4 (ix2 0 l)
    = Cheb.mmul (fun i l => max (Cheb.wTwo * Cheb.mmul (Cheb.cur Gb) (Cheb.cur x1) i l + Cheb.cur R i l) Cheb.wZero)
        (fun j l => Cheb.cur3 x3 0 j l - Cheb.cur3 x3 2 j l) i0 l + x4 (ix2 0 l)
  refine congrArg (· + x4 (ix2 0 l)) (mmul_row _ _ _ r i0 (fun s => ?_) l)
  show max (Cheb.wTwo * Cheb.mmul (Cheb.cur x0) (Cheb.cur x1) r s + x2 (ix2 r s)) Cheb.wZero
    = max (Cheb.wTwo * Cheb.mmul (Cheb.cur Gb) (Cheb.cur x1) i0 s + R (ix2 i0 s)) Cheb.wZero
  rw [mmul_row (Cheb.cur x0) (Cheb.cur Gb) (Cheb.cur x1) r i0 (fun s' => h0 (ix2 r s') (ix2 i0 s') hr rfl) s,
    h2 (ix2 r s) (ix2 i0 s) hr rfl]

section Pass1
variable (V : (c : Dev nD) → (b : Ref sig .tc) → Buf (Elt Ideal) ((c : Thread nD τ).loc b))

/-- Window 0's block at point t is rows 400·t … 400·t+399 of the operator array. -/
theorem idx1_0 : ∀ t : Fin cfg1.N, win1_0.index t (0 : Fin 2) = t.val ∧ win1_0.index t (1 : Fin 2) = 0 :=
  (by decide +kernel : ∀ t : Fin grid1.N, _)

theorem iblk1_0_apply (c : Dev nD) (t : Fin cfg1.N) (x : S400x10000.Idx) (k : S10000x10000.Idx)
    (hk0 : (k 0).val = 400 * t.val + (x 0).val) (hk1 : (k 1).val = (x 1).val) :
    (iblk1 V c 0 t : S400x10000.Idx → EReal) x = (V c main_v12_0 : S10000x10000.Idx → EReal) k := by
  obtain ⟨e0, e1⟩ := idx1_0 t
  unfold iblk1
  rw [View.read_apply]
  show V c main_v12_0 _ = V c main_v12_0 _
  congr 1
  funext a
  apply Fin.ext
  match a with
  | ⟨0, _⟩ => show win1_0.index t 0 * 400 + 1 * (x 0).val = (k 0).val; rw [e0, hk0]; omega
  | ⟨1, _⟩ => show win1_0.index t 1 * 10000 + 1 * (x 1).val = (k 1).val; rw [e1, hk1]; omega

/-- Window 1's block at every point is the whole of the first pass's second output. -/
theorem idx1_1 : ∀ t : Fin cfg1.N, win1_1.index t (0 : Fin 2) = 0 ∧ win1_1.index t (1 : Fin 2) = 0 :=
  (by decide +kernel : ∀ t : Fin grid1.N, _)

theorem iblk1_1_eq (c : Dev nD) (t : Fin cfg1.N) :
    (iblk1 V c 1 t : S10000x128.Idx → EReal) = (V c main_v12_1 : S10000x128.Idx → EReal) := by
  obtain ⟨e0, e1⟩ := idx1_1 t
  funext x
  unfold iblk1
  rw [View.read_apply]
  show V c main_v12_1 _ = V c main_v12_1 _
  congr 1
  funext a
  apply Fin.ext
  match a with
  | ⟨0, _⟩ => show win1_1.index t 0 * 10000 + 1 * (x 0).val = (x 0).val; rw [e0]; omega
  | ⟨1, _⟩ => show win1_1.index t 1 * 128 + 1 * (x 1).val = (x 1).val; rw [e1]; omega

/-- Window 2's block at point t is rows 400·t … 400·t+399 of the first pass's third output. -/
theorem idx1_2 : ∀ t : Fin cfg1.N, win1_2.index t (0 : Fin 2) = t.val ∧ win1_2.index t (1 : Fin 2) = 0 :=
  (by decide +kernel : ∀ t : Fin grid1.N, _)

theorem iblk1_2_apply (c : Dev nD) (t : Fin cfg1.N) (x : S400x128.Idx) (k : S10000x128.Idx)
    (hk0 : (k 0).val = 400 * t.val + (x 0).val) (hk1 : (k 1).val = (x 1).val) :
    (iblk1 V c 2 t : S400x128.Idx → EReal) x = (V c main_v12_2 : S10000x128.Idx → EReal) k := by
  obtain ⟨e0, e1⟩ := idx1_2 t
  unfold iblk1
  rw [View.read_apply]
  show V c main_v12_2 _ = V c main_v12_2 _
  congr 1
  funext a
  apply Fin.ext
  match a with
  | ⟨0, _⟩ => show win1_2.index t 0 * 400 + 1 * (x 0).val = (k 0).val; rw [e0, hk0]; omega
  | ⟨1, _⟩ => show win1_2.index t 1 * 128 + 1 * (x 1).val = (k 1).val; rw [e1, hk1]; omega

/-- Window 3's block at every point is the whole of the padded weight stack. -/
theorem idx1_3 : ∀ t : Fin cfg1.N, win1_3.index t (0 : Fin 3) = 0 ∧ win1_3.index t (1 : Fin 3) = 0
    ∧ win1_3.index t (2 : Fin 3) = 0 :=
  (by decide +kernel : ∀ t : Fin grid1.N, _)

theorem iblk1_3_eq (c : Dev nD) (t : Fin cfg1.N) :
    (iblk1 V c 3 t : S3x128x128.Idx → EReal) = (V c main_v5 : S3x128x128.Idx → EReal) := by
  obtain ⟨e0, e1, e2⟩ := idx1_3 t
  funext x
  unfold iblk1
  rw [View.read_apply]
  show V c main_v5 _ = V c main_v5 _
  congr 1
  funext a
  apply Fin.ext
  match a with
  | ⟨0, _⟩ => show win1_3.index t 0 * 3 + 1 * (x 0).val = (x 0).val; rw [e0]; omega
  | ⟨1, _⟩ => show win1_3.index t 1 * 128 + 1 * (x 1).val = (x 1).val; rw [e1]; omega
  | ⟨2, _⟩ => show win1_3.index t 2 * 128 + 1 * (x 2).val = (x 2).val; rw [e2]; omega

/-- Window 4's block at every point is the whole of the padded bias row. -/
theorem idx1_4 : ∀ t : Fin cfg1.N, win1_4.index t (0 : Fin 2) = 0 ∧ win1_4.index t (1 : Fin 2) = 0 :=
  (by decide +kernel : ∀ t : Fin grid1.N, _)

theorem iblk1_4_eq (c : Dev nD) (t : Fin cfg1.N) :
    (iblk1 V c 4 t : S1x128.Idx → EReal) = (V c main_v11 : S1x128.Idx → EReal) := by
  obtain ⟨e0, e1⟩ := idx1_4 t
  funext x
  unfold iblk1
  rw [View.read_apply]
  show V c main_v11 _ = V c main_v11 _
  congr 1
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- Output window 5 is at block row t. -/
theorem idx1_5 : ∀ t : Fin cfg1.N, win1_5.index t (0 : Fin 2) = t.val ∧ win1_5.index t (1 : Fin 2) = 0 :=
  (by decide +kernel : ∀ t : Fin grid1.N, _)

/-- What point t writes back to output window 5 is block t of the hidden features. -/
theorem flushed1_5_eq (c : Dev nD) (t : Fin cfg1.N) :
    (dat1 V c).flushed 5 t = ((cfg1.win 5).blk t).view.read (Elt Ideal) (G1_5 (V c main_v12_0) (V c main_v12_1) (V c main_v12_2)) := by
  show (cfg1.win 5).cut (grid1.coords t) ((dat1 V c).after 5 t) = _
  rw [after1_5]
  unfold out1_5
  rw [View.canon_unit_zero hz2]
  simp only [View.ld_unit_zero (S := S400x10000) hz2, View.ld_unit_zero (S := S10000x128) hz2,
    View.ld_unit_zero (S := S400x128) hz2, View.ld_unit_zero (S := S3x128x128) hz3, View.ld_unit_zero (S := S1x128) hz2]
  obtain ⟨e0, e1⟩ := idx1_5 t
  funext y
  show k1_pay1 (F := Ideal) (iblk1 V c 0 t) (iblk1 V c 1 t) (iblk1 V c 2 t) y
    = (G1_5 (V c main_v12_0) (V c main_v12_1) (V c main_v12_2)) (((cfg1.win 5).blk t).view.emb y)
  refine point1_5 _ _ _ _ _ _ t.val (iblk1_0_apply V c t) (iblk1_1_eq V c t) (iblk1_2_apply V c t) _ _ ?_ ?_
  · show win1_5.index t 0 * 400 + 1 * (y 0).val = 400 * t.val + (y 0).val
    rw [e0]; omega
  · show win1_5.index t 1 * 128 + 1 * (y 1).val = (y 1).val
    rw [e1]; omega

/-- An index of output window 5's array is in point t's block iff each coordinate is in the block's range. -/
theorem mem_blk1_5 (t : Fin cfg1.N) (i : S10000x128.Idx) :
    i ∈ ((cfg1.win 5).blk t).view.set ↔ ∀ a : Fin 2, win1_5.index t a * S400x128.size a ≤ (i a).val
      ∧ (i a).val < win1_5.index t a * S400x128.size a + S400x128.size a := by
  show i ∈ ((View.whole main_v13_0).slice (win1_5.rect t)).set ↔ _
  rw [View.set_slice_whole, Rect.mem_set_unit]
  exact Iff.rfl

/-- Every index of output window 5's array is in the block of the point its row falls in. -/
theorem cover1_5_all (i : S10000x128.Idx) :
    ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 25 := by decide
  obtain ⟨t, ht⟩ : ∃ t : Fin cfg1.N, t.val = (i 0).val / 400 := ⟨⟨(i 0).val / 400, by rw [hN]; omega⟩, rfl⟩
  obtain ⟨e0, e1⟩ := idx1_5 t
  refine ⟨t, flush1_5 t, ?_⟩
  rw [mem_blk1_5]
  intro a
  match a with
  | ⟨0, _⟩ =>
    show win1_5.index t 0 * 400 ≤ (i 0).val ∧ (i 0).val < win1_5.index t 0 * 400 + 400
    rw [e0, ht]; omega
  | ⟨1, _⟩ =>
    show win1_5.index t 1 * 128 ≤ (i 1).val ∧ (i 1).val < win1_5.index t 1 * 128 + 128
    rw [e1]; omega

/-- Output window 5's array after the pass: the hidden features. -/
theorem arr1_5_eq (c : Dev nD) : (dat1 V c).arrAt 5 cfg1.N = G1_5 (V c main_v12_0) (V c main_v12_1) (V c main_v12_2) :=
  (dat1 V c).arrAt_eq_of_cover 5 _ (fun t _ => flushed1_5_eq V c t) cover1_5_all

/-- Output window 6 is at block row t. -/
theorem idx1_6 : ∀ t : Fin cfg1.N, win1_6.index t (0 : Fin 2) = t.val ∧ win1_6.index t (1 : Fin 2) = 0 :=
  (by decide +kernel : ∀ t : Fin grid1.N, _)

/-- What point t writes back to output window 6 is block t of H·(W 0 − W 2) + b. -/
theorem flushed1_6_eq (c : Dev nD) (t : Fin cfg1.N) :
    (dat1 V c).flushed 6 t = ((cfg1.win 6).blk t).view.read (Elt Ideal) (G1_6 (V c main_v12_0) (V c main_v12_1) (V c main_v12_2) (V c main_v5) (V c main_v11)) := by
  show (cfg1.win 6).cut (grid1.coords t) ((dat1 V c).after 6 t) = _
  rw [after1_6]
  unfold out1_6
  rw [View.canon_unit_zero hz2]
  simp only [View.ld_unit_zero (S := S400x10000) hz2, View.ld_unit_zero (S := S10000x128) hz2,
    View.ld_unit_zero (S := S400x128) hz2, View.ld_unit_zero (S := S3x128x128) hz3, View.ld_unit_zero (S := S1x128) hz2]
  obtain ⟨e0, e1⟩ := idx1_6 t
  funext y
  show k1_pay2 (F := Ideal) (iblk1 V c 0 t) (iblk1 V c 1 t) (iblk1 V c 2 t) (iblk1 V c 3 t) (iblk1 V c 4 t) y
    = (G1_6 (V c main_v12_0) (V c main_v12_1) (V c main_v12_2) (V c main_v5) (V c main_v11)) (((cfg1.win 6).blk t).view.emb y)
  refine point1_6 _ _ _ _ _ _ _ _ _ _ t.val (iblk1_0_apply V c t) (iblk1_1_eq V c t) (iblk1_2_apply V c t) (iblk1_3_eq V c t) (iblk1_4_eq V c t) _ _ ?_ ?_
  · show win1_6.index t 0 * 400 + 1 * (y 0).val = 400 * t.val + (y 0).val
    rw [e0]; omega
  · show win1_6.index t 1 * 128 + 1 * (y 1).val = (y 1).val
    rw [e1]; omega

/-- An index of output window 6's array is in point t's block iff each coordinate is in the block's range. -/
theorem mem_blk1_6 (t : Fin cfg1.N) (i : S10000x128.Idx) :
    i ∈ ((cfg1.win 6).blk t).view.set ↔ ∀ a : Fin 2, win1_6.index t a * S400x128.size a ≤ (i a).val
      ∧ (i a).val < win1_6.index t a * S400x128.size a + S400x128.size a := by
  show i ∈ ((View.whole main_v13_1).slice (win1_6.rect t)).set ↔ _
  rw [View.set_slice_whole, Rect.mem_set_unit]
  exact Iff.rfl

/-- Every index of output window 6's array is in the block of the point its row falls in. -/
theorem cover1_6_all (i : S10000x128.Idx) :
    ∃ t : Fin cfg1.N, (cfg1.win 6).flush t = true ∧ i ∈ ((cfg1.win 6).blk t).view.set := by
  have hi0 : (i 0).val < 10000 := (i 0).isLt
  have hi1 : (i 1).val < 128 := (i 1).isLt
  have hN : cfg1.N = 25 := by decide
  obtain ⟨t, ht⟩ : ∃ t : Fin cfg1.N, t.val = (i 0).val / 400 := ⟨⟨(i 0).val / 400, by rw [hN]; omega⟩, rfl⟩
  obtain ⟨e0, e1⟩ := idx1_6 t
  refine ⟨t, flush1_6 t, ?_⟩
  rw [mem_blk1_6]
  intro a
  match a with
  | ⟨0, _⟩ =>
    show win1_6.index t 0 * 400 ≤ (i 0).val ∧ (i 0).val < win1_6.index t 0 * 400 + 400
    rw [e0, ht]; omega
  | ⟨1, _⟩ =>
    show win1_6.index t 1 * 128 ≤ (i 1).val ∧ (i 1).val < win1_6.index t 1 * 128 + 128
    rw [e1]; omega

/-- Output window 6's array after the pass: H·(W 0 − W 2) + b. -/
theorem arr1_6_eq (c : Dev nD) : (dat1 V c).arrAt 6 cfg1.N = G1_6 (V c main_v12_0) (V c main_v12_1) (V c main_v12_2) (V c main_v5) (V c main_v11) :=
  (dat1 V c).arrAt_eq_of_cover 6 _ (fun t _ => flushed1_6_eq V c t) cover1_6_all

/-- After the second pass its first output array is the hidden features max (τ·(G·P) + R) z, -/
theorem arr1_5 (c : Dev nD) :
    Cheb.cur ((dat1 V c).arrAt 5 cfg1.N : S10000x128.Idx → EReal)
      = fun i l => max (Cheb.wTwo * Cheb.mmul (Cheb.cur (V c main_v12_0 : S10000x10000.Idx → EReal)) (Cheb.cur (V c main_v12_1 : S10000x128.Idx → EReal)) i l
          + Cheb.cur (V c main_v12_2 : S10000x128.Idx → EReal) i l) Cheb.wZero := by
  rw [arr1_5_eq]
  rfl

/-- and its second is H·(W 0 − W 2) + b of those hidden features. -/
theorem arr1_6 (c : Dev nD) :
    Cheb.cur ((dat1 V c).arrAt 6 cfg1.N : S10000x128.Idx → EReal)
      = Cheb.passR1 (fun i l => max (Cheb.wTwo * Cheb.mmul (Cheb.cur (V c main_v12_0 : S10000x10000.Idx → EReal))
            (Cheb.cur (V c main_v12_1 : S10000x128.Idx → EReal)) i l + Cheb.cur (V c main_v12_2 : S10000x128.Idx → EReal) i l) Cheb.wZero)
          (Cheb.cur3 (V c main_v5 : S3x128x128.Idx → EReal)) (fun l => (V c main_v11 : S1x128.Idx → EReal) (ix2 0 l)) := by
  rw [arr1_6_eq]
  rfl

end Pass1

/-! ## The third pass: (G·H)·W 2 and R1 + (G·H)·W 1 -/

/-- The first output array of the third pass, as one function of the arrays the pass reads. -/
def G2_4 (Gb : S10000x10000.Idx → EReal) (H : S10000x128.Idx → EReal) (Wp : S3x128x128.Idx → EReal) : S10000x128.Idx → EReal := fun i =>
  Cheb.mmul (Cheb.mmul (Cheb.cur Gb) (Cheb.cur H)) (Cheb.cur3 Wp 2) (i 0) (i 1)

/-- The second output array of the third pass. -/
def G2_5 (Gb : S10000x10000.Idx → EReal) (H R1 : S10000x128.Idx → EReal) (Wp : S3x128x128.Idx → EReal) : S10000x128.Idx → EReal := fun i =>
  Cheb.cur R1 (i 0) (i 1) + Cheb.mmul (Cheb.mmul (Cheb.cur Gb) (Cheb.cur H)) (Cheb.cur3 Wp 1) (i 0) (i 1)

theorem point2_4 (x0 : FVec Ideal S400x10000 .bf16) (x1 : FVec Ideal S10000x128 .bf16) (x3 : FVec Ideal S3x128x128 .bf16)
    (Gb : S10000x10000.Idx → EReal) (H : S10000x128.Idx → EReal) (Wp : S3x128x128.Idx → EReal) (tv : ℕ)
    (h0 : (∀ (x : S400x10000.Idx) (k : S10000x10000.Idx), (k 0).val = 400 * tv + (x 0).val → (k 1).val = (x 1).val → x0 x = Gb k))
    (h1 : x1 = H) (h3 : x3 = Wp)
    (y : S400x128.Idx) (i : S10000x128.Idx) (hi0 : (i 0).val = 400 * tv + (y 0).val) (hi1 : (i 1).val = (y 1).val) :
    k2_pay3 (F := Ideal) x0 x1 x3 y = G2_4 Gb H Wp i := by
  subst h1 h3
  obtain ⟨r, l, rfl⟩ : ∃ (r : Fin 400) (l : Fin 128), y = ix2 r l := ⟨y 0, y 1, eq_ix2 y⟩
  obtain ⟨i0, l', rfl⟩ : ∃ (i0 : Fin 10000) (l' : Fin 128), i = ix2 i0 l' := ⟨i 0, i 1, eq_ix2 i⟩
  have hr : i0.val = 400 * tv + r.val := hi0
  obtain rfl : l = l' := (Fin.ext hi1).symm
  rw [pay2_3]
  show Cheb.mmul (Cheb.mmul (Cheb.cur x0) (Cheb.cur x1)) (Cheb.cur3 x3 2) r l
    = Cheb.mmul (Cheb.mmul (Cheb.cur Gb) (Cheb.cur x1)) (Cheb.cur3 x3 2) i0 l
  exact mmul2_row (Cheb.cur x0) (Cheb.cur Gb) (Cheb.cur x1) (Cheb.cur3 x3 2) r i0
    (fun s => h0 (ix2 r s) (ix2 i0 s) hr rfl) l

theorem point2_5 (x0 : FVec Ideal S400x10000 .bf16) (x1 : FVec Ideal S10000x128 .bf16) (x3 : FVec Ideal S3x128x128 .bf16)
    (x2 : FVec Ideal S400x128 .f32)
    (Gb : S10000x10000.Idx → EReal) (H R1 : S10000x128.Idx → EReal) (Wp : S3x128x128.Idx → EReal) (tv : ℕ)
    (h0 : (∀ (x : S400x10000.Idx) (k : S10000x10000.Idx), (k 0).val = 400 * tv + (x 0).val → (k 1).val = (x 1).val → x0 x = Gb k))
    (h1 : x1 = H) (h3 : x3 = Wp)
    (h2 : (∀ (x : S400x128.Idx) (k : S10000x128.Idx), (k 0).val = 400 * tv + (x 0).val → (k 1).val = (x 1).val → x2 x = R1 k))
    (y : S400x128.Idx) (i : S10000x128.Idx) (hi0 : (i 0).val = 400 * tv + (y 0).val) (hi1 : (i 1).val = (y 1).val) :
    k2_pay4 (F := Ideal) x0 x1 x3 x2 y = G2_5 Gb H R1 Wp i := by
  subst h1 h3
  obtain ⟨r, l, rfl⟩ : ∃ (r : Fin 400) (l : Fin 128), y = ix2 r l := ⟨y 0, y 1, eq_ix2 y⟩
  obtain ⟨i0, l', rfl⟩ : ∃ (i0 : Fin 10000) (l' : Fin 128), i = ix2 i0 l' := ⟨i 0, i 1, eq_ix2 i⟩
  have hr : i0.val = 400 * tv + r.val := hi0
  obtain rfl : l = l' := (Fin.ext hi1).symm
  rw [pay2_4]
  show x2 (ix2 r l) + Cheb.mmul (Cheb.mmul (Cheb.cur x0) (Cheb.cur x1)) (Cheb.cur3 x3 1) r l
    = R1 (ix2 i0 l) + Cheb.mmul (Cheb.mmul (Cheb.cur Gb) (Cheb.cur x1)) (Cheb.cur3 x3 1) i0 l
  rw [h2 (ix2 r l) (ix2 i0 l) hr rfl,
    mmul2_row (Cheb.cur x0) (Cheb.cur Gb) (Cheb.cur x1) (Cheb.cur3 x3 1) r i0
      (fun s => h0 (ix2 r s) (ix2 i0 s) hr rfl) l]

section Pass2
variable (V : (c : Dev nD) → (b : Ref sig .tc) → Buf (Elt Ideal) ((c : Thread nD τ).loc b))

/-- Window 0's block at point t is rows 400·t … 400·t+399 of the operator array. -/
theorem idx2_0 : ∀ t : Fin cfg2.N, win2_0.index t (0 : Fin 2) = t.val ∧ win2_0.index t (1 : Fin 2) = 0 :=
  (by decide +kernel : ∀ t : Fin grid2.N, _)

theorem iblk2_0_apply (c : Dev nD) (t : Fin cfg2.N) (x : S400x10000.Idx) (k : S10000x10000.Idx)
    (hk0 : (k 0).val = 400 * t.val + (x 0).val) (hk1 : (k 1).val = (x 1).val) :
    (iblk2 V c 0 t : S400x10000.Idx → EReal) x = (V c main_v12_0 : S10000x10000.Idx → EReal) k := by
  obtain ⟨e0, e1⟩ := idx2_0 t
  unfold iblk2
  rw [View.read_apply]
  show V c main_v12_0 _ = V c main_v12_0 _
  congr 1
  funext a
  apply Fin.ext
  match a with
  | ⟨0, _⟩ => show win2_0.index t 0 * 400 + 1 * (x 0).val = (k 0).val; rw [e0, hk0]; omega
  | ⟨1, _⟩ => show win2_0.index t 1 * 10000 + 1 * (x 1).val = (k 1).val; rw [e1, hk1]; omega

/-- Window 1's block at every point is the whole of the hidden features. -/
theorem idx2_1 : ∀ t : Fin cfg2.N, win2_1.index t (0 : Fin 2) = 0 ∧ win2_1.index t (1 : Fin 2) = 0 :=
  (by decide +kernel : ∀ t : Fin grid2.N, _)

theorem iblk2_1_eq (c : Dev nD) (t : Fin cfg2.N) :
    (iblk2 V c 1 t : S10000x128.Idx → EReal) = (V c main_v13_0 : S10000x128.Idx → EReal) := by
  obtain ⟨e0, e1⟩ := idx2_1 t
  funext x
  unfold iblk2
  rw [View.read_apply]
  show V c main_v13_0 _ = V c main_v13_0 _
  congr 1
  funext a
  apply Fin.ext
  match a with
  | ⟨0, _⟩ => show win2_1.index t 0 * 10000 + 1 * (x 0).val = (x 0).val; rw [e0]; omega
  | ⟨1, _⟩ => show win2_1.index t 1 * 128 + 1 * (x 1).val = (x 1).val; rw [e1]; omega

/-- Window 2's block at point t is rows 400·t … 400·t+399 of the second pass's second output. -/
theorem idx2_2 : ∀ t : Fin cfg2.N, win2_2.index t (0 : Fin 2) = t.val ∧ win2_2.index t (1 : Fin 2) = 0 :=
  (by decide +kernel : ∀ t : Fin grid2.N, _)

theorem iblk2_2_apply (c : Dev nD) (t : Fin cfg2.N) (x : S400x128.Idx) (k : S10000x128.Idx)
    (hk0 : (k 0).val = 400 * t.val + (x 0).val) (hk1 : (k 1).val = (x 1).val) :
    (iblk2 V c 2 t : S400x128.Idx → EReal) x = (V c main_v13_1 : S10000x128.Idx → EReal) k := by
  obtain ⟨e0, e1⟩ := idx2_2 t
  unfold iblk2
  rw [View.read_apply]
  show V c main_v13_1 _ = V c main_v13_1 _
  congr 1
  funext a
  apply Fin.ext
  match a with
  | ⟨0, _⟩ => show win2_2.index t 0 * 400 + 1 * (x 0).val = (k 0).val; rw [e0, hk0]; omega
  | ⟨1, _⟩ => show win2_2.index t 1 * 128 + 1 * (x 1).val = (k 1).val; rw [e1, hk1]; omega

/-- Window 3's block at every point is the whole of the padded weight stack. -/
theorem idx2_3 : ∀ t : Fin cfg2.N, win2_3.index t (0 : Fin 3) = 0 ∧ win2_3.index t (1 : Fin 3) = 0
    ∧ win2_3.index t (2 : Fin 3) = 0 :=
  (by decide +kernel : ∀ t : Fin grid2.N, _)

theorem iblk2_3_eq (c : Dev nD) (t : Fin cfg2.N) :
    (iblk2 V c 3 t : S3x128x128.Idx → EReal) = (V c main_v5 : S3x128x128.Idx → EReal) := by
  obtain ⟨e0, e1, e2⟩ := idx2_3 t
  funext x
  unfold iblk2
  rw [View.read_apply]
  show V c main_v5 _ = V c main_v5 _
  congr 1
  funext a
  apply Fin.ext
  match a with
  | ⟨0, _⟩ => show win2_3.index t 0 * 3 + 1 * (x 0).val = (x 0).val; rw [e0]; omega
  | ⟨1, _⟩ => show win2_3.index t 1 * 128 + 1 * (x 1).val = (x 1).val; rw [e1]; omega
  | ⟨2, _⟩ => show win2_3.index t 2 * 128 + 1 * (x 2).val = (x 2).val; rw [e2]; omega

/-- Output window 4 is at block row t. -/
theorem idx2_4 : ∀ t : Fin cfg2.N, win2_4.index t (0 : Fin 2) = t.val ∧ win2_4.index t (1 : Fin 2) = 0 :=
  (by decide +kernel : ∀ t : Fin grid2.N, _)

/-- What point t writes back to output window 4 is block t of (G·H)·W 2. -/
theorem flushed2_4_eq (c : Dev nD) (t : Fin cfg2.N) :
    (dat2 V c).flushed 4 t = ((cfg2.win 4).blk t).view.read (Elt Ideal) (G2_4 (V c main_v12_0) (V c main_v13_0) (V c main_v5)) := by
  show (cfg2.win 4).cut (grid2.coords t) ((dat2 V c).after 4 t) = _
  rw [after2_4]
  unfold out2_4
  rw [View.canon_unit_zero hz2]
  simp only [View.ld_unit_zero (S := S400x10000) hz2, View.ld_unit_zero (S := S10000x128) hz2,
    View.ld_unit_zero (S := S400x128) hz2, View.ld_unit_zero (S := S3x128x128) hz3, View.ld_unit_zero (S := S1x128) hz2]
  obtain ⟨e0, e1⟩ := idx2_4 t
  funext y
  show k2_pay3 (F := Ideal) (iblk2 V c 0 t) (iblk2 V c 1 t) (iblk2 V c 3 t) y
    = (G2_4 (V c main_v12_0) (V c main_v13_0) (V c main_v5)) (((cfg2.win 4).blk t).view.emb y)
  refine point2_4 _ _ _ _ _ _ t.val (iblk2_0_apply V c t) (iblk2_1_eq V c t) (iblk2_3_eq V c t) _ _ ?_ ?_
  · show win2_4.index t 0 * 400 + 1 * (y 0).val = 400 * t.val + (y 0).val
    rw [e0]; omega
  · show win2_4.index t 1 * 128 + 1 * (y 1).val = (y 1).val
    rw [e1]; omega

/-- An index of output window 4's array is in point t's block iff each coordinate is in the block's range. -/
theorem mem_blk2_4 (t : Fin cfg2.N) (i : S10000x128.Idx) :
    i ∈ ((cfg2.win 4).blk t).view.set ↔ ∀ a : Fin 2, win2_4.index t a * S400x128.size a ≤ (i a).val
      ∧ (i a).val < win2_4.index t a * S400x128.size a + S400x128.size a := by
  show i ∈ ((View.whole main_v14_0).slice (win2_4.rect t)).set ↔ _
  rw [View.set_slice_whole, Rect.mem_set_unit]
  exact Iff.rfl

/-- Every index of output window 4's array is in the block of the point its row falls in. -/
theorem cover2_4_all (i : S10000x128.Idx) :
    ∃ t : Fin cfg2.N, (cfg2.win 4).flush t = true ∧ i ∈ ((cfg2.win 4).blk t).view.set := by
  have hi0 : (i 0).val < 10000 := (i 0).isLt
  have hi1 : (i 1).val < 128 := (i 1).isLt
  have hN : cfg2.N = 25 := by decide
  obtain ⟨t, ht⟩ : ∃ t : Fin cfg2.N, t.val = (i 0).val / 400 := ⟨⟨(i 0).val / 400, by rw [hN]; omega⟩, rfl⟩
  obtain ⟨e0, e1⟩ := idx2_4 t
  refine ⟨t, flush2_4 t, ?_⟩
  rw [mem_blk2_4]
  intro a
  match a with
  | ⟨0, _⟩ =>
    show win2_4.index t 0 * 400 ≤ (i 0).val ∧ (i 0).val < win2_4.index t 0 * 400 + 400
    rw [e0, ht]; omega
  | ⟨1, _⟩ =>
    show win2_4.index t 1 * 128 ≤ (i 1).val ∧ (i 1).val < win2_4.index t 1 * 128 + 128
    rw [e1]; omega

/-- Output window 4's array after the pass: (G·H)·W 2. -/
theorem arr2_4_eq (c : Dev nD) : (dat2 V c).arrAt 4 cfg2.N = G2_4 (V c main_v12_0) (V c main_v13_0) (V c main_v5) :=
  (dat2 V c).arrAt_eq_of_cover 4 _ (fun t _ => flushed2_4_eq V c t) cover2_4_all

/-- Output window 5 is at block row t. -/
theorem idx2_5 : ∀ t : Fin cfg2.N, win2_5.index t (0 : Fin 2) = t.val ∧ win2_5.index t (1 : Fin 2) = 0 :=
  (by decide +kernel : ∀ t : Fin grid2.N, _)

/-- What point t writes back to output window 5 is block t of R1 + (G·H)·W 1. -/
theorem flushed2_5_eq (c : Dev nD) (t : Fin cfg2.N) :
    (dat2 V c).flushed 5 t = ((cfg2.win 5).blk t).view.read (Elt Ideal) (G2_5 (V c main_v12_0) (V c main_v13_0) (V c main_v13_1) (V c main_v5)) := by
  show (cfg2.win 5).cut (grid2.coords t) ((dat2 V c).after 5 t) = _
  rw [after2_5]
  unfold out2_5
  rw [View.canon_unit_zero hz2]
  simp only [View.ld_unit_zero (S := S400x10000) hz2, View.ld_unit_zero (S := S10000x128) hz2,
    View.ld_unit_zero (S := S400x128) hz2, View.ld_unit_zero (S := S3x128x128) hz3, View.ld_unit_zero (S := S1x128) hz2]
  obtain ⟨e0, e1⟩ := idx2_5 t
  funext y
  show k2_pay4 (F := Ideal) (iblk2 V c 0 t) (iblk2 V c 1 t) (iblk2 V c 3 t) (iblk2 V c 2 t) y
    = (G2_5 (V c main_v12_0) (V c main_v13_0) (V c main_v13_1) (V c main_v5)) (((cfg2.win 5).blk t).view.emb y)
  refine point2_5 _ _ _ _ _ _ _ _ t.val (iblk2_0_apply V c t) (iblk2_1_eq V c t) (iblk2_3_eq V c t) (iblk2_2_apply V c t) _ _ ?_ ?_
  · show win2_5.index t 0 * 400 + 1 * (y 0).val = 400 * t.val + (y 0).val
    rw [e0]; omega
  · show win2_5.index t 1 * 128 + 1 * (y 1).val = (y 1).val
    rw [e1]; omega

/-- An index of output window 5's array is in point t's block iff each coordinate is in the block's range. -/
theorem mem_blk2_5 (t : Fin cfg2.N) (i : S10000x128.Idx) :
    i ∈ ((cfg2.win 5).blk t).view.set ↔ ∀ a : Fin 2, win2_5.index t a * S400x128.size a ≤ (i a).val
      ∧ (i a).val < win2_5.index t a * S400x128.size a + S400x128.size a := by
  show i ∈ ((View.whole main_v14_1).slice (win2_5.rect t)).set ↔ _
  rw [View.set_slice_whole, Rect.mem_set_unit]
  exact Iff.rfl

/-- Every index of output window 5's array is in the block of the point its row falls in. -/
theorem cover2_5_all (i : S10000x128.Idx) :
    ∃ t : Fin cfg2.N, (cfg2.win 5).flush t = true ∧ i ∈ ((cfg2.win 5).blk t).view.set := by
  have hi0 : (i 0).val < 10000 := (i 0).isLt
  have hi1 : (i 1).val < 128 := (i 1).isLt
  have hN : cfg2.N = 25 := by decide
  obtain ⟨t, ht⟩ : ∃ t : Fin cfg2.N, t.val = (i 0).val / 400 := ⟨⟨(i 0).val / 400, by rw [hN]; omega⟩, rfl⟩
  obtain ⟨e0, e1⟩ := idx2_5 t
  refine ⟨t, flush2_5 t, ?_⟩
  rw [mem_blk2_5]
  intro a
  match a with
  | ⟨0, _⟩ =>
    show win2_5.index t 0 * 400 ≤ (i 0).val ∧ (i 0).val < win2_5.index t 0 * 400 + 400
    rw [e0, ht]; omega
  | ⟨1, _⟩ =>
    show win2_5.index t 1 * 128 ≤ (i 1).val ∧ (i 1).val < win2_5.index t 1 * 128 + 128
    rw [e1]; omega

/-- Output window 5's array after the pass: R1 + (G·H)·W 1. -/
theorem arr2_5_eq (c : Dev nD) : (dat2 V c).arrAt 5 cfg2.N = G2_5 (V c main_v12_0) (V c main_v13_0) (V c main_v13_1) (V c main_v5) :=
  (dat2 V c).arrAt_eq_of_cover 5 _ (fun t _ => flushed2_5_eq V c t) cover2_5_all

/-- After the third pass its first output array is (G·H)·W 2, -/
theorem arr2_4 (c : Dev nD) :
    Cheb.cur ((dat2 V c).arrAt 4 cfg2.N : S10000x128.Idx → EReal)
      = Cheb.mmul (Cheb.mmul (Cheb.cur (V c main_v12_0 : S10000x10000.Idx → EReal)) (Cheb.cur (V c main_v13_0 : S10000x128.Idx → EReal)))
          (Cheb.cur3 (V c main_v5 : S3x128x128.Idx → EReal) 2) := by
  rw [arr2_4_eq]
  rfl

/-- and its second is R1 + (G·H)·W 1. -/
theorem arr2_5 (c : Dev nD) :
    Cheb.cur ((dat2 V c).arrAt 5 cfg2.N : S10000x128.Idx → EReal)
      = fun i l => Cheb.cur (V c main_v13_1 : S10000x128.Idx → EReal) i l
          + Cheb.mmul (Cheb.mmul (Cheb.cur (V c main_v12_0 : S10000x10000.Idx → EReal)) (Cheb.cur (V c main_v13_0 : S10000x128.Idx → EReal)))
              (Cheb.cur3 (V c main_v5 : S3x128x128.Idx → EReal) 1) i l := by
  rw [arr2_5_eq]
  rfl

end Pass2

/-! ## The fourth pass: the masked log-softmax of the padded logits, cut to forty lanes -/

/-- The array the fourth pass leaves, as one function of the arrays it reads. -/
def G3 (Gb : S10000x10000.Idx → EReal) (Q S : S10000x128.Idx → EReal) : S10000x40.Idx → EReal := fun i =>
  Cheb.logSoftmaxMasked Cheb.wZero Cheb.wNinf Ideal.exp Ideal.log 40
    (fun i l => Cheb.wTwo * Cheb.mmul (Cheb.cur Gb) (Cheb.cur Q) i l + Cheb.cur S i l) (i 0)
    (Fin.castLE (by decide : 40 ≤ 128) (i 1))

/-- At a point whose row-blocked operands are rows 400·tv … of the arrays, the body's value at an entry of the block
    is the array function at the entry 400·tv rows further down. -/
theorem point3 (x0 : FVec Ideal S400x10000 .bf16) (x1 : FVec Ideal S10000x128 .bf16) (x2 : FVec Ideal S400x128 .f32)
    (Gb : S10000x10000.Idx → EReal) (Q S : S10000x128.Idx → EReal) (tv : ℕ)
    (h0 : ∀ (x : S400x10000.Idx) (k : S10000x10000.Idx), (k 0).val = 400 * tv + (x 0).val → (k 1).val = (x 1).val → x0 x = Gb k)
    (h1 : x1 = Q)
    (h2 : ∀ (x : S400x128.Idx) (k : S10000x128.Idx), (k 0).val = 400 * tv + (x 0).val → (k 1).val = (x 1).val → x2 x = S k)
    (y : S400x40.Idx) (i : S10000x40.Idx) (hi0 : (i 0).val = 400 * tv + (y 0).val) (hi1 : (i 1).val = (y 1).val) :
    k3_pay1 (F := Ideal) x0 x1 x2 y = G3 Gb Q S i := by
  subst h1
  obtain ⟨r, j, rfl⟩ : ∃ (r : Fin 400) (j : Fin 40), y = ix2 r j := ⟨y 0, y 1, eq_ix2 y⟩
  obtain ⟨i0, j', rfl⟩ : ∃ (i0 : Fin 10000) (j' : Fin 40), i = ix2 i0 j' := ⟨i 0, i 1, eq_ix2 i⟩
  have hr : i0.val = 400 * tv + r.val := hi0
  obtain rfl : j' = j := Fin.ext hi1
  rw [pay3_1]
  unfold G3
  refine lsm_row _ _ _ _ _ _ _ r i0 (funext fun l => ?_) _
  show Cheb.wTwo * Cheb.mmul (Cheb.cur x0) (Cheb.cur x1) r l + x2 (ix2 r l)
    = Cheb.wTwo * Cheb.mmul (Cheb.cur Gb) (Cheb.cur x1) i0 l + S (ix2 i0 l)
  rw [mmul_row (Cheb.cur x0) (Cheb.cur Gb) (Cheb.cur x1) r i0 (fun s => h0 (ix2 r s) (ix2 i0 s) hr rfl) l,
    h2 (ix2 r l) (ix2 i0 l) hr rfl]

section Pass3
variable (V : (c : Dev nD) → (b : Ref sig .tc) → Buf (Elt Ideal) ((c : Thread nD τ).loc b))

/-- The printed index maps of the fourth pass, decided over its 25 points: the row-blocked windows are at block row t,
    the whole-array window at block zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Window 0's block at point t is rows 400·t … of the operator array. -/
theorem iblk3_0_apply (c : Dev nD) (t : Fin cfg3.N) (x : S400x10000.Idx) (k : S10000x10000.Idx)
    (hk0 : (k 0).val = 400 * t.val + (x 0).val) (hk1 : (k 1).val = (x 1).val) :
    (iblk3 V c 0 t : S400x10000.Idx → EReal) x = (V c main_v12_0 : S10000x10000.Idx → EReal) k := by
  obtain ⟨e0, e1, -⟩ := idx3 t
  unfold iblk3
  rw [View.read_apply]
  show V c main_v12_0 _ = V c main_v12_0 _
  congr 1
  funext a
  apply Fin.ext
  match a with
  | ⟨0, _⟩ => show win3_0.index t 0 * 400 + 1 * (x 0).val = (k 0).val; rw [e0, hk0]; omega
  | ⟨1, _⟩ => show win3_0.index t 1 * 10000 + 1 * (x 1).val = (k 1).val; rw [e1, hk1]; omega

/-- Window 1's block at every point is the whole array. -/
theorem iblk3_1_eq (c : Dev nD) (t : Fin cfg3.N) :
    (iblk3 V c 1 t : S10000x128.Idx → EReal) = (V c main_v14_0 : S10000x128.Idx → EReal) := by
  obtain ⟨-, -, e2, e3, -⟩ := idx3 t
  funext x
  unfold iblk3
  rw [View.read_apply]
  show V c main_v14_0 _ = V c main_v14_0 _
  congr 1
  funext a
  apply Fin.ext
  match a with
  | ⟨0, _⟩ => show win3_1.index t 0 * 10000 + 1 * (x 0).val = (x 0).val; rw [e2]; omega
  | ⟨1, _⟩ => show win3_1.index t 1 * 128 + 1 * (x 1).val = (x 1).val; rw [e3]; omega

/-- Window 2's block at point t is rows 400·t … of its array. -/
theorem iblk3_2_apply (c : Dev nD) (t : Fin cfg3.N) (x : S400x128.Idx) (k : S10000x128.Idx)
    (hk0 : (k 0).val = 400 * t.val + (x 0).val) (hk1 : (k 1).val = (x 1).val) :
    (iblk3 V c 2 t : S400x128.Idx → EReal) x = (V c main_v14_1 : S10000x128.Idx → EReal) k := by
  obtain ⟨-, -, -, -, e4, e5, -⟩ := idx3 t
  unfold iblk3
  rw [View.read_apply]
  show V c main_v14_1 _ = V c main_v14_1 _
  congr 1
  funext a
  apply Fin.ext
  match a with
  | ⟨0, _⟩ => show win3_2.index t 0 * 400 + 1 * (x 0).val = (k 0).val; rw [e4, hk0]; omega
  | ⟨1, _⟩ => show win3_2.index t 1 * 128 + 1 * (x 1).val = (k 1).val; rw [e5, hk1]; omega

/-- What point t writes back is block t of the array function. -/
theorem flushed3_eq (c : Dev nD) (t : Fin cfg3.N) :
    (dat3 V c).flushed 3 t
      = ((cfg3.win 3).blk t).view.read (Elt Ideal) (G3 (V c main_v12_0) (V c main_v14_0) (V c main_v14_1)) := by
  show (cfg3.win 3).cut (grid3.coords t) ((dat3 V c).after 3 t) = _
  rw [after3_3]
  unfold out3_3
  rw [View.canon_unit_zero hz2]
  simp only [View.ld_unit_zero (S := S400x10000) hz2, View.ld_unit_zero (S := S10000x128) hz2,
    View.ld_unit_zero (S := S400x128) hz2]
  obtain ⟨-, -, -, -, -, -, e6, e7⟩ := idx3 t
  funext y
  show k3_pay1 (F := Ideal) (iblk3 V c 0 t) (iblk3 V c 1 t) (iblk3 V c 2 t) y
    = G3 (V c main_v12_0) (V c main_v14_0) (V c main_v14_1) (((cfg3.win 3).blk t).view.emb y)
  refine point3 _ _ _ _ _ _ t.val (iblk3_0_apply V c t) (iblk3_1_eq V c t) (iblk3_2_apply V c t) _ _ ?_ ?_
  · show win3_3.index t 0 * 400 + 1 * (y 0).val = 400 * t.val + (y 0).val
    rw [e6]; omega
  · show win3_3.index t 1 * 40 + 1 * (y 1).val = (y 1).val
    rw [e7]; omega

/-- An index of the output array is in point t's block iff each coordinate is in the block's range on its axis. -/
theorem mem_blk3_3 (t : Fin cfg3.N) (i : S10000x40.Idx) :
    i ∈ ((cfg3.win 3).blk t).view.set ↔ ∀ a : Fin 2, win3_3.index t a * S400x40.size a ≤ (i a).val
      ∧ (i a).val < win3_3.index t a * S400x40.size a + S400x40.size a := by
  show i ∈ ((View.whole main_v15).slice (win3_3.rect t)).set ↔ _
  rw [View.set_slice_whole, Rect.mem_set_unit]
  exact Iff.rfl

/-- Every index of the output array is in the block of the point its row falls in. -/
theorem cover3_3_all (i : S10000x40.Idx) :
    ∃ t : Fin cfg3.N, (cfg3.win 3).flush t = true ∧ i ∈ ((cfg3.win 3).blk t).view.set := by
  have hi0 : (i 0).val < 10000 := (i 0).isLt
  have hi1 : (i 1).val < 40 := (i 1).isLt
  have hN : cfg3.N = 25 := by decide
  obtain ⟨t, ht⟩ : ∃ t : Fin cfg3.N, t.val = (i 0).val / 400 := ⟨⟨(i 0).val / 400, by rw [hN]; omega⟩, rfl⟩
  obtain ⟨-, -, -, -, -, -, e6, e7⟩ := idx3 t
  refine ⟨t, flush3_3 t, ?_⟩
  rw [mem_blk3_3]
  intro a
  match a with
  | ⟨0, _⟩ =>
    show win3_3.index t 0 * 400 ≤ (i 0).val ∧ (i 0).val < win3_3.index t 0 * 400 + 400
    rw [e6, ht]; omega
  | ⟨1, _⟩ =>
    show win3_3.index t 1 * 40 ≤ (i 1).val ∧ (i 1).val < win3_3.index t 1 * 40 + 40
    rw [e7]; omega

/-- The output array after the fourth pass, as one function of the arrays the pass reads. -/
theorem arr3_3_eq (c : Dev nD) :
    (dat3 V c).arrAt 3 cfg3.N = G3 (V c main_v12_0) (V c main_v14_0) (V c main_v14_1) :=
  (dat3 V c).arrAt_eq_of_cover 3 _ (fun t _ => flushed3_eq V c t) cover3_3_all

/-- The same, entry by entry. -/
theorem arr3_3 (c : Dev nD) (i : Fin 10000) (j : Fin 40) :
    (dat3 V c).arrAt 3 cfg3.N (ix2 i j)
      = Cheb.logSoftmaxMasked Cheb.wZero Cheb.wNinf Ideal.exp Ideal.log 40
          (fun i l => Cheb.wTwo * Cheb.mmul (Cheb.cur (V c main_v12_0 : S10000x10000.Idx → EReal))
              (Cheb.cur (V c main_v14_0 : S10000x128.Idx → EReal)) i l
            + Cheb.cur (V c main_v14_1 : S10000x128.Idx → EReal) i l) i (Fin.castLE (by decide : 40 ≤ 128) j) := by
  rw [arr3_3_eq]
  rfl

end Pass3

end Cert.KernelIdeal.Arrays

end
-- ==== Proof.ChainB.lean ====
/-
  The result array followed back through the four passes at the ideal values: each pass's output arrays as functions of
  the argument arrays. After the first pass: the operator itself, (G·X)·W₂ and X·(W₀ − W₂) + (G·X)·W₁ + b. After the
  second: the hidden features H = max (2·(G·P) + R) 0 and H·(W₀′ − W₂′) + b′ over the padded second-layer weights.
  After the third: (G·H)·W₂′ and the one-pass sum plus (G·H)·W₁′. The fourth leaves the masked log-softmax of
  2·(G·Q) + S, which is the re-associated logits' by definition.
-/
import proofs.«134233_g4183298146899_cont_8to1_b_1680_5_alg».proof.Proof.ChainA
import proofs.«134233_g4183298146899_cont_8to1_b_1680_5_alg».proof.Proof.Arrays

set_option maxRecDepth 16384

noncomputable section

namespace Cert.KernelIdeal.Chain

open Idealize.ShloMosaic Idealize.ShloMosaic.TcCoe Idealize.ShloMosaic.ValueIdx
open Idealize.SL.Sem
open Cert.KernelIdeal Cert.KernelIdeal.Gen Cert.KernelIdeal.Hand Cert.KernelIdeal.Arrays

variable (m : (ℓ : Loc nD τ sig) → Buf (Elt Ideal) ℓ) (ρ : Dev nD → PrngReg) (c : Dev nD)

/-! ## After the first pass -/

theorem p0_G : Cheb.cur (V2 m ρ c main_v12_0 : S10000x10000.Idx → EReal) = Cheb.cur (argG m c) := by
  rw [v2_out5, arr0_5, v1_G]
theorem p0_P : Cheb.cur (V2 m ρ c main_v12_1 : S10000x128.Idx → EReal)
    = Cheb.passP (Cheb.cur (argX m c)) (Cheb.cur (argG m c)) (Cheb.cur3 (argW0 m c)) := by
  rw [v2_out6, arr0_6, v1_X, v1_G, v1_W0]
theorem p0_R : Cheb.cur (V2 m ρ c main_v12_2 : S10000x128.Idx → EReal)
    = Cheb.passR (Cheb.cur (argX m c)) (Cheb.cur (argG m c)) (Cheb.cur3 (argW0 m c)) (Cheb.cur1 (argB0 m c)) := by
  rw [v2_out7, arr0_7, v1_X, v1_G, v1_W0]
  exact congrArg (Cheb.passR _ _ _) (funext fun l => v1_B0 m ρ c l)

/-- The hidden features in the re-associated arrangement. -/
abbrev hid : Fin 10000 → Fin 128 → EReal :=
  Cheb.hidRe Cheb.wTwo Cheb.wZero (Cheb.cur (argX m c)) (Cheb.cur (argG m c)) (Cheb.cur3 (argW0 m c)) (Cheb.cur1 (argB0 m c))

theorem w1p_eq : Cheb.cur3 (V1 m ρ c main_v5 : S3x128x128.Idx → EReal) = padW1 m c :=
  funext fun k => funext fun j => funext fun l => v1_W1p m ρ c k j l
theorem b1p_eq : (fun l => (V1 m ρ c main_v11 : S1x128.Idx → EReal) (ix2 0 l)) = padB1 m c :=
  funext fun l => v1_B1p m ρ c l

/-! ## After the second pass -/

theorem p1_H : Cheb.cur (V3 m ρ c main_v13_0 : S10000x128.Idx → EReal) = hid m c := by
  rw [v3_out5, arr1_5, p0_G, p0_P, p0_R]
  rfl
theorem p1_R1 : Cheb.cur (V3 m ρ c main_v13_1 : S10000x128.Idx → EReal) = Cheb.passR1 (hid m c) (padW1 m c) (padB1 m c) := by
  rw [v3_out6, arr1_6, p0_G, p0_P, p0_R, v2_W1p, v2_B1p, w1p_eq, b1p_eq]
  rfl

/-! ## After the third pass -/

theorem p2_G : Cheb.cur (V3 m ρ c main_v12_0 : S10000x10000.Idx → EReal) = Cheb.cur (argG m c) := by
  rw [v3_G, p0_G]
theorem p2_W : Cheb.cur3 (V3 m ρ c main_v5 : S3x128x128.Idx → EReal) = padW1 m c := by
  rw [v3_W1p, v2_W1p, w1p_eq]
theorem p2_Q : Cheb.cur (V4 m ρ c main_v14_0 : S10000x128.Idx → EReal) = Cheb.passP (hid m c) (Cheb.cur (argG m c)) (padW1 m c) := by
  rw [v4_out4, arr2_4, p2_G, p1_H, p2_W]
  rfl
theorem p2_S : Cheb.cur (V4 m ρ c main_v14_1 : S10000x128.Idx → EReal)
    = Cheb.passS1 (hid m c) (Cheb.cur (argG m c)) (padW1 m c) (padB1 m c) := by
  rw [v4_out5, arr2_5, p2_G, p1_H, p2_W, p1_R1]
  rfl
theorem p3_G : Cheb.cur (V4 m ρ c main_v12_0 : S10000x10000.Idx → EReal) = Cheb.cur (argG m c) := by
  rw [v4_G, p2_G]

/-! ## The result -/

/-- The result array, entry by entry, is the masked log-softmax of the re-associated logits of the arguments. -/
theorem result_eq (i : Fin 10000) (j : Fin 40) :
    (dat3 (V4 m ρ) c).arrAt 3 cfg3.N (ix2 i j)
      = Cheb.logSoftmaxMasked Cheb.wZero Cheb.wNinf Ideal.exp Ideal.log 40
          (Cheb.logitsRe Cheb.wTwo Cheb.wZero (Cheb.cur (argX m c)) (Cheb.cur (argG m c)) (Cheb.cur3 (argW0 m c)) (Cheb.cur1 (argB0 m c)) (padW1 m c) (padB1 m c))
          i (Fin.castLE (by decide : 40 ≤ 128) j) := by
  rw [arr3_3, p3_G, p2_Q, p2_S]
  rfl

end Cert.KernelIdeal.Chain

end
-- ==== Proof.RefValue.lean ====
/-
  The reference program's value, entry by entry: the run of the reference names its last stage as a function of the
  six inputs; here that function is read at an index (i, j) and identified with the plain arrangement of the two-layer
  Chebyshev graph convolution followed by the row-wise log-softmax.
-/
import proofs.«134233_g4183298146899_cont_8to1_b_1680_5_alg».proof.Proof.RefReadP
import proofs.«134233_g4183298146899_cont_8to1_b_1680_5_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.RefBridge

open scoped BigOperators
open Cert.ReferenceIdeal Cert.ReferenceIdeal.ReadP Idealize.ShloMosaic Idealize.ShloMosaic.ValueIdx

/-! ## The index functions of the stages, at an index given by its coordinates

A matrix product's element (i, l) reads its left factor at (i, k) and its right factor at (k, l). -/

theorem lidx_v2 (i : Fin 10000) (l : Fin 128) (k : Fin 128) : lidx_main_v2 (ix2 i l) k = ix2 i k := by
  funext a; match a with | ⟨0, _⟩ => rfl | ⟨1, _⟩ => rfl
theorem ridx_v2 (i : Fin 10000) (l : Fin 128) (k : Fin 128) : ridx_main_v2 (ix2 i l) k = ix2 k l := by
  funext a; match a with | ⟨0, _⟩ => rfl | ⟨1, _⟩ => rfl
theorem lidx_v3 (i : Fin 10000) (l : Fin 128) (k : Fin 10000) : lidx_main_v3 (ix2 i l) k = ix2 i k := by
  funext a; match a with | ⟨0, _⟩ => rfl | ⟨1, _⟩ => rfl
theorem ridx_v3 (i : Fin 10000) (l : Fin 128) (k : Fin 10000) : ridx_main_v3 (ix2 i l) k = ix2 k l := by
  funext a; match a with | ⟨0, _⟩ => rfl | ⟨1, _⟩ => rfl
theorem lidx_v6 (i : Fin 10000) (l : Fin 128) (k : Fin 128) : lidx_main_v6 (ix2 i l) k = ix2 i k := by
  funext a; match a with | ⟨0, _⟩ => rfl | ⟨1, _⟩ => rfl
theorem ridx_v6 (i : Fin 10000) (l : Fin 128) (k : Fin 128) : ridx_main_v6 (ix2 i l) k = ix2 k l := by
  funext a; match a with | ⟨0, _⟩ => rfl | ⟨1, _⟩ => rfl
theorem lidx_v8 (i : Fin 10000) (l : Fin 128) (k : Fin 10000) : lidx_main_v8 (ix2 i l) k = ix2 i k := by
  funext a; match a with | ⟨0, _⟩ => rfl | ⟨1, _⟩ => rfl
theorem ridx_v8 (i : Fin 10000) (l : Fin 128) (k : Fin 10000) : ridx_main_v8 (ix2 i l) k = ix2 k l := by
  funext a; match a with | ⟨0, _⟩ => rfl | ⟨1, _⟩ => rfl
theorem lidx_v14 (i : Fin 10000) (l : Fin 128) (k : Fin 128) : lidx_main_v14 (ix2 i l) k = ix2 i k := by
  funext a; match a with | ⟨0, _⟩ => rfl | ⟨1, _⟩ => rfl
theorem ridx_v14 (i : Fin 10000) (l : Fin 128) (k : Fin 128) : ridx_main_v14 (ix2 i l) k = ix2 k l := by
  funext a; match a with | ⟨0, _⟩ => rfl | ⟨1, _⟩ => rfl
theorem lidx_v22 (i : Fin 10000) (l : Fin 40) (k : Fin 128) : lidx_main_v22 (ix2 i l) k = ix2 i k := by
  funext a; match a with | ⟨0, _⟩ => rfl | ⟨1, _⟩ => rfl
theorem ridx_v22 (i : Fin 10000) (l : Fin 40) (k : Fin 128) : ridx_main_v22 (ix2 i l) k = ix2 k l := by
  funext a; match a with | ⟨0, _⟩ => rfl | ⟨1, _⟩ => rfl
theorem lidx_v23 (i : Fin 10000) (l : Fin 128) (k : Fin 10000) : lidx_main_v23 (ix2 i l) k = ix2 i k := by
  funext a; match a with | ⟨0, _⟩ => rfl | ⟨1, _⟩ => rfl
theorem ridx_v23 (i : Fin 10000) (l : Fin 128) (k : Fin 10000) : ridx_main_v23 (ix2 i l) k = ix2 k l := by
  funext a; match a with | ⟨0, _⟩ => rfl | ⟨1, _⟩ => rfl
theorem lidx_v26 (i : Fin 10000) (l : Fin 40) (k : Fin 128) : lidx_main_v26 (ix2 i l) k = ix2 i k := by
  funext a; match a with | ⟨0, _⟩ => rfl | ⟨1, _⟩ => rfl
theorem ridx_v26 (i : Fin 10000) (l : Fin 40) (k : Fin 128) : ridx_main_v26 (ix2 i l) k = ix2 k l := by
  funext a; match a with | ⟨0, _⟩ => rfl | ⟨1, _⟩ => rfl
theorem lidx_v28 (i : Fin 10000) (l : Fin 128) (k : Fin 10000) : lidx_main_v28 (ix2 i l) k = ix2 i k := by
  funext a; match a with | ⟨0, _⟩ => rfl | ⟨1, _⟩ => rfl
theorem ridx_v28 (i : Fin 10000) (l : Fin 128) (k : Fin 10000) : ridx_main_v28 (ix2 i l) k = ix2 k l := by
  funext a; match a with | ⟨0, _⟩ => rfl | ⟨1, _⟩ => rfl
theorem lidx_v34 (i : Fin 10000) (l : Fin 40) (k : Fin 128) : lidx_main_v34 (ix2 i l) k = ix2 i k := by
  funext a; match a with | ⟨0, _⟩ => rfl | ⟨1, _⟩ => rfl
theorem ridx_v34 (i : Fin 10000) (l : Fin 40) (k : Fin 128) : ridx_main_v34 (ix2 i l) k = ix2 k l := by
  funext a; match a with | ⟨0, _⟩ => rfl | ⟨1, _⟩ => rfl

/-! ## The weight slabs -/

/-- Slab 0 of the weights, cut out and reshaped, is the weights at (0, t, l). -/
theorem slab_v1 (W : FVec Ideal S3x128x128 .f32) (t : Fin 128) (l : Fin 128) :
    val_main_v1 (F := Ideal) W (ix2 t l) = W (ix3 0 t l) := by
  rw [val_main_v1_apply, val_main_v0_apply]
  congr 1
  funext a
  have ht := t.isLt
  have hl := l.isLt
  match a with
  | ⟨0, _⟩ => rfl
  | ⟨1, _⟩ => exact Fin.ext (by show (t.val * 128 + l.val) / 128 % 128 = t.val; omega)
  | ⟨2, _⟩ => exact Fin.ext (by show (t.val * 128 + l.val) % 128 = l.val; omega)
/-- Slab 1 of the weights, cut out and reshaped, is the weights at (1, t, l). -/
theorem slab_v5 (W : FVec Ideal S3x128x128 .f32) (t : Fin 128) (l : Fin 128) :
    val_main_v5 (F := Ideal) W (ix2 t l) = W (ix3 1 t l) := by
  rw [val_main_v5_apply, val_main_v4_apply]
  congr 1
  funext a
  have ht := t.isLt
  have hl := l.isLt
  match a with
  | ⟨0, _⟩ => rfl
  | ⟨1, _⟩ => exact Fin.ext (by show (t.val * 128 + l.val) / 128 % 128 = t.val; omega)
  | ⟨2, _⟩ => exact Fin.ext (by show (t.val * 128 + l.val) % 128 = l.val; omega)
/-- Slab 2 of the weights, cut out and reshaped, is the weights at (2, t, l). -/
theorem slab_v13 (W : FVec Ideal S3x128x128 .f32) (t : Fin 128) (l : Fin 128) :
    val_main_v13 (F := Ideal) W (ix2 t l) = W (ix3 2 t l) := by
  rw [val_main_v13_apply, val_main_v12_apply]
  congr 1
  funext a
  have ht := t.isLt
  have hl := l.isLt
  match a with
  | ⟨0, _⟩ => rfl
  | ⟨1, _⟩ => exact Fin.ext (by show (t.val * 128 + l.val) / 128 % 128 = t.val; omega)
  | ⟨2, _⟩ => exact Fin.ext (by show (t.val * 128 + l.val) % 128 = l.val; omega)
/-- Slab 0 of the weights, cut out and reshaped, is the weights at (0, t, l). -/
theorem slab_v21 (W : FVec Ideal S3x128x40 .f32) (t : Fin 128) (l : Fin 40) :
    val_main_v21 (F := Ideal) W (ix2 t l) = W (ix3 0 t l) := by
  rw [val_main_v21_apply, val_main_v20_apply]
  congr 1
  funext a
  have ht := t.isLt
  have hl := l.isLt
  match a with
  | ⟨0, _⟩ => rfl
  | ⟨1, _⟩ => exact Fin.ext (by show (t.val * 40 + l.val) / 40 % 128 = t.val; omega)
  | ⟨2, _⟩ => exact Fin.ext (by show (t.val * 40 + l.val) % 40 = l.val; omega)
/-- Slab 1 of the weights, cut out and reshaped, is the weights at (1, t, l). -/
theorem slab_v25 (W : FVec Ideal S3x128x40 .f32) (t : Fin 128) (l : Fin 40) :
    val_main_v25 (F := Ideal) W (ix2 t l) = W (ix3 1 t l) := by
  rw [val_main_v25_apply, val_main_v24_apply]
  congr 1
  funext a
  have ht := t.isLt
  have hl := l.isLt
  match a with
  | ⟨0, _⟩ => rfl
  | ⟨1, _⟩ => exact Fin.ext (by show (t.val * 40 + l.val) / 40 % 128 = t.val; omega)
  | ⟨2, _⟩ => exact Fin.ext (by show (t.val * 40 + l.val) % 40 = l.val; omega)
/-- Slab 2 of the weights, cut out and reshaped, is the weights at (2, t, l). -/
theorem slab_v33 (W : FVec Ideal S3x128x40 .f32) (t : Fin 128) (l : Fin 40) :
    val_main_v33 (F := Ideal) W (ix2 t l) = W (ix3 2 t l) := by
  rw [val_main_v33_apply, val_main_v32_apply]
  congr 1
  funext a
  have ht := t.isLt
  have hl := l.isLt
  match a with
  | ⟨0, _⟩ => rfl
  | ⟨1, _⟩ => exact Fin.ext (by show (t.val * 40 + l.val) / 40 % 128 = t.val; omega)
  | ⟨2, _⟩ => exact Fin.ext (by show (t.val * 40 + l.val) % 40 = l.val; omega)

/-! ## The stages of the first layer

Throughout, `x`, `gso`, `W0`, `b0`, `W1`, `b1` are the six inputs; the matrices of the specification are their
readings by coordinates (`Cheb.cur`, `Cheb.cur3`, `Cheb.cur1`). -/

section Stages

variable (x : FVec Ideal S10000x128 .f32) (gso : FVec Ideal S10000x10000 .f32) (W0 : FVec Ideal S3x128x128 .f32)
  (b0 : FVec Ideal S128 .f32) (W1 : FVec Ideal S3x128x40 .f32) (b1 : FVec Ideal S40 .f32)

/-- `G·X`. -/
theorem st_v3 (i : Fin 10000) (l : Fin 128) :
    val_main_v3 (F := Ideal) x gso (ix2 i l) = Cheb.mmul (Cheb.cur gso) (Cheb.cur x) i l := by
  rw [val_main_v3_apply]
  show _ = ∑ t : Fin 10000, Cheb.cur gso i t * Cheb.cur x t l
  refine Finset.sum_congr rfl fun k _ => ?_
  rw [lidx_v3, ridx_v3]

/-- `X·W[0]`. -/
theorem st_v2 (i : Fin 10000) (l : Fin 128) :
    val_main_v2 (F := Ideal) x W0 (ix2 i l) = Cheb.mmul (Cheb.cur x) (Cheb.cur3 W0 0) i l := by
  rw [val_main_v2_apply]
  show _ = ∑ t : Fin 128, Cheb.cur x i t * Cheb.cur3 W0 0 t l
  refine Finset.sum_congr rfl fun k _ => ?_
  rw [lidx_v2, ridx_v2, slab_v1]

/-- `(G·X)·W[1]`. -/
theorem st_v6 (i : Fin 10000) (l : Fin 128) :
    val_main_v6 (F := Ideal) x gso W0 (ix2 i l)
      = Cheb.mmul (Cheb.mmul (Cheb.cur gso) (Cheb.cur x)) (Cheb.cur3 W0 1) i l := by
  rw [val_main_v6_apply]
  show _ = ∑ t : Fin 128, Cheb.mmul (Cheb.cur gso) (Cheb.cur x) i t * Cheb.cur3 W0 1 t l
  refine Finset.sum_congr rfl fun k _ => ?_
  rw [lidx_v6, ridx_v6, st_v3, slab_v5]

/-- `G·(G·X)`. -/
theorem st_v8 (i : Fin 10000) (l : Fin 128) :
    val_main_v8 (F := Ideal) x gso (ix2 i l)
      = Cheb.mmul (Cheb.cur gso) (Cheb.mmul (Cheb.cur gso) (Cheb.cur x)) i l := by
  rw [val_main_v8_apply]
  show _ = ∑ t : Fin 10000, Cheb.cur gso i t * Cheb.mmul (Cheb.cur gso) (Cheb.cur x) t l
  refine Finset.sum_congr rfl fun k _ => ?_
  rw [lidx_v8, ridx_v8, st_v3]

/-- The broadcast literal two. -/
theorem st_v9 (i : S10000x128.Idx) : val_main_v9 (F := Ideal) i = Cheb.wTwo := by
  rw [val_main_v9_apply, val_main_cst_apply]; rfl

/-- `τ·(G·(G·X)) − X`. -/
theorem st_v11 (i : Fin 10000) (l : Fin 128) :
    val_main_v11 (F := Ideal) x gso (ix2 i l)
      = Cheb.wTwo * Cheb.mmul (Cheb.cur gso) (Cheb.mmul (Cheb.cur gso) (Cheb.cur x)) i l - Cheb.cur x i l := by
  rw [val_main_v11_apply, val_main_v10_apply, st_v9, st_v8]; rfl

/-- `(τ·(G·(G·X)) − X)·W[2]`. -/
theorem st_v14 (i : Fin 10000) (l : Fin 128) :
    val_main_v14 (F := Ideal) x gso W0 (ix2 i l)
      = Cheb.mmul (fun i j => Cheb.wTwo * Cheb.mmul (Cheb.cur gso) (Cheb.mmul (Cheb.cur gso) (Cheb.cur x)) i j - Cheb.cur x i j)
          (Cheb.cur3 W0 2) i l := by
  rw [val_main_v14_apply]
  show _ = ∑ t : Fin 128, (Cheb.wTwo * Cheb.mmul (Cheb.cur gso) (Cheb.mmul (Cheb.cur gso) (Cheb.cur x)) i t - Cheb.cur x i t)
      * Cheb.cur3 W0 2 t l
  refine Finset.sum_congr rfl fun k _ => ?_
  rw [lidx_v14, ridx_v14, st_v11, slab_v13]

/-- The bias, broadcast along the rows. -/
theorem st_v17 (i : Fin 10000) (l : Fin 128) : val_main_v17 (F := Ideal) b0 (ix2 i l) = Cheb.cur1 b0 l := by
  rw [val_main_v17_apply, val_main_v16_apply]
  show b0 _ = b0 (ix1 l)
  congr 1
  funext a
  match a with
  | ⟨0, _⟩ => rfl

/-- The first layer before the rectifier. -/
theorem st_v18 (i : Fin 10000) (l : Fin 128) :
    val_main_v18 (F := Ideal) x gso W0 b0 (ix2 i l)
      = Cheb.layerPlain Cheb.wTwo (Cheb.cur x) (Cheb.cur gso) (Cheb.cur3 W0) (Cheb.cur1 b0) i l := by
  rw [val_main_v18_apply, val_main_v15_apply, val_main_v7_apply, st_v2, st_v6, st_v14, st_v17]; rfl

/-- The hidden features of the plain arrangement at the program's words. -/
abbrev hid : Fin 10000 → Fin 128 → EReal :=
  Cheb.hidPlain Cheb.wTwo Cheb.wZero (Cheb.cur x) (Cheb.cur gso) (Cheb.cur3 W0) (Cheb.cur1 b0)

/-- The rectifier: the maximum with the broadcast literal zero. -/
theorem st_v19 (i : Fin 10000) (l : Fin 128) :
    val_main_v19 (F := Ideal) x gso W0 b0 (ix2 i l) = hid x gso W0 b0 i l := by
  rw [val_main_v19_apply, st_v18, val_main_call0_v0_apply, val_main_call0_cst_apply]; rfl

/-! ## The stages of the second layer: the same arrangement over the hidden features -/

/-- `H·W[0]`. -/
theorem st_v22 (i : Fin 10000) (j : Fin 40) :
    val_main_v22 (F := Ideal) x gso W0 b0 W1 (ix2 i j) = Cheb.mmul (hid x gso W0 b0) (Cheb.cur3 W1 0) i j := by
  rw [val_main_v22_apply]
  show _ = ∑ t : Fin 128, hid x gso W0 b0 i t * Cheb.cur3 W1 0 t j
  refine Finset.sum_congr rfl fun k _ => ?_
  rw [lidx_v22, ridx_v22, st_v19, slab_v21]

/-- `G·H`. -/
theorem st_v23 (i : Fin 10000) (l : Fin 128) :
    val_main_v23 (F := Ideal) x gso W0 b0 (ix2 i l) = Cheb.mmul (Cheb.cur gso) (hid x gso W0 b0) i l := by
  rw [val_main_v23_apply]
  show _ = ∑ t : Fin 10000, Cheb.cur gso i t * hid x gso W0 b0 t l
  refine Finset.sum_congr rfl fun k _ => ?_
  rw [lidx_v23, ridx_v23, st_v19]

/-- `(G·H)·W[1]`. -/
theorem st_v26 (i : Fin 10000) (j : Fin 40) :
    val_main_v26 (F := Ideal) x gso W0 b0 W1 (ix2 i j)
      = Cheb.mmul (Cheb.mmul (Cheb.cur gso) (hid x gso W0 b0)) (Cheb.cur3 W1 1) i j := by
  rw [val_main_v26_apply]
  show _ = ∑ t : Fin 128, Cheb.mmul (Cheb.cur gso) (hid x gso W0 b0) i t * Cheb.cur3 W1 1 t j
  refine Finset.sum_congr rfl fun k _ => ?_
  rw [lidx_v26, ridx_v26, st_v23, slab_v25]

/-- `G·(G·H)`. -/
theorem st_v28 (i : Fin 10000) (l : Fin 128) :
    val_main_v28 (F := Ideal) x gso W0 b0 (ix2 i l)
      = Cheb.mmul (Cheb.cur gso) (Cheb.mmul (Cheb.cur gso) (hid x gso W0 b0)) i l := by
  rw [val_main_v28_apply]
  show _ = ∑ t : Fin 10000, Cheb.cur gso i t * Cheb.mmul (Cheb.cur gso) (hid x gso W0 b0) t l
  refine Finset.sum_congr rfl fun k _ => ?_
  rw [lidx_v28, ridx_v28, st_v23]

/-- The broadcast literal two, again. -/
theorem st_v29 (i : S10000x128.Idx) : val_main_v29 (F := Ideal) i = Cheb.wTwo := by
  rw [val_main_v29_apply, val_main_cst_0_apply]; rfl

/-- `τ·(G·(G·H)) − H`. -/
theorem st_v31 (i : Fin 10000) (l : Fin 128) :
    val_main_v31 (F := Ideal) x gso W0 b0 (ix2 i l)
      = Cheb.wTwo * Cheb.mmul (Cheb.cur gso) (Cheb.mmul (Cheb.cur gso) (hid x gso W0 b0)) i l - hid x gso W0 b0 i l := by
  rw [val_main_v31_apply, val_main_v30_apply, st_v29, st_v28, st_v19]; rfl

/-- `(τ·(G·(G·H)) − H)·W[2]`. -/
theorem st_v34 (i : Fin 10000) (j : Fin 40) :
    val_main_v34 (F := Ideal) x gso W0 b0 W1 (ix2 i j)
      = Cheb.mmul (fun i l => Cheb.wTwo * Cheb.mmul (Cheb.cur gso) (Cheb.mmul (Cheb.cur gso) (hid x gso W0 b0)) i l - hid x gso W0 b0 i l)
          (Cheb.cur3 W1 2) i j := by
  rw [val_main_v34_apply]
  show _ = ∑ t : Fin 128, (Cheb.wTwo * Cheb.mmul (Cheb.cur gso) (Cheb.mmul (Cheb.cur gso) (hid x gso W0 b0)) i t - hid x gso W0 b0 i t)
      * Cheb.cur3 W1 2 t j
  refine Finset.sum_congr rfl fun k _ => ?_
  rw [lidx_v34, ridx_v34, st_v31, slab_v33]

/-- The second bias, broadcast along the rows. -/
theorem st_v37 (i : Fin 10000) (j : Fin 40) : val_main_v37 (F := Ideal) b1 (ix2 i j) = Cheb.cur1 b1 j := by
  rw [val_main_v37_apply, val_main_v36_apply]
  show b1 _ = b1 (ix1 j)
  congr 1
  funext a
  match a with
  | ⟨0, _⟩ => rfl

/-- The logits of the plain arrangement at the program's words. -/
abbrev logits : Fin 10000 → Fin 40 → EReal :=
  Cheb.logitsPlain Cheb.wTwo Cheb.wZero (Cheb.cur x) (Cheb.cur gso) (Cheb.cur3 W0) (Cheb.cur1 b0) (Cheb.cur3 W1) (Cheb.cur1 b1)

/-- The second layer: the logits. -/
theorem st_v38 (i : Fin 10000) (j : Fin 40) :
    val_main_v38 (F := Ideal) x gso W0 b0 W1 b1 (ix2 i j) = logits x gso W0 b0 W1 b1 i j := by
  rw [val_main_v38_apply, val_main_v35_apply, val_main_v27_apply, st_v22, st_v26, st_v34, st_v37]; rfl

/-! ## The row-wise log-softmax -/

/-- The index a reduction over the lanes inserts: row `i`, lane `k`. -/
theorem lift_row (h : S10000x40.Reduces [1] S10000) (i : Fin 10000) (k : Fin 40) :
    h.lift (ix1 i) k = ix2 i k := by
  funext a
  match a with
  | ⟨0, _⟩ => rfl
  | ⟨1, _⟩ => rfl

/-- The row maximum: the fold of `max` from minus infinity over the forty lanes. -/
theorem st_c1v0 (i : Fin 10000) :
    val_main_call1_v0 (F := Ideal) x gso W0 b0 W1 b1 (ix1 i) = Cheb.rowMax Cheb.wNinf (logits x gso W0 b0 W1 b1 i) := by
  unfold val_main_call1_v0
  rw [Host.reduce_eq_fold_single FloatOps.maximumf _ _ _ (by decide : S10000x40.Reduces [1] S10000) _ (ix1 i)]
  have e : (val_main_v38 (F := Ideal) x gso W0 b0 W1 b1 ∘ (by decide : S10000x40.Reduces [1] S10000).lift (ix1 i))
      = logits x gso W0 b0 W1 b1 i := by
    funext k
    exact (congrArg (val_main_v38 (F := Ideal) x gso W0 b0 W1 b1) (lift_row _ i k)).trans (st_v38 x gso W0 b0 W1 b1 i k)
  rw [e]
  rfl

/-- The maximum with minus infinity, broadcast back along the lanes. -/
theorem st_c1v4 (i : Fin 10000) (j : Fin 40) :
    val_main_call1_v4 (F := Ideal) x gso W0 b0 W1 b1 (ix2 i j)
      = max Cheb.wNinf (Cheb.rowMax Cheb.wNinf (logits x gso W0 b0 W1 b1 i)) := by
  have e : idx_main_call1_v3 (idx_main_call1_v4 (ix2 i j)) = ix1 i := by
    funext a
    match a with
    | ⟨0, _⟩ => rfl
  rw [val_main_call1_v4_apply, val_main_call1_v3_apply, e, val_main_call1_v2_apply, val_main_call1_v1_apply,
    val_main_call1_cst_0_apply, st_c1v0]
  rfl

/-- The shifted logits. -/
theorem st_c1v5 (i : Fin 10000) (j : Fin 40) :
    val_main_call1_v5 (F := Ideal) x gso W0 b0 W1 b1 (ix2 i j)
      = logits x gso W0 b0 W1 b1 i j - max Cheb.wNinf (Cheb.rowMax Cheb.wNinf (logits x gso W0 b0 W1 b1 i)) := by
  rw [val_main_call1_v5_apply, st_v38, st_c1v4]; rfl

/-- The row's sum of exponentials, from the literal zero. -/
theorem st_c1v7 (i : Fin 10000) :
    val_main_call1_v7 (F := Ideal) x gso W0 b0 W1 b1 (ix1 i)
      = Cheb.wZero + ∑ t : Fin 40, Ideal.exp (logits x gso W0 b0 W1 b1 i t - max Cheb.wNinf (Cheb.rowMax Cheb.wNinf (logits x gso W0 b0 W1 b1 i))) := by
  rw [val_main_call1_v7_apply, val_main_call1_cst_1_apply]
  congr 1
  refine Finset.sum_congr rfl fun k _ => ?_
  have e : idx_main_call1_v7 (ix1 i) k = ix2 i k := by
    funext a
    match a with
    | ⟨0, _⟩ => rfl
    | ⟨1, _⟩ => rfl
  rw [e, val_main_call1_v6_apply, st_c1v5]
  rfl

/-- Its logarithm, broadcast back along the lanes. -/
theorem st_c1v10 (i : Fin 10000) (j : Fin 40) :
    val_main_call1_v10 (F := Ideal) x gso W0 b0 W1 b1 (ix2 i j)
      = Ideal.log (Cheb.wZero + ∑ t : Fin 40, Ideal.exp (logits x gso W0 b0 W1 b1 i t - max Cheb.wNinf (Cheb.rowMax Cheb.wNinf (logits x gso W0 b0 W1 b1 i)))) := by
  have e : idx_main_call1_v8 (idx_main_call1_v10 (ix2 i j)) = ix1 i := by
    funext a
    match a with
    | ⟨0, _⟩ => rfl
  rw [val_main_call1_v10_apply, val_main_call1_v9_apply, val_main_call1_v8_apply, e, st_c1v7]
  rfl

/-- THE REFERENCE'S VALUE at (i, j): the plain arrangement of the specification at the program's three literal words
    and the ideal exponential and logarithm. -/
theorem ref_apply (i : Fin 10000) (j : Fin 40) :
    val_main_v39 (F := Ideal) x gso W0 b0 W1 b1 (ix2 i j)
      = Cheb.outPlain Cheb.wTwo Cheb.wZero Cheb.wNinf Ideal.exp Ideal.log (Cheb.cur x) (Cheb.cur gso) (Cheb.cur3 W0)
          (Cheb.cur1 b0) (Cheb.cur3 W1) (Cheb.cur1 b1) i j := by
  rw [val_main_v39_apply, st_c1v5, st_c1v10]; rfl

end Stages

/-! ## From the run -/

/-- The run's term for the result buffer, at (i, j), over the launch contents of the six argument buffers. -/
theorem res_apply (m : (ℓ : Loc nD τ sig) → Buf (Elt Ideal) ℓ) (c : Dev nD) (i : Fin 10000) (j : Fin 40) :
    Cert.ReferenceIdeal.ValueP.res_main_v39 (F := Ideal) m c (ix2 i j)
      = Cheb.outPlain Cheb.wTwo Cheb.wZero Cheb.wNinf Ideal.exp Ideal.log
          (Cheb.cur (m ((c.tc : Thread nD τ).loc main_arg0))) (Cheb.cur (m ((c.tc : Thread nD τ).loc main_arg1)))
          (Cheb.cur3 (m ((c.tc : Thread nD τ).loc main_arg2))) (Cheb.cur1 (m ((c.tc : Thread nD τ).loc main_arg3)))
          (Cheb.cur3 (m ((c.tc : Thread nD τ).loc main_arg4))) (Cheb.cur1 (m ((c.tc : Thread nD τ).loc main_arg5))) i j := by
  rw [val_main_v39_eq]
  exact ref_apply _ _ _ _ _ _ i j

/-- The same at any index of the result's shape, by its two coordinates. -/
theorem res_apply_idx (m : (ℓ : Loc nD τ sig) → Buf (Elt Ideal) ℓ) (c : Dev nD) (q : S10000x40.Idx) :
    Cert.ReferenceIdeal.ValueP.res_main_v39 (F := Ideal) m c q
      = Cheb.outPlain Cheb.wTwo Cheb.wZero Cheb.wNinf Ideal.exp Ideal.log
          (Cheb.cur (m ((c.tc : Thread nD τ).loc main_arg0))) (Cheb.cur (m ((c.tc : Thread nD τ).loc main_arg1)))
          (Cheb.cur3 (m ((c.tc : Thread nD τ).loc main_arg2))) (Cheb.cur1 (m ((c.tc : Thread nD τ).loc main_arg3)))
          (Cheb.cur3 (m ((c.tc : Thread nD τ).loc main_arg4))) (Cheb.cur1 (m ((c.tc : Thread nD τ).loc main_arg5)))
          (q 0) (q 1) :=
  (congrArg (Cert.ReferenceIdeal.ValueP.res_main_v39 (F := Ideal) m c) (eq_ix2 q)).trans (res_apply m c (q 0) (q 1))

end Cert.RefBridge

end
-- ==== Proof.ChebAlgebra.lean ====
/-
  The algebra behind the re-association, over the real numbers.

  Every input is a real number, so every intermediate value of both arrangements is the image of a real number in
  the extended reals: sums, products, differences and maxima of real numbers stay real.  Each extended-real
  definition therefore has a real-valued twin, and the extended-real value is the coercion of the twin.  In the reals,
  matrix products associate and distribute over sums and differences, which gives the layer identity
    τ·(G·((G·X)·W₂)) + (X·(W₀ − W₂) + (G·X)·W₁ + b) = X·W₀ + (G·X)·W₁ + (τ·(G·(G·X)) − X)·W₂ + b.
  A lane of a matrix product depends on the right factor only through that lane's column, so the zero-padded second
  layer agrees with the unpadded one on the first c lanes.  Masking the padded lanes with minus infinity in the
  maximum and with zero in the sum leaves the maximum and the sum over the first c lanes.  The row is not empty, so
  its maximum m is a real number, the sum S of exponentials is a positive real number, and both spellings of the
  log-softmax are the real number L − m − log S.
-/
import proofs.«134233_g4183298146899_cont_8to1_b_1680_5_alg».proof.Proof.Spec

noncomputable section

namespace Cheb

open scoped BigOperators
open Idealize.ShloMosaic

/-! ## The three literal words -/

theorem wZero_eq : Cheb.wZero = 0 := by simp [Ideal.ofBits, Ideal.ieee]

theorem wTwo_eq : Cheb.wTwo = ((2 : ℝ) : EReal) := by
  simp [Ideal.ofBits, Ideal.ieee]
  rw [← EReal.coe_mul]
  norm_num

theorem wNinf_eq : Cheb.wNinf = ⊥ := by simp [Ideal.ofBits, Ideal.ieee]

/-! ## Coercions of sums and maxima -/

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  refine Finset.induction_on s (by simp) ?_
  intro a s ha ih
  rw [Finset.sum_insert ha, Finset.sum_insert ha, EReal.coe_add, ih]

/-- The coercion is monotone, so it commutes with the maximum. -/
theorem coe_max (x y : ℝ) : ((max x y : ℝ) : EReal) = max (x : EReal) (y : EReal) :=
  EReal.coe_strictMono.monotone.map_max

/-! ## The matrix product over the reals -/

/-- The matrix product of real matrices, entry by entry. -/
def rmul {a k b : ℕ} (A : Fin a → Fin k → ℝ) (B : Fin k → Fin b → ℝ) : Fin a → Fin b → ℝ :=
  fun i j => ∑ t : Fin k, A i t * B t j

/-- The extended-real product of coerced real matrices is the coercion of the real product. -/
theorem mmul_coe {a k b : ℕ} (A : Fin a → Fin k → ℝ) (B : Fin k → Fin b → ℝ) :
    mmul (fun i j => ((A i j : ℝ) : EReal)) (fun i j => ((B i j : ℝ) : EReal))
      = fun i j => ((rmul A B i j : ℝ) : EReal) := by
  funext i j
  simp only [mmul, rmul, coe_sum, EReal.coe_mul]

/-- Matrix products associate. -/
theorem rmul_assoc {a k m b : ℕ} (A : Fin a → Fin k → ℝ) (B : Fin k → Fin m → ℝ) (C : Fin m → Fin b → ℝ)
    (i : Fin a) (j : Fin b) : rmul A (rmul B C) i j = rmul (rmul A B) C i j := by
  simp only [rmul, Finset.mul_sum, Finset.sum_mul]
  rw [Finset.sum_comm]
  exact Finset.sum_congr rfl fun s _ => Finset.sum_congr rfl fun t _ => (mul_assoc _ _ _).symm

/-- The product distributes over a difference of right factors. -/
theorem rmul_sub_right {a k b : ℕ} (A : Fin a → Fin k → ℝ) (B C : Fin k → Fin b → ℝ) (i : Fin a) (j : Fin b) :
    rmul A (fun s l => B s l - C s l) i j = rmul A B i j - rmul A C i j := by
  simp only [rmul, mul_sub, Finset.sum_sub_distrib]

/-- The product of a scaled difference of left factors. -/
theorem rmul_smul_sub_left {a k b : ℕ} (t : ℝ) (A C : Fin a → Fin k → ℝ) (B : Fin k → Fin b → ℝ)
    (i : Fin a) (j : Fin b) :
    rmul (fun i s => t * A i s - C i s) B i j = t * rmul A B i j - rmul C B i j := by
  simp only [rmul, sub_mul, Finset.sum_sub_distrib, Finset.mul_sum, mul_assoc]

/-! ## One layer over the reals -/

/-- The plain arrangement of a layer over the reals. -/
def rlayerPlain {n a b : ℕ} (t : ℝ) (X : Fin n → Fin a → ℝ) (G : Fin n → Fin n → ℝ) (W : Fin 3 → Fin a → Fin b → ℝ)
    (bias : Fin b → ℝ) : Fin n → Fin b → ℝ := fun i l =>
  ((rmul X (W 0) i l + rmul (rmul G X) (W 1) i l)
    + rmul (fun i j => t * rmul G (rmul G X) i j - X i j) (W 2) i l) + bias l

/-- The re-associated arrangement of a layer over the reals. -/
def rlayerRe {n a b : ℕ} (t : ℝ) (X : Fin n → Fin a → ℝ) (G : Fin n → Fin n → ℝ) (W : Fin 3 → Fin a → Fin b → ℝ)
    (bias : Fin b → ℝ) : Fin n → Fin b → ℝ := fun i l =>
  t * rmul G (rmul (rmul G X) (W 2)) i l
    + ((rmul X (fun j l => W 0 j l - W 2 j l) i l + rmul (rmul G X) (W 1) i l) + bias l)

/-- The re-associated second layer as its passes leave it: the bias is added before the term with W 1. -/
def rlayerRe2 {n a b : ℕ} (t : ℝ) (X : Fin n → Fin a → ℝ) (G : Fin n → Fin n → ℝ) (W : Fin 3 → Fin a → Fin b → ℝ)
    (bias : Fin b → ℝ) : Fin n → Fin b → ℝ := fun i l =>
  t * rmul G (rmul (rmul G X) (W 2)) i l
    + ((rmul X (fun j l => W 0 j l - W 2 j l) i l + bias l) + rmul (rmul G X) (W 1) i l)

/-- The layer identity over the reals. -/
theorem rlayerRe_eq_plain {n a b : ℕ} (t : ℝ) (X : Fin n → Fin a → ℝ) (G : Fin n → Fin n → ℝ)
    (W : Fin 3 → Fin a → Fin b → ℝ) (bias : Fin b → ℝ) : rlayerRe t X G W bias = rlayerPlain t X G W bias := by
  funext i l
  simp only [rlayerRe, rlayerPlain, rmul_sub_right, rmul_smul_sub_left, rmul_assoc G (rmul G X) (W 2)]
  ring

/-- The same identity for the second layer's order of additions. -/
theorem rlayerRe2_eq_plain {n a b : ℕ} (t : ℝ) (X : Fin n → Fin a → ℝ) (G : Fin n → Fin n → ℝ)
    (W : Fin 3 → Fin a → Fin b → ℝ) (bias : Fin b → ℝ) : rlayerRe2 t X G W bias = rlayerPlain t X G W bias := by
  funext i l
  simp only [rlayerRe2, rlayerPlain, rmul_sub_right, rmul_smul_sub_left, rmul_assoc G (rmul G X) (W 2)]
  ring

/-- A lane of a layer depends on the weights and the bias only through that lane. -/
theorem rlayerPlain_col {n a b b' : ℕ} (t : ℝ) (X : Fin n → Fin a → ℝ) (G : Fin n → Fin n → ℝ)
    (W : Fin 3 → Fin a → Fin b → ℝ) (bias : Fin b → ℝ) (W' : Fin 3 → Fin a → Fin b' → ℝ) (bias' : Fin b' → ℝ)
    (l : Fin b) (l' : Fin b') (hW : ∀ k s, W k s l = W' k s l') (hb : bias l = bias' l') (i : Fin n) :
    rlayerPlain t X G W bias i l = rlayerPlain t X G W' bias' i l' := by
  simp only [rlayerPlain, rmul, hW, hb]

/-! ## The extended-real layers of real inputs are coercions of the real layers -/

theorem layerPlain_coe {n a b : ℕ} (t : ℝ) (X : Fin n → Fin a → ℝ) (G : Fin n → Fin n → ℝ)
    (W : Fin 3 → Fin a → Fin b → ℝ) (bias : Fin b → ℝ) :
    layerPlain (t : EReal) (fun i j => ((X i j : ℝ) : EReal)) (fun i j => ((G i j : ℝ) : EReal))
        (fun k i j => ((W k i j : ℝ) : EReal)) (fun l => ((bias l : ℝ) : EReal))
      = fun i l => ((rlayerPlain t X G W bias i l : ℝ) : EReal) := by
  funext i l
  simp only [layerPlain, rlayerPlain, mmul_coe, ← EReal.coe_mul, ← EReal.coe_sub, ← EReal.coe_add]

theorem layerRe_coe {n a b : ℕ} (t : ℝ) (X : Fin n → Fin a → ℝ) (G : Fin n → Fin n → ℝ)
    (W : Fin 3 → Fin a → Fin b → ℝ) (bias : Fin b → ℝ) :
    layerRe (t : EReal) (fun i j => ((X i j : ℝ) : EReal)) (fun i j => ((G i j : ℝ) : EReal))
        (fun k i j => ((W k i j : ℝ) : EReal)) (fun l => ((bias l : ℝ) : EReal))
      = fun i l => ((rlayerRe t X G W bias i l : ℝ) : EReal) := by
  funext i l
  simp only [layerRe, passP, passR, rlayerRe, mmul_coe, ← EReal.coe_mul, ← EReal.coe_sub, ← EReal.coe_add]

/-- The hidden features over the reals: the first layer, then the maximum with zero. -/
def rhid {n d h : ℕ} (t : ℝ) (X : Fin n → Fin d → ℝ) (G : Fin n → Fin n → ℝ) (W0 : Fin 3 → Fin d → Fin h → ℝ)
    (b0 : Fin h → ℝ) : Fin n → Fin h → ℝ := fun i l => max (rlayerPlain t X G W0 b0 i l) 0

theorem hidPlain_coe {n d h : ℕ} (t : ℝ) (X : Fin n → Fin d → ℝ) (G : Fin n → Fin n → ℝ)
    (W0 : Fin 3 → Fin d → Fin h → ℝ) (b0 : Fin h → ℝ) :
    hidPlain (t : EReal) 0 (fun i j => ((X i j : ℝ) : EReal)) (fun i j => ((G i j : ℝ) : EReal))
        (fun k i j => ((W0 k i j : ℝ) : EReal)) (fun l => ((b0 l : ℝ) : EReal))
      = fun i l => ((rhid t X G W0 b0 i l : ℝ) : EReal) := by
  funext i l
  simp only [hidPlain, rhid, layerPlain_coe, coe_max, EReal.coe_zero]

theorem hidRe_coe {n d h : ℕ} (t : ℝ) (X : Fin n → Fin d → ℝ) (G : Fin n → Fin n → ℝ)
    (W0 : Fin 3 → Fin d → Fin h → ℝ) (b0 : Fin h → ℝ) :
    hidRe (t : EReal) 0 (fun i j => ((X i j : ℝ) : EReal)) (fun i j => ((G i j : ℝ) : EReal))
        (fun k i j => ((W0 k i j : ℝ) : EReal)) (fun l => ((b0 l : ℝ) : EReal))
      = fun i l => ((rhid t X G W0 b0 i l : ℝ) : EReal) := by
  funext i l
  simp only [hidRe, rhid, layerRe_coe, rlayerRe_eq_plain, coe_max, EReal.coe_zero]

theorem logitsPlain_coe {n d h c : ℕ} (t : ℝ) (X : Fin n → Fin d → ℝ) (G : Fin n → Fin n → ℝ)
    (W0 : Fin 3 → Fin d → Fin h → ℝ) (b0 : Fin h → ℝ) (W1 : Fin 3 → Fin h → Fin c → ℝ) (b1 : Fin c → ℝ) :
    logitsPlain (t : EReal) 0 (fun i j => ((X i j : ℝ) : EReal)) (fun i j => ((G i j : ℝ) : EReal))
        (fun k i j => ((W0 k i j : ℝ) : EReal)) (fun l => ((b0 l : ℝ) : EReal))
        (fun k i j => ((W1 k i j : ℝ) : EReal)) (fun l => ((b1 l : ℝ) : EReal))
      = fun i l => ((rlayerPlain t (rhid t X G W0 b0) G W1 b1 i l : ℝ) : EReal) := by
  unfold logitsPlain
  rw [hidPlain_coe]
  exact layerPlain_coe t (rhid t X G W0 b0) G W1 b1

theorem logitsRe_coe {n d h p : ℕ} (t : ℝ) (X : Fin n → Fin d → ℝ) (G : Fin n → Fin n → ℝ)
    (W0 : Fin 3 → Fin d → Fin h → ℝ) (b0 : Fin h → ℝ) (W1 : Fin 3 → Fin h → Fin p → ℝ) (b1 : Fin p → ℝ) :
    logitsRe (t : EReal) 0 (fun i j => ((X i j : ℝ) : EReal)) (fun i j => ((G i j : ℝ) : EReal))
        (fun k i j => ((W0 k i j : ℝ) : EReal)) (fun l => ((b0 l : ℝ) : EReal))
        (fun k i j => ((W1 k i j : ℝ) : EReal)) (fun l => ((b1 l : ℝ) : EReal))
      = fun i l => ((rlayerPlain t (rhid t X G W0 b0) G W1 b1 i l : ℝ) : EReal) := by
  funext i l
  rw [← rlayerRe2_eq_plain]
  simp only [logitsRe, passP, passS1, passR1, hidRe_coe, rlayerRe2, mmul_coe, ← EReal.coe_mul, ← EReal.coe_sub,
    ← EReal.coe_add]

/-! ## Masked maxima and sums -/

/-- The maximum of a nonempty row of reals. -/
def rmax {k : ℕ} (f : Fin k → ℝ) (j : Fin k) : ℝ := Finset.univ.sup' ⟨j, Finset.mem_univ j⟩ f

/-- The fold of the maximum from minus infinity over a nonempty row of reals is the row's real maximum. -/
theorem rowMax_coe {k : ℕ} (f : Fin k → ℝ) (j : Fin k) :
    rowMax ⊥ (fun t => ((f t : ℝ) : EReal)) = ((rmax f j : ℝ) : EReal) := by
  unfold rowMax rmax
  apply le_antisymm
  · rw [Finset.fold_max_le]
    exact ⟨bot_le, fun x hx => EReal.coe_le_coe_iff.2 (Finset.le_sup' f hx)⟩
  · obtain ⟨x, hx, hxe⟩ := Finset.exists_mem_eq_sup' ⟨j, Finset.mem_univ j⟩ f
    rw [Finset.le_fold_max]
    exact Or.inr ⟨x, hx, le_of_eq (congrArg _ hxe)⟩

/-- Masking the lanes from c on with minus infinity leaves the maximum over the first c lanes. -/
theorem rowMax_masked {c p : ℕ} (hcp : c ≤ p) (F : Fin p → EReal) :
    rowMax ⊥ (fun t : Fin p => if t.val < c then F t else ⊥) = rowMax ⊥ (fun j : Fin c => F (Fin.castLE hcp j)) := by
  unfold rowMax
  apply le_antisymm
  · rw [Finset.fold_max_le]
    refine ⟨bot_le, fun t _ => ?_⟩
    by_cases h : t.val < c
    · rw [if_pos h, Finset.le_fold_max]
      exact Or.inr ⟨⟨t.val, h⟩, Finset.mem_univ _, le_of_eq (congrArg F (Fin.ext rfl))⟩
    · rw [if_neg h]
      exact bot_le
  · rw [Finset.fold_max_le]
    refine ⟨bot_le, fun j _ => ?_⟩
    rw [Finset.le_fold_max]
    refine Or.inr ⟨Fin.castLE hcp j, Finset.mem_univ _, ?_⟩
    rw [if_pos (show (Fin.castLE hcp j).val < c from j.isLt)]

/-- Masking the lanes from c on with zero leaves the sum over the first c lanes. -/
theorem sum_masked {c p : ℕ} (hcp : c ≤ p) (g : Fin p → EReal) :
    (∑ t : Fin p, if t.val < c then g t else 0) = ∑ j : Fin c, g (Fin.castLE hcp j) := by
  rw [← Finset.sum_filter]
  symm
  refine Finset.sum_bij (fun j _ => Fin.castLE hcp j) ?_ ?_ ?_ ?_
  · intro j _
    exact Finset.mem_filter.2 ⟨Finset.mem_univ _, j.isLt⟩
  · intro a _ b _ hab
    exact Fin.castLE_injective hcp hab
  · intro t ht
    exact ⟨⟨t.val, (Finset.mem_filter.1 ht).2⟩, Finset.mem_univ _, Fin.ext rfl⟩
  · intro j _
    rfl

/-! ## Both spellings of the log-softmax on a real row -/

/-- The plain spelling: with m the row's maximum and S the sum of the exponentials of the row minus m, the value
    is (L − m) − log S. -/
theorem logSoftmaxPlain_coe {n c : ℕ} (L : Fin n → Fin c → ℝ) (i : Fin n) (j : Fin c) :
    logSoftmaxPlain 0 ⊥ Ideal.exp Ideal.log (fun i l => ((L i l : ℝ) : EReal)) i j
      = (((L i j - rmax (L i) j) - Real.log (∑ t : Fin c, Real.exp (L i t - rmax (L i) j)) : ℝ) : EReal) := by
  have hm : rowMax ⊥ (fun t => ((L i t : ℝ) : EReal)) = ((rmax (L i) j : ℝ) : EReal) := rowMax_coe (L i) j
  have hS : ¬ (∑ t : Fin c, Real.exp (L i t - rmax (L i) j)) ≤ 0 :=
    not_le.2 (Finset.sum_pos (fun t _ => Real.exp_pos _) ⟨j, Finset.mem_univ j⟩)
  simp only [logSoftmaxPlain, hm, max_bot_left, ← EReal.coe_sub, Ideal.exp_coe, ← coe_sum, zero_add, Ideal.log_coe,
    if_neg hS]

/-- The masked spelling on p lanes whose first c lanes are the row L: the value at a lane below c is
    L − (m + log S). -/
theorem logSoftmaxMasked_coe {n c p : ℕ} (hcp : c ≤ p) (L' : Fin n → Fin p → ℝ) (L : Fin n → Fin c → ℝ)
    (hL : ∀ i (j : Fin c), L' i (Fin.castLE hcp j) = L i j) (i : Fin n) (j : Fin c) :
    logSoftmaxMasked 0 ⊥ Ideal.exp Ideal.log c (fun i l => ((L' i l : ℝ) : EReal)) i (Fin.castLE hcp j)
      = ((L i j - (rmax (L i) j + Real.log (∑ t : Fin c, Real.exp (L i t - rmax (L i) j))) : ℝ) : EReal) := by
  have hm : rowMax ⊥ (fun t : Fin p => if t.val < c then ((L' i t : ℝ) : EReal) else ⊥)
      = ((rmax (L i) j : ℝ) : EReal) := by
    rw [rowMax_masked hcp (fun t => ((L' i t : ℝ) : EReal))]
    simp only [hL]
    exact rowMax_coe (L i) j
  have hS : ¬ (∑ t : Fin c, Real.exp (L i t - rmax (L i) j)) ≤ 0 :=
    not_le.2 (Finset.sum_pos (fun t _ => Real.exp_pos _) ⟨j, Finset.mem_univ j⟩)
  have hlt : ∀ t : Fin c, (Fin.castLE hcp t).val < c := fun t => t.isLt
  simp only [logSoftmaxMasked, hm]
  rw [sum_masked hcp (fun t : Fin p =>
    Ideal.exp ((if t.val < c then ((L' i t : ℝ) : EReal) else ⊥) - ((rmax (L i) j : ℝ) : EReal)))]
  simp only [hlt, if_true, hL, ← EReal.coe_sub, Ideal.exp_coe, ← coe_sum, Ideal.log_coe, if_neg hS, ← EReal.coe_add]

/-! ## The two arrangements agree on real inputs -/

/-- On real inputs, with the second layer's weights and bias padded by zero lanes from c to p lanes, the masked
    log-softmax of the re-associated logits at a lane below c is the plain computation at that lane. -/
theorem reassoc_eq_plain {n d h c p : ℕ} (hcp : c ≤ p)
    (x : Fin n → Fin d → ℝ) (g : Fin n → Fin n → ℝ) (w0 : Fin 3 → Fin d → Fin h → ℝ) (b0 : Fin h → ℝ)
    (w1 : Fin 3 → Fin h → Fin c → ℝ) (b1 : Fin c → ℝ) (t : ℝ)
    (W1p : Fin 3 → Fin h → Fin p → EReal) (b1p : Fin p → EReal)
    (hW : ∀ k j (l : Fin p), W1p k j l = if hl : l.val < c then ((w1 k j ⟨l.val, hl⟩ : ℝ) : EReal) else 0)
    (hb : ∀ l : Fin p, b1p l = if hl : l.val < c then ((b1 ⟨l.val, hl⟩ : ℝ) : EReal) else 0)
    (i : Fin n) (j : Fin c) :
    Cheb.logSoftmaxMasked (0 : EReal) ⊥ Ideal.exp Ideal.log c
        (Cheb.logitsRe ((t : ℝ) : EReal) 0 (fun i j => ((x i j : ℝ) : EReal)) (fun i j => ((g i j : ℝ) : EReal))
           (fun k i j => ((w0 k i j : ℝ) : EReal)) (fun l => ((b0 l : ℝ) : EReal)) W1p b1p)
        i (Fin.castLE hcp j)
      = Cheb.outPlain ((t : ℝ) : EReal) 0 ⊥ Ideal.exp Ideal.log (fun i j => ((x i j : ℝ) : EReal))
          (fun i j => ((g i j : ℝ) : EReal))
          (fun k i j => ((w0 k i j : ℝ) : EReal)) (fun l => ((b0 l : ℝ) : EReal))
          (fun k i j => ((w1 k i j : ℝ) : EReal)) (fun l => ((b1 l : ℝ) : EReal)) i j := by
  -- the padded weights and bias are coercions of real arrays
  have hW' : W1p = fun k s l =>
      (((if hl : l.val < c then w1 k s ⟨l.val, hl⟩ else 0 : ℝ)) : EReal) := by
    funext k s l
    rw [hW]
    by_cases hl : l.val < c
    · rw [dif_pos hl, dif_pos hl]
    · rw [dif_neg hl, dif_neg hl, EReal.coe_zero]
  have hb' : b1p = fun l => (((if hl : l.val < c then b1 ⟨l.val, hl⟩ else 0 : ℝ)) : EReal) := by
    funext l
    rw [hb]
    by_cases hl : l.val < c
    · rw [dif_pos hl, dif_pos hl]
    · rw [dif_neg hl, dif_neg hl, EReal.coe_zero]
  rw [hW', hb', logitsRe_coe]
  unfold outPlain
  rw [logitsPlain_coe]
  rw [logSoftmaxMasked_coe hcp _ (rlayerPlain t (rhid t x g w0 b0) g w1 b1) _ i j, logSoftmaxPlain_coe]
  · rw [sub_add_eq_sub_sub]
  · intro i' j'
    refine rlayerPlain_col t (rhid t x g w0 b0) g _ _ w1 b1 (Fin.castLE hcp j') j' ?_ ?_ i'
    · intro k s
      exact dif_pos j'.isLt
    · exact dif_pos j'.isLt

/-- The same for extended-real inputs that are known to be real numbers. -/
theorem reassoc_eq_plain_of_real {n d h c p : ℕ} (hcp : c ≤ p) (τ z ninf : EReal) (hτ : ∃ t : ℝ, τ = t) (hz : z = 0)
    (hninf : ninf = ⊥)
    (X : Fin n → Fin d → EReal) (G : Fin n → Fin n → EReal) (W0 : Fin 3 → Fin d → Fin h → EReal) (B0 : Fin h → EReal)
    (W1 : Fin 3 → Fin h → Fin c → EReal) (B1 : Fin c → EReal)
    (hX : ∀ i j, ∃ r : ℝ, X i j = r) (hG : ∀ i j, ∃ r : ℝ, G i j = r) (hW0 : ∀ k i j, ∃ r : ℝ, W0 k i j = r)
    (hB0 : ∀ l, ∃ r : ℝ, B0 l = r)
    (hW1 : ∀ k i j, ∃ r : ℝ, W1 k i j = r) (hB1 : ∀ l, ∃ r : ℝ, B1 l = r)
    (W1p : Fin 3 → Fin h → Fin p → EReal) (b1p : Fin p → EReal)
    (hW : ∀ k j (l : Fin p), W1p k j l = if hl : l.val < c then W1 k j ⟨l.val, hl⟩ else 0)
    (hb : ∀ l : Fin p, b1p l = if hl : l.val < c then B1 ⟨l.val, hl⟩ else 0)
    (i : Fin n) (j : Fin c) :
    Cheb.logSoftmaxMasked z ninf Ideal.exp Ideal.log c (Cheb.logitsRe τ z X G W0 B0 W1p b1p) i (Fin.castLE hcp j)
      = Cheb.outPlain τ z ninf Ideal.exp Ideal.log X G W0 B0 W1 B1 i j := by
  obtain ⟨t, rfl⟩ := hτ
  subst hz hninf
  choose x hx using hX
  choose g hg using hG
  choose w0 hw0 using hW0
  choose b0 hb0 using hB0
  choose w1 hw1 using hW1
  choose b1 hb1 using hB1
  obtain rfl : X = fun i j => ((x i j : ℝ) : EReal) := funext fun i => funext fun j => hx i j
  obtain rfl : G = fun i j => ((g i j : ℝ) : EReal) := funext fun i => funext fun j => hg i j
  obtain rfl : W0 = fun k i j => ((w0 k i j : ℝ) : EReal) :=
    funext fun k => funext fun i => funext fun j => hw0 k i j
  obtain rfl : B0 = fun l => ((b0 l : ℝ) : EReal) := funext fun l => hb0 l
  obtain rfl : W1 = fun k i j => ((w1 k i j : ℝ) : EReal) :=
    funext fun k => funext fun i => funext fun j => hw1 k i j
  obtain rfl : B1 = fun l => ((b1 l : ℝ) : EReal) := funext fun l => hb1 l
  exact reassoc_eq_plain hcp x g w0 b0 w1 b1 t W1p b1p hW hb i j

end Cheb

end
-- ==== Proof.LibFiniteArrays.lean ====
/-
  Arrays all of whose entries are finite.  A program states "every entry of `x` is finite" as: the absolute
  value of every entry is below plus infinity, all these comparisons reduced by "and" into one bit that is 1.
  On the extended reals, `|x| < +∞` excludes both infinities, so such an array is the entrywise coercion of an
  array of real numbers.
-/
import Idealize.ShloMosaic.Lib.ReduceAll
import Idealize.ShloMosaic.Lib.ValueIdx
import Idealize.ShloMosaic.PureOps.Ideal

noncomputable section

namespace Cert.FiniteArrays

open Idealize.ShloMosaic

/-- The scalar shape has one index. -/
instance : Subsingleton (⟨0, ![]⟩ : Shape).Idx := ⟨fun a b => funext fun d => d.elim0⟩

/-- The pattern of plus infinity denotes the top of the extended reals. -/
theorem pos_inf : Ideal.ofBits .f32 0x7F800000#32 = (⊤ : EReal) := by
  simp [Ideal.ofBits, Ideal.ieee]

/-- An extended real whose absolute value compares below plus infinity is a real number. -/
theorem real_of_abs_lt_top (x : EReal)
    (h : FloatOps.cmpf (F := Ideal) (φ := .f32) .olt (FloatOps.hostAbsf x) (FloatOps.ofBits .f32 0x7F800000#32) = 1#1) :
    ∃ r : ℝ, x = (r : EReal) := by
  have h' : Ideal.cmp .olt (max x (-x)) (⊤ : EReal) = 1#1 := by rw [← pos_inf]; exact h
  induction x using EReal.rec with
  | bot => simp [Ideal.cmp] at h'
  | coe r => exact ⟨r, rfl⟩
  | top => simp [Ideal.cmp] at h'

/-- An array whose finiteness test — every `|x i| < +∞`, reduced by "and" from 1 into one bit — answers 1 is the
    entrywise coercion of a real array. -/
theorem exists_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf x) (broadcastInDim s ![] hb (constant ⟨0, ![]⟩ .f32 0x7F800000#32)))
      (constantI ⟨0, ![]⟩ 1 1#1) hr hu ValueIdx.ix0 = 1#1) :
    ∃ f : s.Idx → ℝ, x = fun i => ((f i : ℝ) : EReal) := by
  have h : ∀ i, ∃ r : ℝ, x i = (r : EReal) := fun i =>
    real_of_abs_lt_top (x i) (Host.reduce_andi_all _ _ hr hu _ e i)
  choose f hf using h
  exact ⟨f, funext hf⟩

end Cert.FiniteArrays

end
-- ==== Proof.Finite.lean ====
/-
  From the program's finiteness test on the six inputs to "every entry of every input is a real number".

  The test is one bit: for each input, the absolute value of every entry is compared below plus infinity and the
  comparisons are reduced by "and" from 1; the six results are joined by "and".  The bit being 1 makes each of the
  six reductions 1, and an array whose reduction is 1 is the entrywise coercion of a real array (on the extended
  reals an absolute value below plus infinity excludes both infinities).
-/
import proofs.«134233_g4183298146899_cont_8to1_b_1680_5_alg».proof.Pre_finite_inputs
import proofs.«134233_g4183298146899_cont_8to1_b_1680_5_alg».proof.Proof.Gen.Pre_finite_inputs
import proofs.«134233_g4183298146899_cont_8to1_b_1680_5_alg».proof.Proof.LibFiniteArrays

noncomputable section

namespace Cert.FiniteBridge

open Idealize.ShloMosaic Cert.Pre_finite_inputs

/-- If the finiteness test of the six inputs answers 1, every entry of every input is a real number. -/
theorem real_of_pre [Cert.Pre_finite_inputs.Facts] (x : FVec Ideal S10000x128 .f32)
    (gso : FVec Ideal S10000x10000 .f32) (W0 : FVec Ideal S3x128x128 .f32) (b0 : FVec Ideal S128 .f32)
    (W1 : FVec Ideal S3x128x40 .f32) (b1 : FVec Ideal S40 .f32)
    (h : Cert.Pre_finite_inputs.fn (F := Ideal) x gso W0 b0 W1 b1 = fun _ => 1#1) :
    (∀ i, ∃ r : ℝ, x i = ((r : ℝ) : EReal)) ∧ (∀ i, ∃ r : ℝ, gso i = ((r : ℝ) : EReal))
      ∧ (∀ i, ∃ r : ℝ, W0 i = ((r : ℝ) : EReal)) ∧ (∀ i, ∃ r : ℝ, b0 i = ((r : ℝ) : EReal))
      ∧ (∀ i, ∃ r : ℝ, W1 i = ((r : ℝ) : EReal)) ∧ (∀ i, ∃ r : ℝ, b1 i = ((r : ℝ) : EReal)) := by
  have h0 := congrFun h ValueIdx.ix0
  dsimp only [Cert.Pre_finite_inputs.fn, Cert.Pre_finite_inputs.fn_part1] at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  obtain ⟨f0, hf0⟩ := Cert.FiniteArrays.exists_real x _ _ _ e0
  obtain ⟨f1, hf1⟩ := Cert.FiniteArrays.exists_real gso _ _ _ e1
  obtain ⟨f2, hf2⟩ := Cert.FiniteArrays.exists_real W0 _ _ _ e2
  obtain ⟨f3, hf3⟩ := Cert.FiniteArrays.exists_real b0 _ _ _ e3
  obtain ⟨f4, hf4⟩ := Cert.FiniteArrays.exists_real W1 _ _ _ e4
  obtain ⟨f5, hf5⟩ := Cert.FiniteArrays.exists_real b1 _ _ _ e5
  exact ⟨fun i => ⟨f0 i, congrFun hf0 i⟩, fun i => ⟨f1 i, congrFun hf1 i⟩, fun i => ⟨f2 i, congrFun hf2 i⟩,
    fun i => ⟨f3 i, congrFun hf3 i⟩, fun i => ⟨f4 i, congrFun hf4 i⟩, fun i => ⟨f5 i, congrFun hf5 i⟩⟩

end Cert.FiniteBridge

end
-- ==== Proof.Claims.lean ====
/-
  The five claims, assembled.

  Frames. Each program's run ends, faults nowhere and leaves its six argument arrays as launched: for the two kernel
  programs this is read off the run of the five items (the host preparation and the four row-blocked passes), whose
  final state holds every buffer at the fold of the items from the launch memory — no item writes an argument —; for
  the reference it is its run with the result dropped. The idealization rewrote nothing, so that conjunct is trivial.

  Values. The kernel program's result array ends at what the fourth pass's write-backs leave, which, followed back
  through the four passes and the host preparation, is the masked row-wise log-softmax of the re-associated logits
  2·(G·((G·H)·W₂)) + (H·(W₀ − W₂) + b + (G·H)·W₁), H the clamped first layer in the same arrangement, the second
  layer's weights and bias padded with zero lanes. The reference's result is the log-softmax of the logits in the
  plain arrangement H·W₀ + (G·H)·W₁ + (2·(G·(G·H)) − H)·W₂ + b. The inputs being finite, every entry involved is a
  real number, matrix products associate and distribute, the zero lanes contribute nothing, the masked maximum and sum
  are those over the forty real lanes, and x − (m + log s) = (x − m) − log s: the two results agree entry by entry.
-/
import proofs.«134233_g4183298146899_cont_8to1_b_1680_5_alg».proof.Defs
import proofs.«134233_g4183298146899_cont_8to1_b_1680_5_alg».proof.Proof.Gen.Kernel
import proofs.«134233_g4183298146899_cont_8to1_b_1680_5_alg».proof.Proof.Gen.KernelIdeal
import proofs.«134233_g4183298146899_cont_8to1_b_1680_5_alg».proof.Proof.Gen.ReferenceIdeal
import proofs.«134233_g4183298146899_cont_8to1_b_1680_5_alg».proof.Proof.Gen.Pre_finite_inputs
import proofs.«134233_g4183298146899_cont_8to1_b_1680_5_alg».proof.Proof.RunMain
import proofs.«134233_g4183298146899_cont_8to1_b_1680_5_alg».proof.Proof.WRunMain
import proofs.«134233_g4183298146899_cont_8to1_b_1680_5_alg».proof.Proof.ChainB
import proofs.«134233_g4183298146899_cont_8to1_b_1680_5_alg».proof.Proof.RefValue
import proofs.«134233_g4183298146899_cont_8to1_b_1680_5_alg».proof.Proof.ChebAlgebra
import proofs.«134233_g4183298146899_cont_8to1_b_1680_5_alg».proof.Proof.Finite

set_option maxRecDepth 16384

noncomputable section

namespace Cert.Proof.Claims

open Idealize.ShloMosaic Idealize.SL.Sem Idealize.ShloMosaic.ValueIdx

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)
theorem preserves : Cert.preserves_Kernel_KernelIdeal := trivial

/-- Both idealized programs run; the reference's result, entry by entry, is the plain arrangement of the arguments,
    the kernel's the re-associated one, and under the inputs' finiteness the two are one array. -/
theorem algebraic : Cert.algebraic_KernelIdeal_ReferenceIdeal := by
  intro m ρ m' ρ' hpre hagree
  refine ⟨fun c => (Cert.KernelIdeal.Hand.dat3 (Cert.KernelIdeal.Hand.V4 m ρ) c).arrAt 3 Cert.KernelIdeal.cfg3.N,
    Cert.KernelIdeal.Hand.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  funext q
  obtain ⟨i, j, rfl⟩ : ∃ (i : Fin 10000) (j : Fin 40), q = ix2 i j := ⟨q 0, q 1, eq_ix2 q⟩
  obtain ⟨hx, hg, hw0, hb0, hw1, hb1⟩ := Cert.FiniteBridge.real_of_pre _ _ _ _ _ _ (hpre c)
  obtain ⟨e0, e1, e2, e3, e4, e5⟩ := hagree c
  refine (Cert.RefBridge.res_apply m' c i j).trans ?_
  rw [e0, e1, e2, e3, e4, e5]
  refine Eq.trans ?_ (Cert.KernelIdeal.Chain.result_eq m ρ c i j).symm
  exact (Cheb.reassoc_eq_plain_of_real (by decide : 40 ≤ 128) Cheb.wTwo Cheb.wZero Cheb.wNinf ⟨2, Cheb.wTwo_eq⟩ Cheb.wZero_eq Cheb.wNinf_eq
    _ _ _ _ _ _ (fun i j => hx _) (fun i j => hg _) (fun k i j => hw0 _) (fun l => hb0 _) (fun k i j => hw1 _) (fun l => hb1 _)
    (Cert.KernelIdeal.Chain.padW1 m c) (Cert.KernelIdeal.Chain.padB1 m c) (fun k j l => rfl) (fun l => rfl) i j).symm

end Cert.Proof.Claims

end
-- ==== Proof.lean ====
/-
  The certificate's proof: a two-layer Chebyshev graph convolution of order three with a dense operator, followed by a
  row-wise log-softmax, computed by four row-blocked passes over the operator in a re-associated arrangement, against the
  plain arrangement of the same computation. The witnesses of the programs' stated side conditions come first; the five
  claims are proved in the module imported here, over the modules it imports: the run of each kernel program as its
  five items, the contents each pass leaves, the reference's result read entry by entry, and the algebra that joins the
  two arrangements over the real numbers.
-/
import proofs.«134233_g4183298146899_cont_8to1_b_1680_5_alg».proof.Proof.Claims

noncomputable section

namespace Cert.Proof

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
